-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v190)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v190) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x500000 : Shape := ⟨2, ![2, 500000]⟩
abbrev S100000 : Shape := ⟨1, ![100000]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000 : S_.BroadcastsInDim S100000 (![] : Fin 0 → Fin S100000.rank)
  reducesTo_S100000_S_d0 : S100000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg18 : FVec F S256 .f32) (main_arg19 : FVec F S256 .f32) (main_arg20 : FVec F S256 .f32) (main_v63 : IVec S_ 1) (main_v67 : IVec S_ 1) : IVec S_ 1 :=
  let main_v68 : IVec S_ 1 := andi main_v63 main_v67
  let main_v69 : FVec F S256 .f32 := Host.absf main_arg18
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg19
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg20
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  main_v83

def fn_part3 {F : FTy → Type} [FloatOps F] (main_arg15 : FVec F S256 .f32) (main_arg16 : FVec F S256 .f32) (main_arg17 : FVec F S256 .f32) (main_arg18 : FVec F S256 .f32) (main_arg19 : FVec F S256 .f32) (main_arg20 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg15
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg17
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg18 main_arg19 main_arg20 main_v63 main_v67

def fn_part2 {F : FTy → Type} [FloatOps F] (main_arg11 : FVec F S256x256 .f32) (main_arg12 : FVec F S256 .f32) (main_arg13 : FVec F S256x256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_v33 : IVec S_ 1) : IVec S_ 1 :=
  let main_v34 : FVec F S256x256 .f32 := Host.absf main_arg11
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg13
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg14
  let main_cst_18 : FVec F S_ .f32 := constant S_ .f32 0x7F800000#32
  let main_v50 : FVec F S256 .f32 := broadcastInDim S256 ![] bcast_S_S256 main_cst_18
  fn_part3 (F := F) main_arg15 main_arg16 main_arg17 main_arg18 main_arg19 main_arg20 main_v48 main_v49 main_v50

def fn_part1 {F : FTy → Type} [FloatOps F] (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg8
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg9
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_v33

def fn {F : FTy → Type} [FloatOps F] (main_arg0 : FVec F S100000x256 .f32) (main_arg1 : IVec S2x500000 32) (main_arg2 : IVec S2x500000 32) (main_arg3 : IVec S2x500000 32) (main_arg4 : IVec S2x500000 32) (main_arg5 : FVec F S100000 .f32) (main_arg6 : FVec F S100000 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000 .f32 := Host.absf main_arg5
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000 .f32 := Host.absf main_arg6
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg8 main_arg9 main_arg10 main_arg11 main_arg12 main_arg13 main_arg14 main_arg15 main_arg16 main_arg17 main_arg18 main_arg19 main_arg20 main_v13 main_v16
-- ==== Kernel.lean ====
abbrev S100000x256 : Shape := ⟨2, ![100000, 256]⟩
abbrev S2x500000 : Shape := ⟨2, ![2, 500000]⟩
abbrev S100000 : Shape := ⟨1, ![100000]⟩
abbrev S256x256 : Shape := ⟨2, ![256, 256]⟩
abbrev S256 : Shape := ⟨1, ![256]⟩
abbrev S1x500000 : Shape := ⟨2, ![1, 500000]⟩
abbrev S500000 : Shape := ⟨1, ![500000]⟩
abbrev S600000 : Shape := ⟨1, ![600000]⟩
abbrev S_ : Shape := ⟨0, ![]⟩
abbrev S600000x1 : Shape := ⟨2, ![600000, 1]⟩
abbrev S600000x256 : Shape := ⟨2, ![600000, 256]⟩
abbrev S100000x1 : Shape := ⟨2, ![100000, 1]⟩
abbrev S100000x2 : Shape := ⟨2, ![100000, 2]⟩
abbrev S1x256 : Shape := ⟨2, ![1, 256]⟩
abbrev S4x256 : Shape := ⟨2, ![4, 256]⟩
abbrev S6x256 : Shape := ⟨2, ![6, 256]⟩
abbrev S1000x2 : Shape := ⟨2, ![1000, 2]⟩
abbrev S1000x256 : Shape := ⟨2, ![1000, 256]⟩
abbrev S1000x1 : Shape := ⟨2, ![1000, 1]⟩

abbrev nBuf : Space → Nat
  | .hbm => 248
  | .vmem => 18
  | .smem => 0
  | _ => 0

abbrev hbmTy0_0 (i : Nat) : BufTy := match i % 128 with
  | 0 => ⟨S100000x256, .f32⟩
  | 1 => ⟨S2x500000, .i32⟩
  | 2 => ⟨S2x500000, .i32⟩
  | 3 => ⟨S2x500000, .i32⟩
  | 4 => ⟨S2x500000, .i32⟩
  | 5 => ⟨S100000, .f32⟩
  | 6 => ⟨S100000, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S256, .f32⟩
  | 16 => ⟨S256, .f32⟩
  | 17 => ⟨S256, .f32⟩
  | 18 => ⟨S256, .f32⟩
  | 19 => ⟨S256, .f32⟩
  | 20 => ⟨S256, .f32⟩
  | 21 => ⟨S100000x256, .bf16⟩
  | 22 => ⟨S100000, .i32⟩
  | 23 => ⟨S1x500000, .i32⟩
  | 24 => ⟨S500000, .i32⟩
  | 25 => ⟨S600000, .i32⟩
  | 26 => ⟨S1x500000, .i32⟩
  | 27 => ⟨S500000, .i32⟩
  | 28 => ⟨S600000, .i32⟩
  | 29 => ⟨S_, .f32⟩
  | 30 => ⟨S600000, .f32⟩
  | 31 => ⟨S_, .f32⟩
  | 32 => ⟨S100000, .f32⟩
  | 33 => ⟨S600000x1, .i32⟩
  | 34 => ⟨S100000, .f32⟩
  | 35 => ⟨S100000, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000, .f32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000, .f32⟩
  | 54 => ⟨S600000, .f32⟩
  | 55 => ⟨S100000, .i32⟩
  | 56 => ⟨S1x500000, .i32⟩
  | 57 => ⟨S500000, .i32⟩
  | 58 => ⟨S600000, .i32⟩
  | 59 => ⟨S1x500000, .i32⟩
  | 60 => ⟨S500000, .i32⟩
  | 61 => ⟨S600000, .i32⟩
  | 62 => ⟨S_, .f32⟩
  | 63 => ⟨S600000, .f32⟩
  | 64 => ⟨S_, .f32⟩
  | 65 => ⟨S100000, .f32⟩
  | 66 => ⟨S600000x1, .i32⟩
  | 67 => ⟨S100000, .f32⟩
  | 68 => ⟨S100000, .f32⟩
  | 69 => ⟨S_, .i32⟩
  | 70 => ⟨S600000, .i32⟩
  | 71 => ⟨S600000, .i1⟩
  | 72 => ⟨S_, .i32⟩
  | 73 => ⟨S600000, .i32⟩
  | 74 => ⟨S600000, .i32⟩
  | 75 => ⟨S600000, .i32⟩
  | 76 => ⟨S600000x1, .i32⟩
  | 77 => ⟨S600000, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000, .f32⟩
  | 87 => ⟨S600000, .f32⟩
  | 88 => ⟨S100000, .i32⟩
  | 89 => ⟨S1x500000, .i32⟩
  | 90 => ⟨S500000, .i32⟩
  | 91 => ⟨S600000, .i32⟩
  | 92 => ⟨S1x500000, .i32⟩
  | 93 => ⟨S500000, .i32⟩
  | 94 => ⟨S600000, .i32⟩
  | 95 => ⟨S_, .f32⟩
  | 96 => ⟨S600000, .f32⟩
  | 97 => ⟨S_, .f32⟩
  | 98 => ⟨S100000, .f32⟩
  | 99 => ⟨S600000x1, .i32⟩
  | 100 => ⟨S100000, .f32⟩
  | 101 => ⟨S100000, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000, .f32⟩
  | 120 => ⟨S600000, .f32⟩
  | 121 => ⟨S100000, .i32⟩
  | 122 => ⟨S1x500000, .i32⟩
  | 123 => ⟨S500000, .i32⟩
  | 124 => ⟨S600000, .i32⟩
  | 125 => ⟨S1x500000, .i32⟩
  | 126 => ⟨S500000, .i32⟩
  | 127 => ⟨S600000, .i32⟩
  | _ => ⟨S100000x256, .f32⟩

abbrev hbmTy0_1 (i : Nat) : BufTy := match i % 128 with
  | 0 => ⟨S_, .f32⟩
  | 1 => ⟨S600000, .f32⟩
  | 2 => ⟨S_, .f32⟩
  | 3 => ⟨S100000, .f32⟩
  | 4 => ⟨S600000x1, .i32⟩
  | 5 => ⟨S100000, .f32⟩
  | 6 => ⟨S100000, .f32⟩
  | 7 => ⟨S_, .i32⟩
  | 8 => ⟨S600000, .i32⟩
  | 9 => ⟨S600000, .i1⟩
  | 10 => ⟨S_, .i32⟩
  | 11 => ⟨S600000, .i32⟩
  | 12 => ⟨S600000, .i32⟩
  | 13 => ⟨S600000, .i32⟩
  | 14 => ⟨S600000x1, .i32⟩
  | 15 => ⟨S600000, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000, .f32⟩
  | 25 => ⟨S600000, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x256, .bf16⟩
  | 35 => ⟨S600000x256, .f32⟩
  | 36 => ⟨S600000x1, .f32⟩
  | 37 => ⟨S600000x256, .f32⟩
  | 38 => ⟨S600000x256, .f32⟩
  | 39 => ⟨S_, .f32⟩
  | 40 => ⟨S100000x256, .f32⟩
  | 41 => ⟨S600000x1, .i32⟩
  | 42 => ⟨S100000x256, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x256, .bf16⟩
  | 52 => ⟨S600000x256, .f32⟩
  | 53 => ⟨S600000x1, .f32⟩
  | 54 => ⟨S600000x256, .f32⟩
  | 55 => ⟨S600000x256, .f32⟩
  | 56 => ⟨S_, .f32⟩
  | 57 => ⟨S100000x256, .f32⟩
  | 58 => ⟨S600000x1, .i32⟩
  | 59 => ⟨S100000x256, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x256, .bf16⟩
  | 69 => ⟨S600000x256, .f32⟩
  | 70 => ⟨S600000x1, .f32⟩
  | 71 => ⟨S600000x256, .f32⟩
  | 72 => ⟨S600000x256, .f32⟩
  | 73 => ⟨S_, .f32⟩
  | 74 => ⟨S100000x256, .f32⟩
  | 75 => ⟨S600000x1, .i32⟩
  | 76 => ⟨S100000x256, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x256, .bf16⟩
  | 86 => ⟨S600000x256, .f32⟩
  | 87 => ⟨S600000x1, .f32⟩
  | 88 => ⟨S600000x256, .f32⟩
  | 89 => ⟨S600000x256, .f32⟩
  | 90 => ⟨S_, .f32⟩
  | 91 => ⟨S100000x256, .f32⟩
  | 92 => ⟨S600000x1, .i32⟩
  | 93 => ⟨S100000x256, .f32⟩
  | 94 => ⟨S100000x1, .f32⟩
  | 95 => ⟨S100000, .f32⟩
  | 96 => ⟨S100000, .f32⟩
  | 97 => ⟨S100000x1, .f32⟩
  | 98 => ⟨S100000, .f32⟩
  | 99 => ⟨S100000, .f32⟩
  | 100 => ⟨S100000x1, .f32⟩
  | 101 => ⟨S100000x1, .f32⟩
  | 102 => ⟨S100000x2, .f32⟩
  | 103 => ⟨S256x256, .bf16⟩
  | 104 => ⟨S256x256, .bf16⟩
  | 105 => ⟨S256x256, .bf16⟩
  | 106 => ⟨S256x256, .bf16⟩
  | 107 => ⟨S1x256, .f32⟩
  | 108 => ⟨S1x256, .f32⟩
  | 109 => ⟨S1x256, .f32⟩
  | 110 => ⟨S1x256, .f32⟩
  | 111 => ⟨S4x256, .f32⟩
  | 112 => ⟨S1x256, .f32⟩
  | 113 => ⟨S1x256, .f32⟩
  | 114 => ⟨S1x256, .f32⟩
  | 115 => ⟨S1x256, .f32⟩
  | 116 => ⟨S1x256, .f32⟩
  | 117 => ⟨S1x256, .f32⟩
  | 118 => ⟨S6x256, .f32⟩
  | 119 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S1000x2, .f32⟩
  | .local _ .vmem, ⟨1, _⟩ => ⟨S1000x2, .f32⟩
  | .local _ .vmem, ⟨2, _⟩ => ⟨S1000x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S4x256, .f32⟩
  | .local _ .vmem, ⟨15, _⟩ => ⟨S6x256, .f32⟩
  | .local _ .vmem, ⟨16, _⟩ => ⟨S1000x256, .f32⟩
  | .local _ .vmem, ⟨17, _⟩ => ⟨S1000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_2 : Ref sig .tc := ⟨.hbm, 45, rfl⟩
abbrev main_v20 : Ref sig .tc := ⟨.hbm, 46, rfl⟩
abbrev main_v21 : Ref sig .tc := ⟨.hbm, 47, rfl⟩
abbrev main_c_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_cst_5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_6 : Ref sig .tc := ⟨.hbm, 69, rfl⟩
abbrev main_v40 : Ref sig .tc := ⟨.hbm, 70, rfl⟩
abbrev main_v41 : Ref sig .tc := ⟨.hbm, 71, rfl⟩
abbrev main_c_7 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_8 : Ref sig .tc := ⟨.hbm, 78, rfl⟩
abbrev main_v47 : Ref sig .tc := ⟨.hbm, 79, rfl⟩
abbrev main_v48 : Ref sig .tc := ⟨.hbm, 80, rfl⟩
abbrev main_c_9 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_10 : Ref sig .tc := ⟨.hbm, 95, rfl⟩
abbrev main_v62 : Ref sig .tc := ⟨.hbm, 96, rfl⟩
abbrev main_cst_11 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_12 : Ref sig .tc := ⟨.hbm, 102, rfl⟩
abbrev main_v67 : Ref sig .tc := ⟨.hbm, 103, rfl⟩
abbrev main_v68 : Ref sig .tc := ⟨.hbm, 104, rfl⟩
abbrev main_c_13 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_14 : Ref sig .tc := ⟨.hbm, 111, rfl⟩
abbrev main_v74 : Ref sig .tc := ⟨.hbm, 112, rfl⟩
abbrev main_v75 : Ref sig .tc := ⟨.hbm, 113, rfl⟩
abbrev main_c_15 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_16 : Ref sig .tc := ⟨.hbm, 128, rfl⟩
abbrev main_v89 : Ref sig .tc := ⟨.hbm, 129, rfl⟩
abbrev main_cst_17 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_c_18 : Ref sig .tc := ⟨.hbm, 135, rfl⟩
abbrev main_v94 : Ref sig .tc := ⟨.hbm, 136, rfl⟩
abbrev main_v95 : Ref sig .tc := ⟨.hbm, 137, rfl⟩
abbrev main_c_19 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_c_20 : Ref sig .tc := ⟨.hbm, 144, rfl⟩
abbrev main_v101 : Ref sig .tc := ⟨.hbm, 145, rfl⟩
abbrev main_v102 : Ref sig .tc := ⟨.hbm, 146, rfl⟩
abbrev main_c_21 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_22 : Ref sig .tc := ⟨.hbm, 154, rfl⟩
abbrev main_v109 : Ref sig .tc := ⟨.hbm, 155, rfl⟩
abbrev main_v110 : Ref sig .tc := ⟨.hbm, 156, rfl⟩
abbrev main_c_23 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_24 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_c_25 : Ref sig .tc := ⟨.hbm, 171, rfl⟩
abbrev main_v123 : Ref sig .tc := ⟨.hbm, 172, rfl⟩
abbrev main_v124 : Ref sig .tc := ⟨.hbm, 173, rfl⟩
abbrev main_c_26 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_27 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_c_28 : Ref sig .tc := ⟨.hbm, 188, rfl⟩
abbrev main_v137 : Ref sig .tc := ⟨.hbm, 189, rfl⟩
abbrev main_v138 : Ref sig .tc := ⟨.hbm, 190, rfl⟩
abbrev main_c_29 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_cst_30 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_c_31 : Ref sig .tc := ⟨.hbm, 205, rfl⟩
abbrev main_v151 : Ref sig .tc := ⟨.hbm, 206, rfl⟩
abbrev main_v152 : Ref sig .tc := ⟨.hbm, 207, rfl⟩
abbrev main_c_32 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_cst_33 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  slices_S2x500000_S1x500000_0_0 : S2x500000.Slices ![0, 0] S1x500000
  shapeCasts_S1x500000_S500000 : S1x500000.ShapeCasts S500000
  concatenates_S500000_S100000_S600000_d0 : Shape.Concatenates [S500000, S100000] S600000 0
  slices_S2x500000_S1x500000_1_0 : S2x500000.Slices ![1, 0] S1x500000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x256_0_1 : S600000x1.BroadcastsInDim S600000x256 (![0, 1] : Fin 2 → Fin S600000x256.rank)
  bcast_S_S100000x256 : S_.BroadcastsInDim S100000x256 (![] : Fin 0 → Fin S100000x256.rank)
  slices_S100000x256_S100000x1_0_0 : S100000x256.Slices ![0, 0] S100000x1
  shapeCasts_S100000x1_S100000 : S100000x1.ShapeCasts S100000
  bcast_S100000_S100000x1_0 : S100000.BroadcastsInDim S100000x1 (![0] : Fin 1 → Fin S100000x1.rank)
  concatenates_S100000x1_S100000x1_S100000x2_d1 : Shape.Concatenates [S100000x1, S100000x1] S100000x2 1
  bcast_S256_S1x256_1 : S256.BroadcastsInDim S1x256 (![1] : Fin 1 → Fin S1x256.rank)
  concatenates_S1x256_S1x256_S1x256_S1x256_S4x256_d0 : Shape.Concatenates [S1x256, S1x256, S1x256, S1x256] S4x256 0
  concatenates_S1x256_S1x256_S1x256_S1x256_S1x256_S1x256_S6x256_d0 : Shape.Concatenates [S1x256, S1x256, S1x256, S1x256, S1x256, S1x256] S6x256 0
  inb_S6x256_S1x256_0_0 : ∀ a, (![0, 0] : Fin 2 → Nat) a + S1x256.size a ≤ S6x256.size a
  h_S1x256 : 0 < S1x256.numel
  shapeCasts_S1x256_S1x256 : S1x256.ShapeCasts S1x256
  inb_S6x256_S1x256_1_0 : ∀ a, (![1, 0] : Fin 2 → Nat) a + S1x256.size a ≤ S6x256.size a
  inb_S6x256_S1x256_2_0 : ∀ a, (![2, 0] : Fin 2 → Nat) a + S1x256.size a ≤ S6x256.size a
  inb_S6x256_S1x256_3_0 : ∀ a, (![3, 0] : Fin 2 → Nat) a + S1x256.size a ≤ S6x256.size a
  inb_S6x256_S1x256_4_0 : ∀ a, (![4, 0] : Fin 2 → Nat) a + S1x256.size a ≤ S6x256.size a
  inb_S6x256_S1x256_5_0 : ∀ a, (![5, 0] : Fin 2 → Nat) a + S1x256.size a ≤ S6x256.size a
  inb_S4x256_S1x256_0_0 : ∀ a, (![0, 0] : Fin 2 → Nat) a + S1x256.size a ≤ S4x256.size a
  inb_S4x256_S1x256_1_0 : ∀ a, (![1, 0] : Fin 2 → Nat) a + S1x256.size a ≤ S4x256.size a
  inb_S4x256_S1x256_2_0 : ∀ a, (![2, 0] : Fin 2 → Nat) a + S1x256.size a ≤ S4x256.size a
  inb_S4x256_S1x256_3_0 : ∀ a, (![3, 0] : Fin 2 → Nat) a + S1x256.size a ≤ S4x256.size a
  inb_S1000x2_S1000x1_0_0 : ∀ a, (![0, 0] : Fin 2 → Nat) a + S1000x1.size a ≤ S1000x2.size a
  h_S1000x1 : 0 < S1000x1.numel
  shapeCasts_S1000x1_S1000x1 : S1000x1.ShapeCasts S1000x1
  inb_S1000x2_S1000x1_0_1 : ∀ a, (![0, 1] : Fin 2 → Nat) a + S1000x1.size a ≤ S1000x2.size a
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S1000x256 : S1x256.Broadcasts S1000x256
  broadcasts_S1000x1_S1000x256 : S1000x1.Broadcasts S1000x256
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2.size a ≤ S100000x2.size a
  hwx0_0 : ∀ i : grid0.Coords, EltTy.bits .f32 = 32 ∨ (Rect.block (s := S100000x2) S1000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S100000x256.size a
  hwx0_1 : ∀ i : grid0.Coords, EltTy.bits .f32 = 32 ∨ (Rect.block (s := S100000x256) S1000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S100000x256.size a
  hwx0_2 : ∀ i : grid0.Coords, EltTy.bits .f32 = 32 ∨ (Rect.block (s := S100000x256) S1000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S100000x256.size a
  hwx0_3 : ∀ i : grid0.Coords, EltTy.bits .f32 = 32 ∨ (Rect.block (s := S100000x256) S1000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S100000x256.size a
  hwx0_4 : ∀ i : grid0.Coords, EltTy.bits .f32 = 32 ∨ (Rect.block (s := S100000x256) S1000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x256.size a ≤ S4x256.size a
  hwx0_9 : ∀ i : grid0.Coords, EltTy.bits .f32 = 32 ∨ (Rect.block (s := S4x256) S4x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S6x256.size a ≤ S6x256.size a
  hwx0_10 : ∀ i : grid0.Coords, EltTy.bits .f32 = 32 ∨ (Rect.block (s := S6x256) S6x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x256.size a ≤ S100000x256.size a
  hwx0_11 : ∀ i : grid0.Coords, EltTy.bits .f32 = 32 ∨ (Rect.block (s := S100000x256) S1000x256.size (cc0_transform_11 i) (hinb0_11 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_v173) S1000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v122) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v136) S1000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v150) S1000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v164) S1000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v174) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v175) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v176) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v177) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v182) S4x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v189) S6x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v190) S1000x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x500000 : Shape := ⟨2, ![2, 500000]⟩
abbrev S100000 : Shape := ⟨1, ![100000]⟩
abbrev S256x256 : Shape := ⟨2, ![256, 256]⟩
abbrev S256 : Shape := ⟨1, ![256]⟩
abbrev S100000x1 : Shape := ⟨2, ![100000, 1]⟩
abbrev S1x500000 : Shape := ⟨2, ![1, 500000]⟩
abbrev S500000 : Shape := ⟨1, ![500000]⟩
abbrev S600000 : Shape := ⟨1, ![600000]⟩
abbrev S_ : Shape := ⟨0, ![]⟩
abbrev S600000x1 : Shape := ⟨2, ![600000, 1]⟩
abbrev S600000x256 : Shape := ⟨2, ![600000, 256]⟩
abbrev S1x256 : Shape := ⟨2, ![1, 256]⟩

abbrev nBuf : Space → Nat
  | .hbm => 266
  | .vmem => 0
  | .smem => 0
  | _ => 0

abbrev hbmTy0_0 (i : Nat) : BufTy := match i % 128 with
  | 0 => ⟨S100000x256, .f32⟩
  | 1 => ⟨S2x500000, .i32⟩
  | 2 => ⟨S2x500000, .i32⟩
  | 3 => ⟨S2x500000, .i32⟩
  | 4 => ⟨S2x500000, .i32⟩
  | 5 => ⟨S100000, .f32⟩
  | 6 => ⟨S100000, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S256, .f32⟩
  | 16 => ⟨S256, .f32⟩
  | 17 => ⟨S256, .f32⟩
  | 18 => ⟨S256, .f32⟩
  | 19 => ⟨S256, .f32⟩
  | 20 => ⟨S256, .f32⟩
  | 21 => ⟨S100000x1, .f32⟩
  | 22 => ⟨S100000, .f32⟩
  | 23 => ⟨S100000, .f32⟩
  | 24 => ⟨S100000x1, .f32⟩
  | 25 => ⟨S100000, .f32⟩
  | 26 => ⟨S100000, .f32⟩
  | 27 => ⟨S100000, .i32⟩
  | 28 => ⟨S1x500000, .i32⟩
  | 29 => ⟨S500000, .i32⟩
  | 30 => ⟨S600000, .i32⟩
  | 31 => ⟨S1x500000, .i32⟩
  | 32 => ⟨S500000, .i32⟩
  | 33 => ⟨S600000, .i32⟩
  | 34 => ⟨S_, .f32⟩
  | 35 => ⟨S600000, .f32⟩
  | 36 => ⟨S_, .f32⟩
  | 37 => ⟨S100000, .f32⟩
  | 38 => ⟨S600000x1, .i32⟩
  | 39 => ⟨S100000, .f32⟩
  | 40 => ⟨S100000, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000, .f32⟩
  | 59 => ⟨S600000, .f32⟩
  | 60 => ⟨S100000x256, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x256, .f32⟩
  | 70 => ⟨S600000x1, .f32⟩
  | 71 => ⟨S600000x256, .f32⟩
  | 72 => ⟨S600000x256, .f32⟩
  | 73 => ⟨S_, .f32⟩
  | 74 => ⟨S100000x256, .f32⟩
  | 75 => ⟨S600000x1, .i32⟩
  | 76 => ⟨S100000x256, .f32⟩
  | 77 => ⟨S1x256, .f32⟩
  | 78 => ⟨S100000x256, .f32⟩
  | 79 => ⟨S100000x256, .f32⟩
  | 80 => ⟨S100000, .i32⟩
  | 81 => ⟨S1x500000, .i32⟩
  | 82 => ⟨S500000, .i32⟩
  | 83 => ⟨S600000, .i32⟩
  | 84 => ⟨S1x500000, .i32⟩
  | 85 => ⟨S500000, .i32⟩
  | 86 => ⟨S600000, .i32⟩
  | 87 => ⟨S_, .f32⟩
  | 88 => ⟨S600000, .f32⟩
  | 89 => ⟨S_, .f32⟩
  | 90 => ⟨S100000, .f32⟩
  | 91 => ⟨S600000x1, .i32⟩
  | 92 => ⟨S100000, .f32⟩
  | 93 => ⟨S100000, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S600000, .f32⟩
  | 112 => ⟨S600000, .f32⟩
  | 113 => ⟨S100000x256, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x256, .f32⟩
  | 123 => ⟨S600000x1, .f32⟩
  | 124 => ⟨S600000x256, .f32⟩
  | 125 => ⟨S600000x256, .f32⟩
  | 126 => ⟨S_, .f32⟩
  | 127 => ⟨S100000x256, .f32⟩
  | _ => ⟨S100000x256, .f32⟩

abbrev hbmTy0_1 (i : Nat) : BufTy := match i % 128 with
  | 0 => ⟨S600000x1, .i32⟩
  | 1 => ⟨S100000x256, .f32⟩
  | 2 => ⟨S1x256, .f32⟩
  | 3 => ⟨S100000x256, .f32⟩
  | 4 => ⟨S100000x256, .f32⟩
  | 5 => ⟨S100000, .i32⟩
  | 6 => ⟨S1x500000, .i32⟩
  | 7 => ⟨S500000, .i32⟩
  | 8 => ⟨S600000, .i32⟩
  | 9 => ⟨S1x500000, .i32⟩
  | 10 => ⟨S500000, .i32⟩
  | 11 => ⟨S600000, .i32⟩
  | 12 => ⟨S_, .f32⟩
  | 13 => ⟨S600000, .f32⟩
  | 14 => ⟨S_, .f32⟩
  | 15 => ⟨S100000, .f32⟩
  | 16 => ⟨S600000x1, .i32⟩
  | 17 => ⟨S100000, .f32⟩
  | 18 => ⟨S100000, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000, .f32⟩
  | 37 => ⟨S600000, .f32⟩
  | 38 => ⟨S100000x256, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000x256, .f32⟩
  | 48 => ⟨S600000x1, .f32⟩
  | 49 => ⟨S600000x256, .f32⟩
  | 50 => ⟨S600000x256, .f32⟩
  | 51 => ⟨S_, .f32⟩
  | 52 => ⟨S100000x256, .f32⟩
  | 53 => ⟨S600000x1, .i32⟩
  | 54 => ⟨S100000x256, .f32⟩
  | 55 => ⟨S1x256, .f32⟩
  | 56 => ⟨S100000x256, .f32⟩
  | 57 => ⟨S100000x256, .f32⟩
  | 58 => ⟨S100000, .i32⟩
  | 59 => ⟨S1x500000, .i32⟩
  | 60 => ⟨S500000, .i32⟩
  | 61 => ⟨S600000, .i32⟩
  | 62 => ⟨S1x500000, .i32⟩
  | 63 => ⟨S500000, .i32⟩
  | 64 => ⟨S600000, .i32⟩
  | 65 => ⟨S_, .f32⟩
  | 66 => ⟨S600000, .f32⟩
  | 67 => ⟨S_, .f32⟩
  | 68 => ⟨S100000, .f32⟩
  | 69 => ⟨S600000x1, .i32⟩
  | 70 => ⟨S100000, .f32⟩
  | 71 => ⟨S100000, .f32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000, .f32⟩
  | 90 => ⟨S600000, .f32⟩
  | 91 => ⟨S100000x256, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x256, .f32⟩
  | 101 => ⟨S600000x1, .f32⟩
  | 102 => ⟨S600000x256, .f32⟩
  | 103 => ⟨S600000x256, .f32⟩
  | 104 => ⟨S_, .f32⟩
  | 105 => ⟨S100000x256, .f32⟩
  | 106 => ⟨S600000x1, .i32⟩
  | 107 => ⟨S100000x256, .f32⟩
  | 108 => ⟨S1x256, .f32⟩
  | 109 => ⟨S100000x256, .f32⟩
  | 110 => ⟨S100000x256, .f32⟩
  | 111 => ⟨S100000x1, .f32⟩
  | 112 => ⟨S1x256, .f32⟩
  | 113 => ⟨S100000x256, .f32⟩
  | 114 => ⟨S100000x256, .f32⟩
  | 115 => ⟨S100000x256, .f32⟩
  | 116 => ⟨S100000x1, .f32⟩
  | 117 => ⟨S1x256, .f32⟩
  | 118 => ⟨S100000x256, .f32⟩
  | 119 => ⟨S100000x256, .f32⟩
  | 120 => ⟨S100000x256, .f32⟩
  | 121 => ⟨S100000x256, .f32⟩
  | 122 => ⟨S1x256, .f32⟩
  | 123 => ⟨S100000x256, .f32⟩
  | 124 => ⟨S100000x256, .f32⟩
  | 125 => ⟨S100000x256, .f32⟩
  | 126 => ⟨S1x256, .f32⟩
  | 127 => ⟨S100000x256, .f32⟩
  | _ => ⟨S100000x256, .f32⟩

abbrev hbmTy0_2 (i : Nat) : BufTy := match i % 128 with
  | 0 => ⟨S100000x256, .f32⟩
  | 1 => ⟨S100000x256, .f32⟩
  | 2 => ⟨S1x256, .f32⟩
  | 3 => ⟨S100000x256, .f32⟩
  | 4 => ⟨S100000x256, .f32⟩
  | 5 => ⟨S100000x256, .f32⟩
  | 6 => ⟨S1x256, .f32⟩
  | 7 => ⟨S100000x256, .f32⟩
  | 8 => ⟨S100000x256, .f32⟩
  | 9 => ⟨S100000x256, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_cst_0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c : Ref sig .tc := ⟨.hbm, 41, rfl⟩
abbrev main_v18 : Ref sig .tc := ⟨.hbm, 42, rfl⟩
abbrev main_v19 : Ref sig .tc := ⟨.hbm, 43, rfl⟩
abbrev main_c_1 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_2 : Ref sig .tc := ⟨.hbm, 50, rfl⟩
abbrev main_v25 : Ref sig .tc := ⟨.hbm, 51, rfl⟩
abbrev main_v26 : Ref sig .tc := ⟨.hbm, 52, rfl⟩
abbrev main_c_3 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_4 : Ref sig .tc := ⟨.hbm, 61, rfl⟩
abbrev main_v34 : Ref sig .tc := ⟨.hbm, 62, rfl⟩
abbrev main_v35 : Ref sig .tc := ⟨.hbm, 63, rfl⟩
abbrev main_c_5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_cst_8 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_9 : Ref sig .tc := ⟨.hbm, 94, rfl⟩
abbrev main_v62 : Ref sig .tc := ⟨.hbm, 95, rfl⟩
abbrev main_v63 : Ref sig .tc := ⟨.hbm, 96, rfl⟩
abbrev main_c_10 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_11 : Ref sig .tc := ⟨.hbm, 103, rfl⟩
abbrev main_v69 : Ref sig .tc := ⟨.hbm, 104, rfl⟩
abbrev main_v70 : Ref sig .tc := ⟨.hbm, 105, rfl⟩
abbrev main_c_12 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_13 : Ref sig .tc := ⟨.hbm, 114, rfl⟩
abbrev main_v78 : Ref sig .tc := ⟨.hbm, 115, rfl⟩
abbrev main_v79 : Ref sig .tc := ⟨.hbm, 116, rfl⟩
abbrev main_c_14 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_15 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_16 : Ref sig .tc := ⟨.hbm, 140, rfl⟩
abbrev main_v101 : Ref sig .tc := ⟨.hbm, 141, rfl⟩
abbrev main_cst_17 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c_18 : Ref sig .tc := ⟨.hbm, 147, rfl⟩
abbrev main_v106 : Ref sig .tc := ⟨.hbm, 148, rfl⟩
abbrev main_v107 : Ref sig .tc := ⟨.hbm, 149, rfl⟩
abbrev main_c_19 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_c_20 : Ref sig .tc := ⟨.hbm, 156, rfl⟩
abbrev main_v113 : Ref sig .tc := ⟨.hbm, 157, rfl⟩
abbrev main_v114 : Ref sig .tc := ⟨.hbm, 158, rfl⟩
abbrev main_c_21 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_c_22 : Ref sig .tc := ⟨.hbm, 167, rfl⟩
abbrev main_v122 : Ref sig .tc := ⟨.hbm, 168, rfl⟩
abbrev main_v123 : Ref sig .tc := ⟨.hbm, 169, rfl⟩
abbrev main_c_23 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_24 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_25 : Ref sig .tc := ⟨.hbm, 193, rfl⟩
abbrev main_v145 : Ref sig .tc := ⟨.hbm, 194, rfl⟩
abbrev main_cst_26 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_c_27 : Ref sig .tc := ⟨.hbm, 200, rfl⟩
abbrev main_v150 : Ref sig .tc := ⟨.hbm, 201, rfl⟩
abbrev main_v151 : Ref sig .tc := ⟨.hbm, 202, rfl⟩
abbrev main_c_28 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_c_29 : Ref sig .tc := ⟨.hbm, 209, rfl⟩
abbrev main_v157 : Ref sig .tc := ⟨.hbm, 210, rfl⟩
abbrev main_v158 : Ref sig .tc := ⟨.hbm, 211, rfl⟩
abbrev main_c_30 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_c_31 : Ref sig .tc := ⟨.hbm, 220, rfl⟩
abbrev main_v166 : Ref sig .tc := ⟨.hbm, 221, rfl⟩
abbrev main_v167 : Ref sig .tc := ⟨.hbm, 222, rfl⟩
abbrev main_c_32 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_33 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩

abbrev nD : Nat := 1
abbrev τ : Topo := Topo.v7x

variable {F : FTy → Type} [FloatOps F]

class Facts₀ : Prop where
  slices_S100000x256_S100000x1_0_0 : S100000x256.Slices ![0, 0] S100000x1
  shapeCasts_S100000x1_S100000 : S100000x1.ShapeCasts S100000
  slices_S2x500000_S1x500000_0_0 : S2x500000.Slices ![0, 0] S1x500000
  shapeCasts_S1x500000_S500000 : S1x500000.ShapeCasts S500000
  concatenates_S500000_S100000_S600000_d0 : Shape.Concatenates [S500000, S100000] S600000 0
  slices_S2x500000_S1x500000_1_0 : S2x500000.Slices ![1, 0] S1x500000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x256_0_1 : S600000x1.BroadcastsInDim S600000x256 (![0, 1] : Fin 2 → Fin S600000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  dot_S100000x256_S256x256_S100000x256_1_0_0_1_n_n_wf : DotDims.WF S100000x256 S256x256 S100000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf

class Facts : Prop extends Facts₀ where

variable [Facts]
-- ==== Proof.KHost.lean ====
/- The host prefix of the program: the buffers as the grid region finds them are the host operations' results
   over the launch memory; no host operation writes an argument array, so each argument is found as launched. -/
import proofs.«134268_j86002425135385_2_alg».proof.Proof.Gen.Kernel.Launch
import Idealize.ShloMosaic.Lib.Pipeline.FrameBody

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the grid region is entered: the launch memory after the host operations. -/
abbrev V (c : Dev nD) (b : Ref sig .tc) : Buf (Elt F) ((c : Thread nD τ).loc b) :=
  StableHlo.after hostOps0 (fun b => m (c, b)) b

/-- Every host operation writes a buffer the program declares: none allocates. -/
theorem hostOps0_fresh : (hostOps0 : List (HloOp τ sig (Elt F))).Forall fun op => op.fresh = ∅ := by
  simp only [List.Forall]; repeat' constructor

/-- The program is its host operations followed by the one grid region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.Kernel.HFrame

end
-- ==== Proof.KBody.lean ====
/- The kernel body on whole staging buffers: it loads the two gate columns, the four aggregate blocks, the four
   weight matrices, the bias rows and the gate rows through literal rectangles, and stores one rectangle that
   covers the output block; what the output buffer holds afterwards is that store's value over the inputs. -/
import proofs.«134268_j86002425135385_2_alg».proof.Proof.Gen.Kernel.Launch
import proofs.«134268_j86002425135385_2_alg».proof.Proof.Gen.Kernel.Skeleton
import proofs.«134268_j86002425135385_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles -/

abbrev rP0 : Rect S6x256 := Rect.unit (s := S6x256) ![0, 0] S1x256.size inb_S6x256_S1x256_0_0
abbrev rP1 : Rect S6x256 := Rect.unit (s := S6x256) ![1, 0] S1x256.size inb_S6x256_S1x256_1_0
abbrev rP2 : Rect S6x256 := Rect.unit (s := S6x256) ![2, 0] S1x256.size inb_S6x256_S1x256_2_0
abbrev rP3 : Rect S6x256 := Rect.unit (s := S6x256) ![3, 0] S1x256.size inb_S6x256_S1x256_3_0
abbrev rP4 : Rect S6x256 := Rect.unit (s := S6x256) ![4, 0] S1x256.size inb_S6x256_S1x256_4_0
abbrev rP5 : Rect S6x256 := Rect.unit (s := S6x256) ![5, 0] S1x256.size inb_S6x256_S1x256_5_0
abbrev rB0 : Rect S4x256 := Rect.unit (s := S4x256) ![0, 0] S1x256.size inb_S4x256_S1x256_0_0
abbrev rB1 : Rect S4x256 := Rect.unit (s := S4x256) ![1, 0] S1x256.size inb_S4x256_S1x256_1_0
abbrev rB2 : Rect S4x256 := Rect.unit (s := S4x256) ![2, 0] S1x256.size inb_S4x256_S1x256_2_0
abbrev rB3 : Rect S4x256 := Rect.unit (s := S4x256) ![3, 0] S1x256.size inb_S4x256_S1x256_3_0
abbrev rX0 : Rect S1000x2 := Rect.unit (s := S1000x2) ![0, 0] S1000x1.size inb_S1000x2_S1000x1_0_0
abbrev rX1 : Rect S1000x2 := Rect.unit (s := S1000x2) ![0, 1] S1000x1.size inb_S1000x2_S1000x1_0_1
abbrev rA : Rect S1000x256 := Rect.unit (s := S1000x256) ![0, 0] S1000x256.size inb_S1000x256_S1000x256_0_0
abbrev rW : Rect S256x256 := Rect.unit (s := S256x256) ![0, 0] S256x256.size inb_S256x256_S256x256_0_0

/-- The output block after the body, from the eleven input blocks: its one store, over the whole block. -/
def outBlock (x0 : Vec F S1000x2 .f32) (x1 : Vec F S1000x256 .f32) (x2 : Vec F S1000x256 .f32) (x3 : Vec F S1000x256 .f32) (x4 : Vec F S1000x256 .f32) (x5 : Vec F S256x256 .bf16) (x6 : Vec F S256x256 .bf16) (x7 : Vec F S256x256 .bf16) (x8 : Vec F S256x256 .bf16) (x9 : Vec F S4x256 .f32) (x10 : Vec F S6x256 .f32) : Vec F S1000x256 .f32 :=
  View.canon [⟨rA, k0_pay14 (k0_pay1 (View.ld x10 rP0)) (k0_pay2 (View.ld x10 rP1)) (k0_pay3 (View.ld x10 rP2)) (k0_pay4 (View.ld x10 rP3)) (k0_pay5 (View.ld x10 rP4)) (k0_pay6 (View.ld x10 rP5)) (k0_pay7 (View.ld x9 rB0)) (k0_pay8 (View.ld x9 rB1)) (k0_pay9 (View.ld x9 rB2)) (k0_pay10 (View.ld x9 rB3)) (k0_pay11 (View.ld x0 rX0)) (k0_pay12 (View.ld x0 rX1)) (k0_pay13 (View.ld x1 rA) (View.ld x5 rW)) (View.ld x2 rA) (View.ld x6 rW) (View.ld x3 rA) (View.ld x7 rW) (View.ld x4 rA) (View.ld x8 rW)⟩]

/-- The one store covers the block. -/
theorem outCover (p0 : Vec F S1000x256 .f32) (y : S1000x256.Idx) :
    ∃ pc ∈ ([⟨rA, p0⟩] : List (View.Piece (Elt F) S1000x256 .f32)), y ∈ pc.1.set :=
  View.cover_of_tiled [⟨rA, p0⟩] S1000x256.size (by rfl) y

set_option maxHeartbeats 4000000 in
/-- The body, run on whole staging buffers — the inputs' at given contents, the output's at anything — ends with the
    inputs' as they were and the output's at `outBlock` of the inputs'. -/
theorem sound_kernel (c : Dev nD) (E : Set ℕ) (i : grid0.Coords) (arg1 : Memref sig .tc .vmem S1000x2 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S1000x256 .f32) (harg4 : arg4.IsWhole) (arg5 : Memref sig .tc .vmem S1000x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S4x256 .f32) (harg10 : arg10.IsWhole) (arg11 : Memref sig .tc .vmem S6x256 .f32) (harg11 : arg11.IsWhole) (arg12 : Memref sig .tc .vmem S1000x256 .f32) (harg12 : arg12.IsWhole)
    (x0 : Vec F S1000x2 .f32) (x1 : Vec F S1000x256 .f32) (x2 : Vec F S1000x256 .f32) (x3 : Vec F S1000x256 .f32) (x4 : Vec F S1000x256 .f32) (x5 : Vec F S256x256 .bf16) (x6 : Vec F S256x256 .bf16) (x7 : Vec F S256x256 .bf16) (x8 : Vec F S256x256 .bf16) (x9 : Vec F S4x256 .f32) (x10 : Vec F S6x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outBlock x0 x1 x2 x3 x4 x5 x6 x7 x8 x9 x10)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (outCover _)

end Cert.Kernel.HFrame

end
-- ==== Proof.KFrame.lean ====
/- The frame of the program: the proof data of its one grid region (each input's staging buffer holds its block,
   the output's holds the body's store), the body obligation at every grid point, the run, and the frame claim:
   the program terminates, faults nowhere, and leaves its argument arrays as launched. -/
import proofs.«134268_j86002425135385_2_alg».proof.Proof.KHost
import proofs.«134268_j86002425135385_2_alg».proof.Proof.KBody

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, whether fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, whether fetched there or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post — every array no window stages ends as the region found it — to the
    claim's post: each argument array is no window's array and no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) h

/-! ## The proof data -/

/-- The region's proof data on core `c`: the arrays as the region finds them; after the body each input's buffer at
    its block and the output's at the body's store over the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each array of the region is
    what the proof data gives and every other declared buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates without a fault and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

end Cert.Kernel.HFrame

end
-- ==== Proof.KIHost.lean ====
/- The host prefix of the program: the buffers as the grid region finds them are the host operations' results
   over the launch memory; no host operation writes an argument array, so each argument is found as launched. -/
import proofs.«134268_j86002425135385_2_alg».proof.Proof.Gen.KernelIdeal.Launch
import Idealize.ShloMosaic.Lib.Pipeline.FrameBody

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the grid region is entered: the launch memory after the host operations. -/
abbrev V (c : Dev nD) (b : Ref sig .tc) : Buf (Elt F) ((c : Thread nD τ).loc b) :=
  StableHlo.after hostOps0 (fun b => m (c, b)) b

/-- Every host operation writes a buffer the program declares: none allocates. -/
theorem hostOps0_fresh : (hostOps0 : List (HloOp τ sig (Elt F))).Forall fun op => op.fresh = ∅ := by
  simp only [List.Forall]; repeat' constructor

/-- The program is its host operations followed by the one grid region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.KernelIdeal.HFrame

end
-- ==== Proof.KIBody.lean ====
/- The kernel body on whole staging buffers: it loads the two gate columns, the four aggregate blocks, the four
   weight matrices, the bias rows and the gate rows through literal rectangles, and stores one rectangle that
   covers the output block; what the output buffer holds afterwards is that store's value over the inputs. -/
import proofs.«134268_j86002425135385_2_alg».proof.Proof.Gen.KernelIdeal.Launch
import proofs.«134268_j86002425135385_2_alg».proof.Proof.Gen.KernelIdeal.Skeleton
import proofs.«134268_j86002425135385_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles -/

abbrev rP0 : Rect S6x256 := Rect.unit (s := S6x256) ![0, 0] S1x256.size inb_S6x256_S1x256_0_0
abbrev rP1 : Rect S6x256 := Rect.unit (s := S6x256) ![1, 0] S1x256.size inb_S6x256_S1x256_1_0
abbrev rP2 : Rect S6x256 := Rect.unit (s := S6x256) ![2, 0] S1x256.size inb_S6x256_S1x256_2_0
abbrev rP3 : Rect S6x256 := Rect.unit (s := S6x256) ![3, 0] S1x256.size inb_S6x256_S1x256_3_0
abbrev rP4 : Rect S6x256 := Rect.unit (s := S6x256) ![4, 0] S1x256.size inb_S6x256_S1x256_4_0
abbrev rP5 : Rect S6x256 := Rect.unit (s := S6x256) ![5, 0] S1x256.size inb_S6x256_S1x256_5_0
abbrev rB0 : Rect S4x256 := Rect.unit (s := S4x256) ![0, 0] S1x256.size inb_S4x256_S1x256_0_0
abbrev rB1 : Rect S4x256 := Rect.unit (s := S4x256) ![1, 0] S1x256.size inb_S4x256_S1x256_1_0
abbrev rB2 : Rect S4x256 := Rect.unit (s := S4x256) ![2, 0] S1x256.size inb_S4x256_S1x256_2_0
abbrev rB3 : Rect S4x256 := Rect.unit (s := S4x256) ![3, 0] S1x256.size inb_S4x256_S1x256_3_0
abbrev rX0 : Rect S1000x2 := Rect.unit (s := S1000x2) ![0, 0] S1000x1.size inb_S1000x2_S1000x1_0_0
abbrev rX1 : Rect S1000x2 := Rect.unit (s := S1000x2) ![0, 1] S1000x1.size inb_S1000x2_S1000x1_0_1
abbrev rA : Rect S1000x256 := Rect.unit (s := S1000x256) ![0, 0] S1000x256.size inb_S1000x256_S1000x256_0_0
abbrev rW : Rect S256x256 := Rect.unit (s := S256x256) ![0, 0] S256x256.size inb_S256x256_S256x256_0_0

/-- The output block after the body, from the eleven input blocks: its one store, over the whole block. -/
def outBlock (x0 : Vec F S1000x2 .f32) (x1 : Vec F S1000x256 .f32) (x2 : Vec F S1000x256 .f32) (x3 : Vec F S1000x256 .f32) (x4 : Vec F S1000x256 .f32) (x5 : Vec F S256x256 .bf16) (x6 : Vec F S256x256 .bf16) (x7 : Vec F S256x256 .bf16) (x8 : Vec F S256x256 .bf16) (x9 : Vec F S4x256 .f32) (x10 : Vec F S6x256 .f32) : Vec F S1000x256 .f32 :=
  View.canon [⟨rA, k0_pay14 (k0_pay1 (View.ld x10 rP0)) (k0_pay2 (View.ld x10 rP1)) (k0_pay3 (View.ld x10 rP2)) (k0_pay4 (View.ld x10 rP3)) (k0_pay5 (View.ld x10 rP4)) (k0_pay6 (View.ld x10 rP5)) (k0_pay7 (View.ld x9 rB0)) (k0_pay8 (View.ld x9 rB1)) (k0_pay9 (View.ld x9 rB2)) (k0_pay10 (View.ld x9 rB3)) (k0_pay11 (View.ld x0 rX0)) (k0_pay12 (View.ld x0 rX1)) (k0_pay13 (View.ld x1 rA) (View.ld x5 rW)) (View.ld x2 rA) (View.ld x6 rW) (View.ld x3 rA) (View.ld x7 rW) (View.ld x4 rA) (View.ld x8 rW)⟩]

/-- The one store covers the block. -/
theorem outCover (p0 : Vec F S1000x256 .f32) (y : S1000x256.Idx) :
    ∃ pc ∈ ([⟨rA, p0⟩] : List (View.Piece (Elt F) S1000x256 .f32)), y ∈ pc.1.set :=
  View.cover_of_tiled [⟨rA, p0⟩] S1000x256.size (by rfl) y

set_option maxHeartbeats 4000000 in
/-- The body, run on whole staging buffers — the inputs' at given contents, the output's at anything — ends with the
    inputs' as they were and the output's at `outBlock` of the inputs'. -/
theorem sound_kernel (c : Dev nD) (E : Set ℕ) (i : grid0.Coords) (arg1 : Memref sig .tc .vmem S1000x2 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S1000x256 .f32) (harg4 : arg4.IsWhole) (arg5 : Memref sig .tc .vmem S1000x256 .f32) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S4x256 .f32) (harg10 : arg10.IsWhole) (arg11 : Memref sig .tc .vmem S6x256 .f32) (harg11 : arg11.IsWhole) (arg12 : Memref sig .tc .vmem S1000x256 .f32) (harg12 : arg12.IsWhole)
    (x0 : Vec F S1000x2 .f32) (x1 : Vec F S1000x256 .f32) (x2 : Vec F S1000x256 .f32) (x3 : Vec F S1000x256 .f32) (x4 : Vec F S1000x256 .f32) (x5 : Vec F S256x256 .bf16) (x6 : Vec F S256x256 .bf16) (x7 : Vec F S256x256 .bf16) (x8 : Vec F S256x256 .bf16) (x9 : Vec F S4x256 .f32) (x10 : Vec F S6x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outBlock x0 x1 x2 x3 x4 x5 x6 x7 x8 x9 x10)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (outCover _)

end Cert.KernelIdeal.HFrame

end
-- ==== Proof.KIFrame.lean ====
/- The frame of the program: the proof data of its one grid region (each input's staging buffer holds its block,
   the output's holds the body's store), the body obligation at every grid point, the run, and the frame claim:
   the program terminates, faults nowhere, and leaves its argument arrays as launched. -/
import proofs.«134268_j86002425135385_2_alg».proof.Proof.KIHost
import proofs.«134268_j86002425135385_2_alg».proof.Proof.KIBody

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, whether fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, whether fetched there or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post — every array no window stages ends as the region found it — to the
    claim's post: each argument array is no window's array and no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) h

/-! ## The proof data -/

/-- The region's proof data on core `c`: the arrays as the region finds them; after the body each input's buffer at
    its block and the output's at the body's store over the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each array of the region is
    what the proof data gives and every other declared buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates without a fault and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

end Cert.KernelIdeal.HFrame

end
-- ==== Proof.PayloadAt.lean ====
/- The kernel body's output block read at one index, at the ideal values: the two gate columns times their gate rows,
   plus, for each of the four aggregate blocks, its product with its weight matrix plus its bias row, times its gate
   row. Every layout operation of the body (casts to the same shape, row and column broadcasts, whole-block and
   one-row or one-column loads) is read at explicit coordinates, and each matrix product as the sum over the
   contracted coordinate. -/
import proofs.«134268_j86002425135385_2_alg».proof.Proof.KIBody
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.PayloadAt

open Cert.KernelIdeal Cert.KernelIdeal.Gen Cert.KernelIdeal.HFrame
open Idealize.ShloMosaic Idealize.ShloMosaic.ValueIdx

/-! ## Layout operations at explicit coordinates -/

/-- An [a, 1] column broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias or gate row broadcast over the block's rows. -/
theorem bcastRow_apply (v : FVec Ideal S1x256 .f32) (r : Fin 1000) (j : Fin 256) :
    broadcastTo S1000x256 v broadcasts_S1x256_S1000x256 (ix2 r j) = v (ix2 (0 : Fin 1) j) :=
  broadcastTo_1b_ab_apply v broadcasts_S1x256_S1000x256 r j

/-- A gate column broadcast over the block's columns. -/
theorem bcastCol_apply (v : FVec Ideal S1000x1 .f32) (r : Fin 1000) (j : Fin 256) :
    broadcastTo S1000x256 v broadcasts_S1000x1_S1000x256 (ix2 r j) = v (ix2 r (0 : Fin 1)) :=
  broadcastTo_a1_ab_apply v broadcasts_S1000x1_S1000x256 r j

/-- The zero offsets of a whole-block rectangle. -/
theorem off_zero : (![0, 0] : Fin 2 → Nat) = fun _ => 0 := by
  funext a; match a with | ⟨0, _⟩ => rfl | ⟨1, _⟩ => rfl

/-- Row o of an [n, 256] block loaded as a [1, 256] vector reads, at (0, j), the block at (o, j). -/
theorem ld_row_apply {α : Type} {n : ℕ} (x : (⟨2, ![n, 256]⟩ : Shape).Idx → α) (o : ℕ)
    (inb : ∀ a, (![o, 0] : Fin 2 → Nat) a + (![1, 256] : Fin 2 → Nat) a ≤ (⟨2, ![n, 256]⟩ : Shape).size a)
    (q : Fin n) (hq : q.val = o) (j : Fin 256) :
    (fun y => x ((Rect.unit (s := ⟨2, ![n, 256]⟩) ![o, 0] ![1, 256] inb).idx y)) (ix2 (0 : Fin 1) j) = x (ix2 q j) := by
  show x _ = x _
  refine congrArg x (funext fun a => Fin.ext ?_)
  match a with
  | ⟨0, _⟩ => show o + 1 * 0 = q.val; omega
  | ⟨1, _⟩ => show 0 + 1 * j.val = j.val; omega

/-- Column o of an [n, 2] block loaded as an [n, 1] vector reads, at (r, 0), the block at (r, o). -/
theorem ld_col_apply {α : Type} {n : ℕ} (x : (⟨2, ![n, 2]⟩ : Shape).Idx → α) (o : ℕ)
    (inb : ∀ a, (![0, o] : Fin 2 → Nat) a + (![n, 1] : Fin 2 → Nat) a ≤ (⟨2, ![n, 2]⟩ : Shape).size a)
    (q : Fin 2) (hq : q.val = o) (r : Fin n) :
    (fun y => x ((Rect.unit (s := ⟨2, ![n, 2]⟩) ![0, o] ![n, 1] inb).idx y)) (ix2 r (0 : Fin 1)) = x (ix2 r q) := by
  show x _ = x _
  refine congrArg x (funext fun a => Fin.ext ?_)
  match a with
  | ⟨0, _⟩ => show 0 + 1 * r.val = r.val; omega
  | ⟨1, _⟩ => show o + 1 * 0 = q.val; omega

/-! ## The matrix product at an index -/

/-- The body's matrix product into a zero accumulator, read at (r, j): the sum over the contracted coordinate. -/
theorem mm_apply (A : FVec Ideal S1000x256 .bf16) (B : FVec Ideal S256x256 .bf16) (r : Fin 1000) (j : Fin 256) :
    matmul (F := Ideal) dot_S1000x256_S256x256_S1000x256_1_0_0_1_n_n none A B
        (constant (F := Ideal) S1000x256 .f32 0x00000000#32) (ix2 r j)
      = ∑ k : Fin 256, (A (ix2 r k) : EReal) * (B (ix2 k j) : EReal) := by
  simp only [matmul]
  rw [Ideal.matmul_constant_zero_apply,
    ← Equiv.sum_comp (contrEquiv1 dot_S1000x256_S256x256_S1000x256_1_0_0_1_n_n 256 rfl rfl).symm]
  refine Finset.sum_congr rfl fun c _ => ?_
  have c2 := contrEquiv1_symm_val dot_S1000x256_S256x256_S1000x256_1_0_0_1_n_n 256 rfl rfl c
  have l2 : (dot_S1000x256_S256x256_S1000x256_1_0_0_1_n_n).lhsIdx (ix2 r j) ((contrEquiv1 _ 256 rfl rfl).symm c) = ix2 r c := by
    funext ax; apply Fin.ext
    match ax with
    | ⟨0, _⟩ => simp [DotDims.lhsIdx, dot_S1000x256_S256x256_S1000x256_1_0_0_1_n_n]; rfl
    | ⟨1, _⟩ => simp [DotDims.lhsIdx, dot_S1000x256_S256x256_S1000x256_1_0_0_1_n_n]; exact c2
  have r2 : (dot_S1000x256_S256x256_S1000x256_1_0_0_1_n_n).rhsIdx (ix2 r j) ((contrEquiv1 _ 256 rfl rfl).symm c) = ix2 c j := by
    funext ax; apply Fin.ext
    match ax with
    | ⟨0, _⟩ => simp [DotDims.rhsIdx, dot_S1000x256_S256x256_S1000x256_1_0_0_1_n_n]; exact c2
    | ⟨1, _⟩ => simp [DotDims.rhsIdx, dot_S1000x256_S256x256_S1000x256_1_0_0_1_n_n]; rfl
  rw [l2, r2]

/-! ## The payloads at an index -/

theorem pay1_eq (v : Vec Ideal S1x256 .f32) : k0_pay1 (F := Ideal) v = v := shapeCast_self v _
theorem pay2_eq (v : Vec Ideal S1x256 .f32) : k0_pay2 (F := Ideal) v = v := shapeCast_self v _
theorem pay3_eq (v : Vec Ideal S1x256 .f32) : k0_pay3 (F := Ideal) v = v := shapeCast_self v _
theorem pay4_eq (v : Vec Ideal S1x256 .f32) : k0_pay4 (F := Ideal) v = v := shapeCast_self v _
theorem pay5_eq (v : Vec Ideal S1x256 .f32) : k0_pay5 (F := Ideal) v = v := shapeCast_self v _
theorem pay6_eq (v : Vec Ideal S1x256 .f32) : k0_pay6 (F := Ideal) v = v := shapeCast_self v _
theorem pay7_eq (v : Vec Ideal S1x256 .f32) : k0_pay7 (F := Ideal) v = v := shapeCast_self v _
theorem pay8_eq (v : Vec Ideal S1x256 .f32) : k0_pay8 (F := Ideal) v = v := shapeCast_self v _
theorem pay9_eq (v : Vec Ideal S1x256 .f32) : k0_pay9 (F := Ideal) v = v := shapeCast_self v _
theorem pay10_eq (v : Vec Ideal S1x256 .f32) : k0_pay10 (F := Ideal) v = v := shapeCast_self v _
theorem pay11_eq (v : Vec Ideal S1000x1 .f32) : k0_pay11 (F := Ideal) v = v := shapeCast_self v _
theorem pay12_eq (v : Vec Ideal S1000x1 .f32) : k0_pay12 (F := Ideal) v = v := shapeCast_self v _

/-- One aggregate block times its weight matrix, as the body computes it: cast, narrow (exact at the ideal values),
    multiply into zero. -/
theorem mmCast_apply (v : FVec Ideal S1000x256 .f32) (w : FVec Ideal S256x256 .bf16) (r : Fin 1000) (j : Fin 256) :
    matmul (F := Ideal) dot_S1000x256_S256x256_S1000x256_1_0_0_1_n_n none
        (truncf .bf16 (shapeCast S1000x256 v shapeCasts_S1000x256_S1000x256) bitsLt_bf16_f32)
        (shapeCast S256x256 w shapeCasts_S256x256_S256x256)
        (constant (F := Ideal) S1000x256 .f32 0x00000000#32) (ix2 r j)
      = ∑ k : Fin 256, (v (ix2 r k) : EReal) * (w (ix2 k j) : EReal) := by
  refine (mm_apply _ _ r j).trans (Finset.sum_congr rfl fun k _ => ?_)
  rw [shapeCast_self w, truncf_apply, shapeCast_self v]

theorem pay13_apply (v : Vec Ideal S1000x256 .f32) (w : Vec Ideal S256x256 .bf16) (r : Fin 1000) (j : Fin 256) :
    k0_pay13 (F := Ideal) v w (ix2 r j) = ∑ k : Fin 256, (v (ix2 r k) : EReal) * (w (ix2 k j) : EReal) :=
  mmCast_apply v w r j

theorem pay14_apply (v1 v3 v5 v7 v9 v11 v13 v15 v17 v19 : FVec Ideal S1x256 .f32) (v21 v23 : FVec Ideal S1000x1 .f32)
    (v29 : FVec Ideal S1000x256 .f32) (v32 : Vec Ideal S1000x256 .f32) (v35 : Vec Ideal S256x256 .bf16)
    (v40 : Vec Ideal S1000x256 .f32) (v43 : Vec Ideal S256x256 .bf16) (v48 : Vec Ideal S1000x256 .f32)
    (v51 : Vec Ideal S256x256 .bf16) (r : Fin 1000) (j : Fin 256) :
    k0_pay14 (F := Ideal) v1 v3 v5 v7 v9 v11 v13 v15 v17 v19 v21 v23 v29 v32 v35 v40 v43 v48 v51 (ix2 r j) =
      ((((((v21 (ix2 r (0 : Fin 1)) : EReal) * v1 (ix2 (0 : Fin 1) j) + v23 (ix2 r (0 : Fin 1)) * v3 (ix2 (0 : Fin 1) j))
        + (v29 (ix2 r j) + v13 (ix2 (0 : Fin 1) j)) * v5 (ix2 (0 : Fin 1) j))
        + ((∑ k : Fin 256, (v32 (ix2 r k) : EReal) * (v35 (ix2 k j) : EReal)) + v15 (ix2 (0 : Fin 1) j)) * v7 (ix2 (0 : Fin 1) j))
        + ((∑ k : Fin 256, (v40 (ix2 r k) : EReal) * (v43 (ix2 k j) : EReal)) + v17 (ix2 (0 : Fin 1) j)) * v9 (ix2 (0 : Fin 1) j))
        + ((∑ k : Fin 256, (v48 (ix2 r k) : EReal) * (v51 (ix2 k j) : EReal)) + v19 (ix2 (0 : Fin 1) j)) * v11 (ix2 (0 : Fin 1) j)) := by
  unfold k0_pay14
  simp only [addf_apply, mulf_apply, bcastRow_apply, bcastCol_apply, mmCast_apply]

/-! ## The body's loads at an index -/

theorem ldP0 (x : Vec Ideal S6x256 .f32) (j : Fin 256) : View.ld x rP0 (ix2 (0 : Fin 1) j) = x (ix2 (0 : Fin 6) j) :=
  ld_row_apply x 0 _ 0 rfl j
theorem ldP1 (x : Vec Ideal S6x256 .f32) (j : Fin 256) : View.ld x rP1 (ix2 (0 : Fin 1) j) = x (ix2 (1 : Fin 6) j) :=
  ld_row_apply x 1 _ 1 rfl j
theorem ldP2 (x : Vec Ideal S6x256 .f32) (j : Fin 256) : View.ld x rP2 (ix2 (0 : Fin 1) j) = x (ix2 (2 : Fin 6) j) :=
  ld_row_apply x 2 _ 2 rfl j
theorem ldP3 (x : Vec Ideal S6x256 .f32) (j : Fin 256) : View.ld x rP3 (ix2 (0 : Fin 1) j) = x (ix2 (3 : Fin 6) j) :=
  ld_row_apply x 3 _ 3 rfl j
theorem ldP4 (x : Vec Ideal S6x256 .f32) (j : Fin 256) : View.ld x rP4 (ix2 (0 : Fin 1) j) = x (ix2 (4 : Fin 6) j) :=
  ld_row_apply x 4 _ 4 rfl j
theorem ldP5 (x : Vec Ideal S6x256 .f32) (j : Fin 256) : View.ld x rP5 (ix2 (0 : Fin 1) j) = x (ix2 (5 : Fin 6) j) :=
  ld_row_apply x 5 _ 5 rfl j
theorem ldB0 (x : Vec Ideal S4x256 .f32) (j : Fin 256) : View.ld x rB0 (ix2 (0 : Fin 1) j) = x (ix2 (0 : Fin 4) j) :=
  ld_row_apply x 0 _ 0 rfl j
theorem ldB1 (x : Vec Ideal S4x256 .f32) (j : Fin 256) : View.ld x rB1 (ix2 (0 : Fin 1) j) = x (ix2 (1 : Fin 4) j) :=
  ld_row_apply x 1 _ 1 rfl j
theorem ldB2 (x : Vec Ideal S4x256 .f32) (j : Fin 256) : View.ld x rB2 (ix2 (0 : Fin 1) j) = x (ix2 (2 : Fin 4) j) :=
  ld_row_apply x 2 _ 2 rfl j
theorem ldB3 (x : Vec Ideal S4x256 .f32) (j : Fin 256) : View.ld x rB3 (ix2 (0 : Fin 1) j) = x (ix2 (3 : Fin 4) j) :=
  ld_row_apply x 3 _ 3 rfl j
theorem ldX0 (x : Vec Ideal S1000x2 .f32) (r : Fin 1000) : View.ld x rX0 (ix2 r (0 : Fin 1)) = x (ix2 r (0 : Fin 2)) :=
  ld_col_apply x 0 _ 0 rfl r
theorem ldX1 (x : Vec Ideal S1000x2 .f32) (r : Fin 1000) : View.ld x rX1 (ix2 r (0 : Fin 1)) = x (ix2 r (1 : Fin 2)) :=
  ld_col_apply x 1 _ 1 rfl r
theorem ldA (x : Vec Ideal S1000x256 .f32) : View.ld x rA = x := View.ld_unit_zero off_zero _ x
theorem ldW (x : Vec Ideal S256x256 .bf16) : View.ld x rW = x := View.ld_unit_zero off_zero _ x

/-! ## The output block at an index -/

/-- The output block at row r, column j: the two gate columns times gate rows 0 and 1, plus, for each aggregate block
    s, its row r times column j of its weight matrix, plus its bias at j, times gate row s + 2 at j. -/
theorem outBlock_apply (x0 : Vec Ideal S1000x2 .f32) (x1 x2 x3 x4 : Vec Ideal S1000x256 .f32)
    (x5 x6 x7 x8 : Vec Ideal S256x256 .bf16) (x9 : Vec Ideal S4x256 .f32) (x10 : Vec Ideal S6x256 .f32)
    (r : Fin 1000) (j : Fin 256) :
    outBlock (F := Ideal) x0 x1 x2 x3 x4 x5 x6 x7 x8 x9 x10 (ix2 r j) =
      ((((((x0 (ix2 r (0 : Fin 2)) : EReal) * x10 (ix2 (0 : Fin 6) j) + x0 (ix2 r (1 : Fin 2)) * x10 (ix2 (1 : Fin 6) j))
        + ((∑ k : Fin 256, (x1 (ix2 r k) : EReal) * (x5 (ix2 k j) : EReal)) + x9 (ix2 (0 : Fin 4) j)) * x10 (ix2 (2 : Fin 6) j))
        + ((∑ k : Fin 256, (x2 (ix2 r k) : EReal) * (x6 (ix2 k j) : EReal)) + x9 (ix2 (1 : Fin 4) j)) * x10 (ix2 (3 : Fin 6) j))
        + ((∑ k : Fin 256, (x3 (ix2 r k) : EReal) * (x7 (ix2 k j) : EReal)) + x9 (ix2 (2 : Fin 4) j)) * x10 (ix2 (4 : Fin 6) j))
        + ((∑ k : Fin 256, (x4 (ix2 r k) : EReal) * (x8 (ix2 k j) : EReal)) + x9 (ix2 (3 : Fin 4) j)) * x10 (ix2 (5 : Fin 6) j)) := by
  unfold outBlock
  rw [View.canon_unit_zero off_zero]
  refine (pay14_apply _ _ _ _ _ _ _ _ _ _ _ _ _ _ _ _ _ _ _ r j).trans ?_
  rw [pay13_apply, pay1_eq, pay2_eq, pay3_eq, pay4_eq, pay5_eq, pay6_eq, pay7_eq, pay8_eq, pay9_eq, pay10_eq,
    pay11_eq, pay12_eq, ldP0, ldP1, ldP2, ldP3, ldP4, ldP5, ldB0, ldB1, ldB2, ldB3, ldX0, ldX1]
  rw [ldA x1, ldA x2, ldA x3, ldA x4, ldW x5, ldW x6, ldW x7, ldW x8]

end Cert.KernelIdeal.PayloadAt

end
-- ==== Proof.KIFinal.lean ====
/- From blocks to the array: what the kernel's output array holds after the run, as one function of the arrays the
   grid region is launched on. Point `t` of the grid holds rows 1000·t … 1000·t + 999: the output block and the five
   row-blocked inputs move together, the weights, bias rows and gate rows are the same whole arrays at every point;
   the hundred blocks cover the 100000 rows. -/
import proofs.«134268_j86002425135385_2_alg».proof.Proof.KIFrame
import proofs.«134268_j86002425135385_2_alg».proof.Proof.PayloadAt
import Idealize.ShloMosaic.Lib.Pipeline.Value
import Idealize.ShloMosaic.Lib.ValueIdx

set_option maxRecDepth 16384

noncomputable section

namespace Cert.KernelIdeal.KFinal

open Cert.KernelIdeal Cert.KernelIdeal.Gen Cert.KernelIdeal.HFrame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The kernel's output at row `n`, feature `j`, from the launched arrays: the two gated columns times their gate
    rows, plus per convolution (aggregate row · weight column + bias) times its gate row. -/
def gk (xcA : S100000x2.Idx → EReal) (a1 a2 a3 a4 : S100000x256.Idx → EReal) (w1 w2 w3 w4 : S256x256.Idx → EReal)
    (bc : S4x256.Idx → EReal) (pc : S6x256.Idx → EReal) (n : Fin 100000) (j : Fin 256) : EReal :=
  (((((xcA (ix2 n 0) * pc (ix2 0 j) + xcA (ix2 n 1) * pc (ix2 1 j))
      + ((∑ k : Fin 256, a1 (ix2 n k) * w1 (ix2 k j)) + bc (ix2 0 j)) * pc (ix2 2 j))
      + ((∑ k : Fin 256, a2 (ix2 n k) * w2 (ix2 k j)) + bc (ix2 1 j)) * pc (ix2 3 j))
      + ((∑ k : Fin 256, a3 (ix2 n k) * w3 (ix2 k j)) + bc (ix2 2 j)) * pc (ix2 4 j))
      + ((∑ k : Fin 256, a4 (ix2 n k) * w4 (ix2 k j)) + bc (ix2 3 j)) * pc (ix2 5 j))

/-- The same as a function of the array index. -/
def GK (xcA : S100000x2.Idx → EReal) (a1 a2 a3 a4 : S100000x256.Idx → EReal) (w1 w2 w3 w4 : S256x256.Idx → EReal)
    (bc : S4x256.Idx → EReal) (pc : S6x256.Idx → EReal) : S100000x256.Idx → EReal :=
  fun i => gk xcA a1 a2 a3 a4 w1 w2 w3 w4 bc pc (i 0) (i 1)

/-- The block index maps, decided over the hundred grid points: the row-blocked windows are at block `(t, 0)`, the whole-array
    windows at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

theorem t_lt (t : Fin cfg0.N) : t.val < 100 := t.isLt

/-- Row `r` of window 0's block at point `t` is row 1000·t + r of its array. -/
theorem emb0 (t : Fin cfg0.N) (r : Fin 1000) (k : Fin 2) :
    ((cfg0.win 0).blk t).view.emb (ix2 r k) = ix2 ⟨t.val * 1000 + r.val, by have := t_lt t; have := r.isLt; omega⟩ k := by
  obtain ⟨h0, h1, h2, h3, h4, h5, h6, h7, h8, h9, h10, h11⟩ := idx_facts t
  funext a; apply Fin.ext
  match a with
  | ⟨0, _⟩ => show win0_0.index t (0 : Fin 2) * 1000 + 1 * r.val = t.val * 1000 + r.val; rw [h0.1]; omega
  | ⟨1, _⟩ => show win0_0.index t (1 : Fin 2) * 2 + 1 * k.val = k.val; rw [h0.2]; omega
/-- Row `r` of window 1's block at point `t` is row 1000·t + r of its array. -/
theorem emb1 (t : Fin cfg0.N) (r : Fin 1000) (k : Fin 256) :
    ((cfg0.win 1).blk t).view.emb (ix2 r k) = ix2 ⟨t.val * 1000 + r.val, by have := t_lt t; have := r.isLt; omega⟩ k := by
  obtain ⟨h0, h1, h2, h3, h4, h5, h6, h7, h8, h9, h10, h11⟩ := idx_facts t
  funext a; apply Fin.ext
  match a with
  | ⟨0, _⟩ => show win0_1.index t (0 : Fin 2) * 1000 + 1 * r.val = t.val * 1000 + r.val; rw [h1.1]; omega
  | ⟨1, _⟩ => show win0_1.index t (1 : Fin 2) * 256 + 1 * k.val = k.val; rw [h1.2]; omega
/-- Row `r` of window 2's block at point `t` is row 1000·t + r of its array. -/
theorem emb2 (t : Fin cfg0.N) (r : Fin 1000) (k : Fin 256) :
    ((cfg0.win 2).blk t).view.emb (ix2 r k) = ix2 ⟨t.val * 1000 + r.val, by have := t_lt t; have := r.isLt; omega⟩ k := by
  obtain ⟨h0, h1, h2, h3, h4, h5, h6, h7, h8, h9, h10, h11⟩ := idx_facts t
  funext a; apply Fin.ext
  match a with
  | ⟨0, _⟩ => show win0_2.index t (0 : Fin 2) * 1000 + 1 * r.val = t.val * 1000 + r.val; rw [h2.1]; omega
  | ⟨1, _⟩ => show win0_2.index t (1 : Fin 2) * 256 + 1 * k.val = k.val; rw [h2.2]; omega
/-- Row `r` of window 3's block at point `t` is row 1000·t + r of its array. -/
theorem emb3 (t : Fin cfg0.N) (r : Fin 1000) (k : Fin 256) :
    ((cfg0.win 3).blk t).view.emb (ix2 r k) = ix2 ⟨t.val * 1000 + r.val, by have := t_lt t; have := r.isLt; omega⟩ k := by
  obtain ⟨h0, h1, h2, h3, h4, h5, h6, h7, h8, h9, h10, h11⟩ := idx_facts t
  funext a; apply Fin.ext
  match a with
  | ⟨0, _⟩ => show win0_3.index t (0 : Fin 2) * 1000 + 1 * r.val = t.val * 1000 + r.val; rw [h3.1]; omega
  | ⟨1, _⟩ => show win0_3.index t (1 : Fin 2) * 256 + 1 * k.val = k.val; rw [h3.2]; omega
/-- Row `r` of window 4's block at point `t` is row 1000·t + r of its array. -/
theorem emb4 (t : Fin cfg0.N) (r : Fin 1000) (k : Fin 256) :
    ((cfg0.win 4).blk t).view.emb (ix2 r k) = ix2 ⟨t.val * 1000 + r.val, by have := t_lt t; have := r.isLt; omega⟩ k := by
  obtain ⟨h0, h1, h2, h3, h4, h5, h6, h7, h8, h9, h10, h11⟩ := idx_facts t
  funext a; apply Fin.ext
  match a with
  | ⟨0, _⟩ => show win0_4.index t (0 : Fin 2) * 1000 + 1 * r.val = t.val * 1000 + r.val; rw [h4.1]; omega
  | ⟨1, _⟩ => show win0_4.index t (1 : Fin 2) * 256 + 1 * k.val = k.val; rw [h4.2]; omega
/-- Row `r` of window 11's block at point `t` is row 1000·t + r of its array. -/
theorem emb11 (t : Fin cfg0.N) (r : Fin 1000) (k : Fin 256) :
    ((cfg0.win 11).blk t).view.emb (ix2 r k) = ix2 ⟨t.val * 1000 + r.val, by have := t_lt t; have := r.isLt; omega⟩ k := by
  obtain ⟨h0, h1, h2, h3, h4, h5, h6, h7, h8, h9, h10, h11⟩ := idx_facts t
  funext a; apply Fin.ext
  match a with
  | ⟨0, _⟩ => show win0_11.index t (0 : Fin 2) * 1000 + 1 * r.val = t.val * 1000 + r.val; rw [h11.1]; omega
  | ⟨1, _⟩ => show win0_11.index t (1 : Fin 2) * 256 + 1 * k.val = k.val; rw [h11.2]; omega
/-- Window 5's block at every point is its whole array. -/
theorem emb5 (t : Fin cfg0.N) (k : Fin 256) (j : Fin 256) :
    ((cfg0.win 5).blk t).view.emb (ix2 k j) = ix2 k j := by
  obtain ⟨h0, h1, h2, h3, h4, h5, h6, h7, h8, h9, h10, h11⟩ := idx_facts t
  funext a; apply Fin.ext
  match a with
  | ⟨0, _⟩ => show win0_5.index t (0 : Fin 2) * 256 + 1 * k.val = k.val; rw [h5.1]; omega
  | ⟨1, _⟩ => show win0_5.index t (1 : Fin 2) * 256 + 1 * j.val = j.val; rw [h5.2]; omega
/-- Window 6's block at every point is its whole array. -/
theorem emb6 (t : Fin cfg0.N) (k : Fin 256) (j : Fin 256) :
    ((cfg0.win 6).blk t).view.emb (ix2 k j) = ix2 k j := by
  obtain ⟨h0, h1, h2, h3, h4, h5, h6, h7, h8, h9, h10, h11⟩ := idx_facts t
  funext a; apply Fin.ext
  match a with
  | ⟨0, _⟩ => show win0_6.index t (0 : Fin 2) * 256 + 1 * k.val = k.val; rw [h6.1]; omega
  | ⟨1, _⟩ => show win0_6.index t (1 : Fin 2) * 256 + 1 * j.val = j.val; rw [h6.2]; omega
/-- Window 7's block at every point is its whole array. -/
theorem emb7 (t : Fin cfg0.N) (k : Fin 256) (j : Fin 256) :
    ((cfg0.win 7).blk t).view.emb (ix2 k j) = ix2 k j := by
  obtain ⟨h0, h1, h2, h3, h4, h5, h6, h7, h8, h9, h10, h11⟩ := idx_facts t
  funext a; apply Fin.ext
  match a with
  | ⟨0, _⟩ => show win0_7.index t (0 : Fin 2) * 256 + 1 * k.val = k.val; rw [h7.1]; omega
  | ⟨1, _⟩ => show win0_7.index t (1 : Fin 2) * 256 + 1 * j.val = j.val; rw [h7.2]; omega
/-- Window 8's block at every point is its whole array. -/
theorem emb8 (t : Fin cfg0.N) (k : Fin 256) (j : Fin 256) :
    ((cfg0.win 8).blk t).view.emb (ix2 k j) = ix2 k j := by
  obtain ⟨h0, h1, h2, h3, h4, h5, h6, h7, h8, h9, h10, h11⟩ := idx_facts t
  funext a; apply Fin.ext
  match a with
  | ⟨0, _⟩ => show win0_8.index t (0 : Fin 2) * 256 + 1 * k.val = k.val; rw [h8.1]; omega
  | ⟨1, _⟩ => show win0_8.index t (1 : Fin 2) * 256 + 1 * j.val = j.val; rw [h8.2]; omega
/-- Window 9's block at every point is its whole array. -/
theorem emb9 (t : Fin cfg0.N) (k : Fin 4) (j : Fin 256) :
    ((cfg0.win 9).blk t).view.emb (ix2 k j) = ix2 k j := by
  obtain ⟨h0, h1, h2, h3, h4, h5, h6, h7, h8, h9, h10, h11⟩ := idx_facts t
  funext a; apply Fin.ext
  match a with
  | ⟨0, _⟩ => show win0_9.index t (0 : Fin 2) * 4 + 1 * k.val = k.val; rw [h9.1]; omega
  | ⟨1, _⟩ => show win0_9.index t (1 : Fin 2) * 256 + 1 * j.val = j.val; rw [h9.2]; omega
/-- Window 10's block at every point is its whole array. -/
theorem emb10 (t : Fin cfg0.N) (k : Fin 6) (j : Fin 256) :
    ((cfg0.win 10).blk t).view.emb (ix2 k j) = ix2 k j := by
  obtain ⟨h0, h1, h2, h3, h4, h5, h6, h7, h8, h9, h10, h11⟩ := idx_facts t
  funext a; apply Fin.ext
  match a with
  | ⟨0, _⟩ => show win0_10.index t (0 : Fin 2) * 6 + 1 * k.val = k.val; rw [h10.1]; omega
  | ⟨1, _⟩ => show win0_10.index t (1 : Fin 2) * 256 + 1 * j.val = j.val; rw [h10.2]; omega

section Core

/-! The identity over ANY contents of the core's buffers (a variable: nothing of the host operations is looked at). -/

variable {c : Dev nD} (VV : (b : Ref sig .tc) → Buf (Elt Ideal) ((c : Thread nD τ).loc b))

/-- Window `w`'s block at point `t`, read off its array. -/
def blkOf (w : Fin cfg0.W) (t : Fin cfg0.N) : ((cfg0.win w).xblock (cfg0.grid.coords t)).Idx → Elt Ideal (cfg0.win w).elt :=
  ((cfg0.win w).blk t).view.read (Elt Ideal) (VV (Pipeline.arrRef spec0 w))

theorem blkAt0 (t : Fin cfg0.N) (r : Fin 1000) (k : Fin 2) :
    blkOf VV 0 t (ix2 r k) = VV main_v173 (ix2 ⟨t.val * 1000 + r.val, by have := t_lt t; have := r.isLt; omega⟩ k) :=
  congrArg (VV main_v173) (emb0 t r k)
theorem blkAt1 (t : Fin cfg0.N) (r : Fin 1000) (k : Fin 256) :
    blkOf VV 1 t (ix2 r k) = VV main_v122 (ix2 ⟨t.val * 1000 + r.val, by have := t_lt t; have := r.isLt; omega⟩ k) :=
  congrArg (VV main_v122) (emb1 t r k)
theorem blkAt2 (t : Fin cfg0.N) (r : Fin 1000) (k : Fin 256) :
    blkOf VV 2 t (ix2 r k) = VV main_v136 (ix2 ⟨t.val * 1000 + r.val, by have := t_lt t; have := r.isLt; omega⟩ k) :=
  congrArg (VV main_v136) (emb2 t r k)
theorem blkAt3 (t : Fin cfg0.N) (r : Fin 1000) (k : Fin 256) :
    blkOf VV 3 t (ix2 r k) = VV main_v150 (ix2 ⟨t.val * 1000 + r.val, by have := t_lt t; have := r.isLt; omega⟩ k) :=
  congrArg (VV main_v150) (emb3 t r k)
theorem blkAt4 (t : Fin cfg0.N) (r : Fin 1000) (k : Fin 256) :
    blkOf VV 4 t (ix2 r k) = VV main_v164 (ix2 ⟨t.val * 1000 + r.val, by have := t_lt t; have := r.isLt; omega⟩ k) :=
  congrArg (VV main_v164) (emb4 t r k)
theorem blkAt5 (t : Fin cfg0.N) (k : Fin 256) (j : Fin 256) :
    blkOf VV 5 t (ix2 k j) = VV main_v174 (ix2 k j) :=
  congrArg (VV main_v174) (emb5 t k j)
theorem blkAt6 (t : Fin cfg0.N) (k : Fin 256) (j : Fin 256) :
    blkOf VV 6 t (ix2 k j) = VV main_v175 (ix2 k j) :=
  congrArg (VV main_v175) (emb6 t k j)
theorem blkAt7 (t : Fin cfg0.N) (k : Fin 256) (j : Fin 256) :
    blkOf VV 7 t (ix2 k j) = VV main_v176 (ix2 k j) :=
  congrArg (VV main_v176) (emb7 t k j)
theorem blkAt8 (t : Fin cfg0.N) (k : Fin 256) (j : Fin 256) :
    blkOf VV 8 t (ix2 k j) = VV main_v177 (ix2 k j) :=
  congrArg (VV main_v177) (emb8 t k j)
theorem blkAt9 (t : Fin cfg0.N) (k : Fin 4) (j : Fin 256) :
    blkOf VV 9 t (ix2 k j) = VV main_v182 (ix2 k j) :=
  congrArg (VV main_v182) (emb9 t k j)
theorem blkAt10 (t : Fin cfg0.N) (k : Fin 6) (j : Fin 256) :
    blkOf VV 10 t (ix2 k j) = VV main_v189 (ix2 k j) :=
  congrArg (VV main_v189) (emb10 t k j)

/-- The body's store at point `t`, over the blocks of the arrays, is block `t` of `GK` of the arrays. -/
theorem core (t : Fin cfg0.N) :
    (cfg0.win 11).cut (grid0.coords t) (outBlock (blkOf VV 0 t) (blkOf VV 1 t) (blkOf VV 2 t) (blkOf VV 3 t) (blkOf VV 4 t) (blkOf VV 5 t) (blkOf VV 6 t) (blkOf VV 7 t) (blkOf VV 8 t) (blkOf VV 9 t) (blkOf VV 10 t))
      = ((cfg0.win 11).blk t).view.read (Elt Ideal)
      (GK (VV main_v173) (VV main_v122) (VV main_v136) (VV main_v150) (VV main_v164)
        (VV main_v174) (VV main_v175) (VV main_v176) (VV main_v177) (VV main_v182) (VV main_v189)) := by
  funext y
  obtain ⟨r, j, rfl⟩ : ∃ (r : Fin 1000) (j : Fin 256), y = ix2 r j := ⟨y 0, y 1, eq_ix2 y⟩
  show outBlock (blkOf VV 0 t) (blkOf VV 1 t) (blkOf VV 2 t) (blkOf VV 3 t) (blkOf VV 4 t) (blkOf VV 5 t) (blkOf VV 6 t) (blkOf VV 7 t) (blkOf VV 8 t) (blkOf VV 9 t) (blkOf VV 10 t) (ix2 r j)
    = (GK (VV main_v173) (VV main_v122) (VV main_v136) (VV main_v150) (VV main_v164)
        (VV main_v174) (VV main_v175) (VV main_v176) (VV main_v177) (VV main_v182) (VV main_v189)) (((cfg0.win 11).blk t).view.emb (ix2 r j))
  rw [Cert.KernelIdeal.PayloadAt.outBlock_apply, emb11]
  simp only [blkAt0, blkAt1, blkAt2, blkAt3, blkAt4, blkAt5, blkAt6, blkAt7, blkAt8, blkAt9, blkAt10]
  rfl

end Core

/-- What point `t` writes back is block `t` of `GK` of the launched arrays. -/
theorem flushed_eq (c : Dev nD) (t : Fin cfg0.N) :
    (dats m 0 c).flushed 11 t = ((cfg0.win 11).blk t).view.read (Elt Ideal)
      (GK (V m c main_v173) (V m c main_v122) (V m c main_v136) (V m c main_v150) (V m c main_v164)
        (V m c main_v174) (V m c main_v175) (V m c main_v176) (V m c main_v177) (V m c main_v182) (V m c main_v189)) := by
  show (cfg0.win 11).cut (grid0.coords t) ((dats m 0 c).after 11 t) = _
  rw [after11]
  exact core (V m c) t

/-- An index of the output array is in point `t`'s block iff each coordinate is in the block's range on its axis. -/
theorem mem_blk (t : Fin cfg0.N) (i : S100000x256.Idx) :
    i ∈ ((cfg0.win 11).blk t).view.set ↔ ∀ a : Fin 2, win0_11.index t a * S1000x256.size a ≤ (i a).val ∧ (i a).val < win0_11.index t a * S1000x256.size a + S1000x256.size a := by
  show i ∈ ((View.whole main_v190).slice (win0_11.rect t)).set ↔ _
  rw [View.set_slice_whole, Rect.mem_set_unit]
  exact Iff.rfl

/-- Every index of the output array lies in the block of the point that holds its row. -/
theorem cover (i : S100000x256.Idx) :
    ∃ t : Fin cfg0.N, (cfg0.win 11).flush t = true ∧ i ∈ ((cfg0.win 11).blk t).view.set := by
  have hi0 : (i 0).val < 100000 := (i 0).isLt
  have hi1 : (i 1).val < 256 := (i 1).isLt
  refine ⟨⟨(i 0).val / 1000, by show (i 0).val / 1000 < 100; omega⟩, flush0_11 _, ?_⟩
  rw [mem_blk]
  obtain ⟨h0, h1, h2, h3, h4, h5, h6, h7, h8, h9, h10, h11⟩ := idx_facts ⟨(i 0).val / 1000, by show (i 0).val / 1000 < 100; omega⟩
  intro a
  match a with
  | ⟨0, _⟩ => show win0_11.index _ (0 : Fin 2) * 1000 ≤ (i 0).val ∧ (i 0).val < win0_11.index _ (0 : Fin 2) * 1000 + 1000; rw [h11.1]; show (i 0).val / 1000 * 1000 ≤ (i 0).val ∧ (i 0).val < (i 0).val / 1000 * 1000 + 1000; omega
  | ⟨1, _⟩ => show win0_11.index _ (1 : Fin 2) * 256 ≤ (i 1).val ∧ (i 1).val < win0_11.index _ (1 : Fin 2) * 256 + 256; rw [h11.2]; omega

/-- The output array after the run is `GK` of the launched arrays. -/
theorem final (c : Dev nD) : (dats m 0 c).arrAt 11 cfg0.N =
    GK (V m c main_v173) (V m c main_v122) (V m c main_v136) (V m c main_v150) (V m c main_v164)
      (V m c main_v174) (V m c main_v175) (V m c main_v176) (V m c main_v177) (V m c main_v182) (V m c main_v189) :=
  (dats m 0 c).arrAt_eq_of_cover 11 _ (fun t _ => flushed_eq m c t) cover

end Cert.KernelIdeal.KFinal

end
-- ==== Proof.KITerm.lean ====
/- The arrays the kernel's grid region is launched on, as structured terms of the program's arguments.

   Per edge set the kernel builds, with the same operations as the reference, the extended edge list (one self-loop
   per node appended), the in-degrees by an accumulating scatter of ones, their inverse square roots and the edge
   weights. It then AGGREGATES FIRST: the features of each edge's source (rounded to the narrow format and widened
   again: the identity on exact values), times the edge weight, accumulated at the targets. The region also takes the
   two gated copies of the first feature column side by side, the four weight matrices in the narrow format, the four
   bias rows stacked and the six gate rows stacked. -/
import proofs.«134268_j86002425135385_2_alg».proof.Proof.Gen.KernelIdeal

noncomputable section

namespace Cert.KernelIdeal.KValue

open Cert.KernelIdeal Cert.KernelIdeal.Gen Idealize.ShloMosaic Idealize.ShloMosaic.TcCoe Idealize.SL.Sem

variable (F : FTy → Type) [FloatOps F]

/-! ## The array types -/

/-- A node-by-feature matrix, 100000 × 256. -/
abbrev NodeMat : Type := (⟨S100000x256, .f32⟩ : BufTy).Contents (Elt F)
/-- A value per node. -/
abbrev NodeVec : Type := (⟨S100000, .f32⟩ : BufTy).Contents (Elt F)
/-- A node number per node. -/
abbrev NodeIx : Type := (⟨S100000, .i32⟩ : BufTy).Contents (Elt F)
/-- An edge set as given: row 0 the sources, row 1 the targets, 500000 edges. -/
abbrev EdgeArg : Type := (⟨S2x500000, .i32⟩ : BufTy).Contents (Elt F)
/-- A node number per edge of the extended edge list (600000 edges). -/
abbrev EdgeIx : Type := (⟨S600000, .i32⟩ : BufTy).Contents (Elt F)
/-- The same as a 600000 × 1 array of index vectors of length one. -/
abbrev EdgeIx1 : Type := (⟨S600000x1, .i32⟩ : BufTy).Contents (Elt F)
/-- A value per edge. -/
abbrev EdgeVec : Type := (⟨S600000, .f32⟩ : BufTy).Contents (Elt F)
/-- A feature row per edge. -/
abbrev EdgeMat : Type := (⟨S600000x256, .f32⟩ : BufTy).Contents (Elt F)
/-- A weight matrix, 256 × 256. -/
abbrev WMat : Type := (⟨S256x256, .f32⟩ : BufTy).Contents (Elt F)
/-- A feature row. -/
abbrev Row : Type := (⟨S256, .f32⟩ : BufTy).Contents (Elt F)

variable {F}

/-! ## The extended edge list -/

/-- The node numbers 0 … 99999: one self-loop per node. -/
def selfLoops : NodeIx F := iotaInDim S100000 32 0

/-- The sources of the extended edge list: the given sources, then the self-loops. -/
def rowVec (e : EdgeArg F) : EdgeIx F :=
  concatenate S600000 0 [⟨S500000, (shapeCast _ (extractStridedSlice S1x500000 ![0, 0] e slices_S2x500000_S1x500000_0_0) shapeCasts_S1x500000_S500000)⟩, ⟨S100000, (selfLoops (F := F))⟩] concatenates_S500000_S100000_S600000_d0

/-- The targets of the extended edge list: the given targets, then the self-loops. -/
def colVec (e : EdgeArg F) : EdgeIx F :=
  concatenate S600000 0 [⟨S500000, (shapeCast _ (extractStridedSlice S1x500000 ![1, 0] e slices_S2x500000_S1x500000_1_0) shapeCasts_S1x500000_S500000)⟩, ⟨S100000, (selfLoops (F := F))⟩] concatenates_S500000_S100000_S600000_d0

/-- The index array of a gather by node number: a negative number counts from the end (100000 is added), and
    each number becomes an index vector of length one. -/
def wrapIdx (v : EdgeIx F) : EdgeIx1 F :=
  broadcastInDim S600000x1 ![0] bcast_S600000_S600000x1_0 (select (cmpi .slt v (broadcastInDim S600000 ![] bcast_S_S600000 (constantI S_ 32 0#32))) (addi v (broadcastInDim S600000 ![] bcast_S_S600000 (constantI S_ 32 100000#32))) v)

/-- The index array of the scatters: the target of each edge as an index vector of length one. -/
def colIdx (e : EdgeArg F) : EdgeIx1 F :=
  broadcastInDim S600000x1 ![0] bcast_S600000_S600000x1_0 (colVec e)

/-! ## The normalisation -/

/-- The in-degree of every node in the extended edge list: ones accumulated at the targets, from zero. -/
def deg (e : EdgeArg F) : NodeVec F :=
  Host.scatterAdd scatter_S100000_S600000x1_S600000_n_0_0_1 (broadcastInDim S100000 ![] bcast_S_S100000 (constant S_ .f32 0x00000000#32)) (colIdx e) (broadcastInDim S600000 ![] bcast_S_S600000 (constant S_ .f32 0x3F800000#32))

/-- The inverse square root of the in-degree. -/
def dis (e : EdgeArg F) : NodeVec F := Host.rsqrt (deg e)

/-- The weight of each edge: `dis` at its source times `dis` at its target. -/
def norm (e : EdgeArg F) : EdgeVec F :=
  mulf (Host.gather gather_S100000_S600000x1_S600000_n_0_n_n_0_1_1 (dis e) (wrapIdx (rowVec e))) (Host.gather gather_S100000_S600000x1_S600000_n_0_n_n_0_1_1 (dis e) (wrapIdx (colVec e)))

/-- The edge weights repeated along the 256 features. -/
def normMat (e : EdgeArg F) : EdgeMat F :=
  broadcastInDim S600000x256 ![0, 1] bcast_S600000x1_S600000x256_0_1 (broadcastInDim S600000x1 ![0] bcast_S600000_S600000x1_0 (norm e))

/-! ## The region's operands -/

variable (F) in
/-- A node-by-feature matrix in the narrow float format. -/
abbrev NodeMatB : Type := (⟨S100000x256, .bf16⟩ : BufTy).Contents (Elt F)
variable (F) in
/-- A weight matrix in the narrow float format. -/
abbrev WMatB : Type := (⟨S256x256, .bf16⟩ : BufTy).Contents (Elt F)
variable (F) in
/-- A feature row as a 1 × 256 array. -/
abbrev Row1 : Type := (⟨S1x256, .f32⟩ : BufTy).Contents (Elt F)

/-- The features rounded to the narrow format. -/
def xbf (x : NodeMat F) : NodeMatB F := truncf .bf16 x bitsLt_bf16_f32

/-- The aggregate of one edge set BEFORE the transform: the (rounded, widened) features of each edge's source times
    the edge weight, accumulated at the targets from zero. -/
def aggIn (x : NodeMat F) (e : EdgeArg F) : NodeMat F :=
  Host.scatterAdd scatter_S100000x256_S600000x1_S600000x256_1_0_0_1 (broadcastInDim S100000x256 ![] bcast_S_S100000x256 (constant S_ .f32 0x00000000#32)) (colIdx e)
    (mulf (extf .f32 (Host.gather gather_S100000x256_S600000x1_S600000x256_1_0_n_n_0_1_1256 (xbf x) (wrapIdx (rowVec e))) bitsLt_bf16_f32) (normMat e))

/-- The first feature column of `x`. -/
def col0 (x : NodeMat F) : NodeVec F :=
  shapeCast _ (extractStridedSlice S100000x1 ![0, 0] x slices_S100000x256_S100000x1_0_0) shapeCasts_S100000x1_S100000

/-- The two gated copies of the first feature column, side by side: a 100000 × 2 array. -/
def xc (c0 c1 : NodeVec F) (x : NodeMat F) : (⟨S100000x2, .f32⟩ : BufTy).Contents (Elt F) :=
  concatenate S100000x2 1 [⟨S100000x1, (broadcastInDim S100000x1 ![0] bcast_S100000_S100000x1_0 (mulf c0 (col0 x)))⟩, ⟨S100000x1, (broadcastInDim S100000x1 ![0] bcast_S100000_S100000x1_0 (mulf c1 (col0 x)))⟩] concatenates_S100000x1_S100000x1_S100000x2_d1

/-- A weight matrix rounded to the narrow format. -/
def wbf (W : WMat F) : WMatB F := truncf .bf16 W bitsLt_bf16_f32

/-- A feature row as a 1 × 256 array. -/
def rowUp (b : Row F) : Row1 F := broadcastInDim S1x256 ![1] bcast_S256_S1x256_1 b

/-- The four bias rows stacked. -/
def bcat (b1 b2 b3 b4 : Row F) : (⟨S4x256, .f32⟩ : BufTy).Contents (Elt F) :=
  concatenate S4x256 0 [⟨S1x256, rowUp b1⟩, ⟨S1x256, rowUp b2⟩, ⟨S1x256, rowUp b3⟩, ⟨S1x256, rowUp b4⟩] concatenates_S1x256_S1x256_S1x256_S1x256_S4x256_d0

/-- The six gate rows stacked. -/
def pcat (p0 p1 p2 p3 p4 p5 : Row F) : (⟨S6x256, .f32⟩ : BufTy).Contents (Elt F) :=
  concatenate S6x256 0 [⟨S1x256, rowUp p0⟩, ⟨S1x256, rowUp p1⟩, ⟨S1x256, rowUp p2⟩, ⟨S1x256, rowUp p3⟩, ⟨S1x256, rowUp p4⟩, ⟨S1x256, rowUp p5⟩] concatenates_S1x256_S1x256_S1x256_S1x256_S1x256_S1x256_S6x256_d0

end Cert.KernelIdeal.KValue

end
-- ==== Proof.KIVal1.lean ====
/- The aggregates of the first two edge sets as the grid region finds them: the host operations before the region, read back. -/
import proofs.«134268_j86002425135385_2_alg».proof.Proof.KIHost
import proofs.«134268_j86002425135385_2_alg».proof.Proof.KITerm
import Idealize.ShloMosaic.Lib.StableHlo.Run

noncomputable section

namespace Cert.KernelIdeal.KValue

open Cert.KernelIdeal Cert.KernelIdeal.Gen Cert.KernelIdeal.HFrame Idealize.ShloMosaic Idealize.ShloMosaic.TcCoe Idealize.SL.Sem Idealize.ShloMosaic.StableHlo

variable {F : FTy → Type} [FloatOps F]
variable (m : (ℓ : Loc nD τ sig) → Buf (Elt F) ℓ)
set_option maxHeartbeats 8000000 in
set_option maxRecDepth 16384 in
/-- The first aggregate array is `aggIn` of the features and the first edge set. -/
theorem V_agg1 (c : Dev nD) : V m c main_v122 = aggIn (m ((c : Thread nD τ).loc main_arg0)) (m ((c : Thread nD τ).loc main_arg1)) := by
  show StableHlo.after hostOps0 (fun b => m (c, b)) (Proc.devRef .tc main_v122) = _
  simp only [hostOps0]
  generalize hcat : ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)) = fcat
  after_results_simp
  subst hcat
  rfl
set_option maxHeartbeats 8000000 in
set_option maxRecDepth 16384 in
/-- The second aggregate array is `aggIn` of the features and the second edge set. -/
theorem V_agg2 (c : Dev nD) : V m c main_v136 = aggIn (m ((c : Thread nD τ).loc main_arg0)) (m ((c : Thread nD τ).loc main_arg2)) := by
  show StableHlo.after hostOps0 (fun b => m (c, b)) (Proc.devRef .tc main_v136) = _
  simp only [hostOps0]
  generalize hcat : ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)) = fcat
  after_results_simp
  subst hcat
  rfl

end Cert.KernelIdeal.KValue

end
-- ==== Proof.KIVal2.lean ====
/- The aggregates of the last two edge sets as the grid region finds them: the host operations before the region, read back. -/
import proofs.«134268_j86002425135385_2_alg».proof.Proof.KIHost
import proofs.«134268_j86002425135385_2_alg».proof.Proof.KITerm
import Idealize.ShloMosaic.Lib.StableHlo.Run

noncomputable section

namespace Cert.KernelIdeal.KValue

open Cert.KernelIdeal Cert.KernelIdeal.Gen Cert.KernelIdeal.HFrame Idealize.ShloMosaic Idealize.ShloMosaic.TcCoe Idealize.SL.Sem Idealize.ShloMosaic.StableHlo

variable {F : FTy → Type} [FloatOps F]
variable (m : (ℓ : Loc nD τ sig) → Buf (Elt F) ℓ)
set_option maxHeartbeats 8000000 in
set_option maxRecDepth 16384 in
/-- The third aggregate array is `aggIn` of the features and the third edge set. -/
theorem V_agg3 (c : Dev nD) : V m c main_v150 = aggIn (m ((c : Thread nD τ).loc main_arg0)) (m ((c : Thread nD τ).loc main_arg3)) := by
  show StableHlo.after hostOps0 (fun b => m (c, b)) (Proc.devRef .tc main_v150) = _
  simp only [hostOps0]
  generalize hcat : ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)) = fcat
  after_results_simp
  subst hcat
  rfl
set_option maxHeartbeats 8000000 in
set_option maxRecDepth 16384 in
/-- The fourth aggregate array is `aggIn` of the features and the fourth edge set. -/
theorem V_agg4 (c : Dev nD) : V m c main_v164 = aggIn (m ((c : Thread nD τ).loc main_arg0)) (m ((c : Thread nD τ).loc main_arg4)) := by
  show StableHlo.after hostOps0 (fun b => m (c, b)) (Proc.devRef .tc main_v164) = _
  simp only [hostOps0]
  generalize hcat : ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)) = fcat
  after_results_simp
  subst hcat
  rfl

end Cert.KernelIdeal.KValue

end
-- ==== Proof.KIVal3.lean ====
/- The gated columns and the four weight matrices as the grid region finds them: the host operations before the region, read back. -/
import proofs.«134268_j86002425135385_2_alg».proof.Proof.KIHost
import proofs.«134268_j86002425135385_2_alg».proof.Proof.KITerm
import Idealize.ShloMosaic.Lib.StableHlo.Run

noncomputable section

namespace Cert.KernelIdeal.KValue

open Cert.KernelIdeal Cert.KernelIdeal.Gen Cert.KernelIdeal.HFrame Idealize.ShloMosaic Idealize.ShloMosaic.TcCoe Idealize.SL.Sem Idealize.ShloMosaic.StableHlo

variable {F : FTy → Type} [FloatOps F]
variable (m : (ℓ : Loc nD τ sig) → Buf (Elt F) ℓ)
set_option maxHeartbeats 8000000 in
set_option maxRecDepth 16384 in
/-- The two gated copies of the first feature column, side by side. -/
theorem V_xc (c : Dev nD) : V m c main_v173 = xc (m ((c : Thread nD τ).loc main_arg5)) (m ((c : Thread nD τ).loc main_arg6)) (m ((c : Thread nD τ).loc main_arg0)) := by
  show StableHlo.after hostOps0 (fun b => m (c, b)) (Proc.devRef .tc main_v173) = _
  simp only [hostOps0]
  generalize hcat : ((fun a b => concatenate S100000x2 1 [⟨S100000x1, a⟩, ⟨S100000x1, b⟩] concatenates_S100000x1_S100000x1_S100000x2_d1) : (⟨S100000x1, .f32⟩ : BufTy).Contents (Elt F) → (⟨S100000x1, .f32⟩ : BufTy).Contents (Elt F) → (⟨S100000x2, .f32⟩ : BufTy).Contents (Elt F)) = fcat
  after_results_simp
  subst hcat
  rfl
set_option maxHeartbeats 8000000 in
set_option maxRecDepth 16384 in
/-- Weight matrix 1, rounded to the narrow format. -/
theorem V_w1 (c : Dev nD) : V m c main_v174 = wbf (m ((c : Thread nD τ).loc main_arg7)) := by
  show StableHlo.after hostOps0 (fun b => m (c, b)) (Proc.devRef .tc main_v174) = _
  simp only [hostOps0]

  after_results_simp

  rfl
set_option maxHeartbeats 8000000 in
set_option maxRecDepth 16384 in
/-- Weight matrix 2, rounded to the narrow format. -/
theorem V_w2 (c : Dev nD) : V m c main_v175 = wbf (m ((c : Thread nD τ).loc main_arg9)) := by
  show StableHlo.after hostOps0 (fun b => m (c, b)) (Proc.devRef .tc main_v175) = _
  simp only [hostOps0]

  after_results_simp

  rfl
set_option maxHeartbeats 8000000 in
set_option maxRecDepth 16384 in
/-- Weight matrix 3, rounded to the narrow format. -/
theorem V_w3 (c : Dev nD) : V m c main_v176 = wbf (m ((c : Thread nD τ).loc main_arg11)) := by
  show StableHlo.after hostOps0 (fun b => m (c, b)) (Proc.devRef .tc main_v176) = _
  simp only [hostOps0]

  after_results_simp

  rfl
set_option maxHeartbeats 8000000 in
set_option maxRecDepth 16384 in
/-- Weight matrix 4, rounded to the narrow format. -/
theorem V_w4 (c : Dev nD) : V m c main_v177 = wbf (m ((c : Thread nD τ).loc main_arg13)) := by
  show StableHlo.after hostOps0 (fun b => m (c, b)) (Proc.devRef .tc main_v177) = _
  simp only [hostOps0]

  after_results_simp

  rfl

end Cert.KernelIdeal.KValue

end
-- ==== Proof.KIVal4.lean ====
/- The stacked bias rows and the stacked gate rows as the grid region finds them: the host operations before the region, read back. -/
import proofs.«134268_j86002425135385_2_alg».proof.Proof.KIHost
import proofs.«134268_j86002425135385_2_alg».proof.Proof.KITerm
import Idealize.ShloMosaic.Lib.StableHlo.Run

noncomputable section

namespace Cert.KernelIdeal.KValue

open Cert.KernelIdeal Cert.KernelIdeal.Gen Cert.KernelIdeal.HFrame Idealize.ShloMosaic Idealize.ShloMosaic.TcCoe Idealize.SL.Sem Idealize.ShloMosaic.StableHlo

variable {F : FTy → Type} [FloatOps F]
variable (m : (ℓ : Loc nD τ sig) → Buf (Elt F) ℓ)
set_option maxHeartbeats 8000000 in
set_option maxRecDepth 16384 in
/-- The four bias rows, stacked. -/
theorem V_bcat (c : Dev nD) : V m c main_v182 = bcat (m ((c : Thread nD τ).loc main_arg8)) (m ((c : Thread nD τ).loc main_arg10)) (m ((c : Thread nD τ).loc main_arg12)) (m ((c : Thread nD τ).loc main_arg14)) := by
  show StableHlo.after hostOps0 (fun b => m (c, b)) (Proc.devRef .tc main_v182) = _
  simp only [hostOps0]
  after_results_simp
  rfl
set_option maxHeartbeats 8000000 in
set_option maxRecDepth 16384 in
/-- The six gate rows, stacked. -/
theorem V_pcat (c : Dev nD) : V m c main_v189 = pcat (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  show StableHlo.after hostOps0 (fun b => m (c, b)) (Proc.devRef .tc main_v189) = _
  simp only [hostOps0]
  after_results_simp
  rfl

end Cert.KernelIdeal.KValue

end
-- ==== Proof.KIRun.lean ====
/- The idealized kernel's run with its result named: every weakly fair execution terminates, the result array holds
   `kernelResult` of the argument arrays — per row and feature, the two gated columns times their gate rows plus, per
   convolution, (aggregate row · weight column + bias) times its gate row — and the arguments end as launched. -/
import proofs.«134268_j86002425135385_2_alg».proof.Proof.KIFinal
import proofs.«134268_j86002425135385_2_alg».proof.Proof.KIVal1
import proofs.«134268_j86002425135385_2_alg».proof.Proof.KIVal2
import proofs.«134268_j86002425135385_2_alg».proof.Proof.KIVal3
import proofs.«134268_j86002425135385_2_alg».proof.Proof.KIVal4

set_option maxRecDepth 16384

noncomputable section

namespace Cert.KernelIdeal.KValue

open Cert.KernelIdeal Cert.KernelIdeal.Gen Cert.KernelIdeal.HFrame Cert.KernelIdeal.KFinal
open Idealize.ShloMosaic Idealize.ShloMosaic.TcCoe Idealize.SL.Sem

/-- The kernel's result as a function of the program's twenty-one arguments, in their order. -/
def kernelResult (x : NodeMat Ideal) (e1 e2 e3 e4 : EdgeArg Ideal) (c0 c1 : NodeVec Ideal) (W1 : WMat Ideal) (b1 : Row Ideal)
    (W2 : WMat Ideal) (b2 : Row Ideal) (W3 : WMat Ideal) (b3 : Row Ideal) (W4 : WMat Ideal) (b4 : Row Ideal)
    (p0 p1 p2 p3 p4 p5 : Row Ideal) : NodeMat Ideal :=
  GK (xc c0 c1 x) (aggIn x e1) (aggIn x e2) (aggIn x e3) (aggIn x e4) (wbf W1) (wbf W2) (wbf W3) (wbf W4)
    (bcat b1 b2 b3 b4) (pcat p0 p1 p2 p3 p4 p5)

variable (m : (ℓ : Loc nD τ sig) → Buf (Elt Ideal) ℓ) (ρ : Dev nD → PrngReg)

/-- The output array after the run is `kernelResult` of the launch contents of the arguments. -/
theorem final_args (c : Dev nD) : (dats m 0 c).arrAt 11 cfg0.N =
    kernelResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  rw [KFinal.final m c, V_xc, V_agg1, V_agg2, V_agg3, V_agg4, V_w1, V_w2, V_w3, V_w4, V_bcat, V_pcat]
  rfl

/-- The run, read: the result array at `kernelResult` of the arguments, the arguments unchanged. -/
theorem run : θ_run defs (onTc (τ := τ) (main (F := Ideal))) ⟨m, fun _ => 0, ρ⟩ (fun r => ∀ c : Dev nD,
      r.2.mem ((c.tc : Thread nD τ).loc main_v190) = kernelResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨((h c).1 11).trans (final_args m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩)
    (run_main (F := Ideal) m ρ)

end Cert.KernelIdeal.KValue

end
-- ==== Proof.RefTerm.lean ====
/- The reference's result as a structured term of its twenty-one argument arrays.

   Each of the four graph convolutions is, per edge set `e` (a 2 × 500000 integer array of sources and targets):
   the edge list extended by one self-loop per node (600000 edges), the in-degree of every node counted by an
   accumulating scatter of ones at the targets, its inverse square root, the edge weight
   `norm u = dis (source u) * dis (target u)`, the messages `(x · W) (source u) * norm u` and their accumulating
   scatter at the targets, plus the bias. The result combines two scaled copies of the first feature column and
   the four convolutions, each multiplied by a row vector. Every piece is stated with the operations of the
   program itself, so the term of the program's run unfolds to `result` of the arguments. -/
import proofs.«134268_j86002425135385_2_alg».proof.Proof.Gen.ReferenceIdeal

noncomputable section

namespace Cert.ReferenceIdeal.RefValue

open Cert.ReferenceIdeal Cert.ReferenceIdeal.Gen Idealize.ShloMosaic Idealize.ShloMosaic.TcCoe Idealize.SL.Sem

variable (F : FTy → Type) [FloatOps F]

/-! ## The array types -/

/-- A node-by-feature matrix, 100000 × 256. -/
abbrev NodeMat : Type := (⟨S100000x256, .f32⟩ : BufTy).Contents (Elt F)
/-- A value per node. -/
abbrev NodeVec : Type := (⟨S100000, .f32⟩ : BufTy).Contents (Elt F)
/-- A node number per node. -/
abbrev NodeIx : Type := (⟨S100000, .i32⟩ : BufTy).Contents (Elt F)
/-- An edge set as given: row 0 the sources, row 1 the targets, 500000 edges. -/
abbrev EdgeArg : Type := (⟨S2x500000, .i32⟩ : BufTy).Contents (Elt F)
/-- A node number per edge of the extended edge list (600000 edges). -/
abbrev EdgeIx : Type := (⟨S600000, .i32⟩ : BufTy).Contents (Elt F)
/-- The same as a 600000 × 1 array of index vectors of length one. -/
abbrev EdgeIx1 : Type := (⟨S600000x1, .i32⟩ : BufTy).Contents (Elt F)
/-- A value per edge. -/
abbrev EdgeVec : Type := (⟨S600000, .f32⟩ : BufTy).Contents (Elt F)
/-- A feature row per edge. -/
abbrev EdgeMat : Type := (⟨S600000x256, .f32⟩ : BufTy).Contents (Elt F)
/-- A weight matrix, 256 × 256. -/
abbrev WMat : Type := (⟨S256x256, .f32⟩ : BufTy).Contents (Elt F)
/-- A feature row. -/
abbrev Row : Type := (⟨S256, .f32⟩ : BufTy).Contents (Elt F)

variable {F}

/-! ## The extended edge list -/

/-- The node numbers 0 … 99999: one self-loop per node. -/
def selfLoops : NodeIx F := iotaInDim S100000 32 0

/-- The sources of the extended edge list: the given sources, then the self-loops. -/
def rowVec (e : EdgeArg F) : EdgeIx F :=
  concatenate S600000 0 [⟨S500000, (shapeCast _ (extractStridedSlice S1x500000 ![0, 0] e slices_S2x500000_S1x500000_0_0) shapeCasts_S1x500000_S500000)⟩, ⟨S100000, (selfLoops (F := F))⟩] concatenates_S500000_S100000_S600000_d0

/-- The targets of the extended edge list: the given targets, then the self-loops. -/
def colVec (e : EdgeArg F) : EdgeIx F :=
  concatenate S600000 0 [⟨S500000, (shapeCast _ (extractStridedSlice S1x500000 ![1, 0] e slices_S2x500000_S1x500000_1_0) shapeCasts_S1x500000_S500000)⟩, ⟨S100000, (selfLoops (F := F))⟩] concatenates_S500000_S100000_S600000_d0

/-- The index array of a gather by node number: a negative number counts from the end (100000 is added), and
    each number becomes an index vector of length one. -/
def wrapIdx (v : EdgeIx F) : EdgeIx1 F :=
  broadcastInDim S600000x1 ![0] bcast_S600000_S600000x1_0 (select (cmpi .slt v (broadcastInDim S600000 ![] bcast_S_S600000 (constantI S_ 32 0#32))) (addi v (broadcastInDim S600000 ![] bcast_S_S600000 (constantI S_ 32 100000#32))) v)

/-- The index array of the scatters: the target of each edge as an index vector of length one. -/
def colIdx (e : EdgeArg F) : EdgeIx1 F :=
  broadcastInDim S600000x1 ![0] bcast_S600000_S600000x1_0 (colVec e)

/-! ## The normalisation -/

/-- The in-degree of every node in the extended edge list: ones accumulated at the targets, from zero. -/
def deg (e : EdgeArg F) : NodeVec F :=
  Host.scatterAdd scatter_S100000_S600000x1_S600000_n_0_0_1 (broadcastInDim S100000 ![] bcast_S_S100000 (constant S_ .f32 0x00000000#32)) (colIdx e) (broadcastInDim S600000 ![] bcast_S_S600000 (constant S_ .f32 0x3F800000#32))

/-- The inverse square root of the in-degree. -/
def dis (e : EdgeArg F) : NodeVec F := Host.rsqrt (deg e)

/-- The weight of each edge: `dis` at its source times `dis` at its target. -/
def norm (e : EdgeArg F) : EdgeVec F :=
  mulf (Host.gather gather_S100000_S600000x1_S600000_n_0_n_n_0_1_1 (dis e) (wrapIdx (rowVec e))) (Host.gather gather_S100000_S600000x1_S600000_n_0_n_n_0_1_1 (dis e) (wrapIdx (colVec e)))

/-- The edge weights repeated along the 256 features. -/
def normMat (e : EdgeArg F) : EdgeMat F :=
  broadcastInDim S600000x256 ![0, 1] bcast_S600000x1_S600000x256_0_1 (broadcastInDim S600000x1 ![0] bcast_S600000_S600000x1_0 (norm e))

/-! ## One convolution -/

/-- The transformed features `x · W`. -/
def xw (x : NodeMat F) (W : WMat F) : NodeMat F :=
  Host.dotGeneral dot_S100000x256_S256x256_S100000x256_1_0_0_1_n_n none x W

/-- The message of each edge: the transformed features of its source, times its weight. -/
def msgs (x : NodeMat F) (W : WMat F) (e : EdgeArg F) : EdgeMat F :=
  mulf (Host.gather gather_S100000x256_S600000x1_S600000x256_1_0_n_n_0_1_1256 (xw x W) (wrapIdx (rowVec e))) (normMat e)

/-- A feature row repeated for every node. -/
def rowBc (b : Row F) : NodeMat F :=
  broadcastInDim S100000x256 ![0, 1] bcast_S1x256_S100000x256_0_1 (broadcastInDim S1x256 ![1] bcast_S256_S1x256_1 b)

/-- The messages accumulated at the targets, from zero. -/
def agg (x : NodeMat F) (W : WMat F) (e : EdgeArg F) : NodeMat F :=
  Host.scatterAdd scatter_S100000x256_S600000x1_S600000x256_1_0_0_1 (broadcastInDim S100000x256 ![] bcast_S_S100000x256 (constant S_ .f32 0x00000000#32)) (colIdx e) (msgs x W e)

/-- One graph convolution: transform, then aggregate, then add the bias. -/
def conv (x : NodeMat F) (W : WMat F) (b : Row F) (e : EdgeArg F) : NodeMat F :=
  addf (agg x W e) (rowBc b)

/-! ## The combination -/

/-- The first feature column of `x`. -/
def col0 (x : NodeMat F) : NodeVec F :=
  shapeCast _ (extractStridedSlice S100000x1 ![0, 0] x slices_S100000x256_S100000x1_0_0) shapeCasts_S100000x1_S100000

/-- A value per node repeated along the 256 features. -/
def colBc (v : NodeVec F) : NodeMat F :=
  broadcastInDim S100000x256 ![0, 1] bcast_S100000x1_S100000x256_0_1 (broadcastInDim S100000x1 ![0] bcast_S100000_S100000x1_0 v)

/-- `c n * x n 0 * p j` at `(n, j)`. -/
def scaled (c : NodeVec F) (x : NodeMat F) (p : Row F) : NodeMat F :=
  mulf (colBc (mulf c (col0 x))) (rowBc p)

/-- The reference's result as a function of its twenty-one arguments, in the order of the program's arguments. -/
def result (x : NodeMat F) (e1 e2 e3 e4 : EdgeArg F) (c0 c1 : NodeVec F) (W1 : WMat F) (b1 : Row F) (W2 : WMat F) (b2 : Row F)
    (W3 : WMat F) (b3 : Row F) (W4 : WMat F) (b4 : Row F) (p0 p1 p2 p3 p4 p5 : Row F) : NodeMat F :=
  addf (addf (addf (addf (addf (scaled c0 x p0) (scaled c1 x p1)) (mulf (conv x W1 b1 e1) (rowBc p2))) (mulf (conv x W2 b2 e2) (rowBc p3))) (mulf (conv x W3 b3 e3) (rowBc p4))) (mulf (conv x W4 b4 e4) (rowBc p5))

end Cert.ReferenceIdeal.RefValue

end
-- ==== Proof.RefValue.lean ====
/- The reference's run, restated over the structured term `RefValue.result` of the arguments, and that term read
   at an index at the ideal instance: every elementwise operation and broadcast opened, the product `x · W` a sum
   over the 256 features, each accumulating scatter the sum of the updates whose result index is the index read
   (the gathers and the scatters' result indices are left as the library's operations). -/
import proofs.«134268_j86002425135385_2_alg».proof.Proof.Gen.ReferenceIdeal.Run
import proofs.«134268_j86002425135385_2_alg».proof.Proof.RefTerm
import Idealize.ShloMosaic.Lib.ValueIdx
import Idealize.ShloMosaic.Lib.IdealHost
import Idealize.ShloMosaic.Lib.ValueLayout
import Idealize.ShloMosaic.Lib.Pipeline.Value
import Idealize.ShloMosaic.Lib.StackMember
import Idealize.ShloMosaic.PureOps.Ideal
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- `result` of the argument buffers of a valuation. -/
def resultOf (V0 : Valuation τ sig (Elt F)) : NodeMat F :=
  result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20))

set_option maxRecDepth 8192 in
/-- After the program's operations the result buffer holds `result` of the arguments: the composed term of the
    operations is `result` with its pieces unfolded. -/
theorem val5_result (V0 : Valuation τ sig (Elt F)) :
    Value.val5 V0 (Proc.devRef .tc main_v208) = resultOf V0 :=
  (Value.val5_main_v208 V0).trans rfl

set_option maxRecDepth 8192 in
/-- On every device, for any float values, from any memory with zero counters: every weakly fair execution of
    @main terminates with the result buffer at `result` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v208) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c).1.trans ((Value.val5_main_v208 (launchContents m c)).symm.trans (val5_result (launchContents m c))), (h c).2⟩)
    (Value.run m ρ)

/-- The frame: the program runs and its argument arrays end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => (h c).2) (run m ρ)

/-! ## The result read at an index -/

section AnyInstance

/-- A feature row repeated for every node reads the row's entry. -/
theorem rowBc_apply (b : Row F) (n : Fin 100000) (j : Fin 256) : rowBc b (ix2 n j) = b (ix1 j) := by
  unfold rowBc
  rw [broadcastInDim_apply _ _ _ (ix2 n j) (ix2 (0 : Fin 1) j) (fun a => by match a with | ⟨0, _⟩ => rfl | ⟨1, _⟩ => rfl),
    broadcastInDim_apply _ _ _ (ix2 (0 : Fin 1) j) (ix1 j) (fun a => by match a with | ⟨0, _⟩ => rfl)]

/-- A value per node repeated along the features reads the node's value. -/
theorem colBc_apply (v : NodeVec F) (n : Fin 100000) (j : Fin 256) : colBc v (ix2 n j) = v (ix1 n) := by
  unfold colBc
  rw [broadcastInDim_apply _ _ _ (ix2 n j) (ix2 n (0 : Fin 1)) (fun a => by match a with | ⟨0, _⟩ => rfl | ⟨1, _⟩ => rfl),
    broadcastInDim_apply _ _ _ (ix2 n (0 : Fin 1)) (ix1 n) (fun a => by match a with | ⟨0, _⟩ => rfl)]

/-- The first feature column reads column 0. -/
theorem col0_apply (x : NodeMat F) (n : Fin 100000) : col0 x (ix1 n) = x (ix2 n (0 : Fin 256)) := by
  unfold col0
  rw [shapeCast_apply _ _ (ix1 n) (ix2 n (0 : Fin 1)) (by simp [Shape.rowMajor_val_one, Shape.rowMajor_val_two]),
    extractStridedSlice_apply _ _ _ (ix2 n (0 : Fin 1)) (ix2 n (0 : Fin 256)) (fun a => by match a with | ⟨0, _⟩ => simp | ⟨1, _⟩ => simp)]

/-- The edge weights repeated along the features read the edge's weight. -/
theorem normMat_apply (e : EdgeArg F) (u : Fin 600000) (j : Fin 256) : normMat e (ix2 u j) = norm e (ix1 u) := by
  unfold normMat
  rw [broadcastInDim_apply _ _ _ (ix2 u j) (ix2 u (0 : Fin 1)) (fun a => by match a with | ⟨0, _⟩ => rfl | ⟨1, _⟩ => rfl),
    broadcastInDim_apply _ _ _ (ix2 u (0 : Fin 1)) (ix1 u) (fun a => by match a with | ⟨0, _⟩ => rfl)]

end AnyInstance

section AtIdeal

/-- The transformed features at a node and a feature: the row of `x` times the column of `W`. -/
theorem xw_apply (x : NodeMat Ideal) (W : WMat Ideal) (n : Fin 100000) (j : Fin 256) :
    xw x W (ix2 n j) = ∑ k : Fin 256, x (ix2 n k) * W (ix2 k j) :=
  StackMember.dotGeneral_plain_apply (m := 100000) (n := 256) (k := 256) (φ₁ := .f32) (φ₂ := .f32) none x W n j

/-- A scaled copy of the first feature column at `(n, j)`. -/
theorem scaled_apply (c : NodeVec Ideal) (x : NodeMat Ideal) (p : Row Ideal) (n : Fin 100000) (j : Fin 256) :
    scaled c x p (ix2 n j) = c (ix1 n) * x (ix2 n (0 : Fin 256)) * p (ix1 j) := by
  unfold scaled
  rw [mulf_apply, colBc_apply, mulf_apply, col0_apply, rowBc_apply]

/-- The edge weights repeated along the features, at any index. -/
theorem normMat_apply' (e : EdgeArg Ideal) (u : (S600000x256 : Shape).Idx) : normMat e u = norm e (ix1 (u 0)) :=
  (congrArg (normMat e) (eq_ix2 u)).trans (normMat_apply e (u 0) (u 1))

/-- The message of an edge at a feature: the gathered transformed feature times the edge's weight. -/
theorem msgs_apply (x : NodeMat Ideal) (W : WMat Ideal) (e : EdgeArg Ideal) (u : (S600000x256 : Shape).Idx) :
    msgs x W e u = Host.gather gather_S100000x256_S600000x1_S600000x256_1_0_n_n_0_1_1256 (xw x W) (wrapIdx (rowVec e)) u * norm e (ix1 (u 0)) := by
  unfold msgs
  rw [mulf_apply, normMat_apply']

/-- The weight of an edge: the inverse square roots of the degrees gathered at its source and at its target. -/
theorem norm_apply (e : EdgeArg Ideal) (u : (S600000 : Shape).Idx) :
    norm e u = Host.gather gather_S100000_S600000x1_S600000_n_0_n_n_0_1_1 (dis e) (wrapIdx (rowVec e)) u * Host.gather gather_S100000_S600000x1_S600000_n_0_n_n_0_1_1 (dis e) (wrapIdx (colVec e)) u := by
  unfold norm
  rw [mulf_apply]

/-- The host's inverse square root reads elementwise. -/
theorem hostRsqrt_read {s : Shape} (x : s.Idx → EReal) (k : s.Idx) :
    Host.rsqrt (F := Ideal) (φ := .f32) x k = Ideal.rsqrt (x k) := rfl

/-- The accumulating scatter at an index: the operand's element plus the updates whose result index it is. -/
theorem hostScatterAdd_read {s si su : Shape} (d : ScatterDims s si su) {w : Nat} (x : s.Idx → EReal) (idx : IVec si w)
    (upd : su.Idx → EReal) (i : s.Idx) :
    Host.scatterAdd (F := Ideal) (φ := .f32) d x idx upd i
      = x i + ∑ j ∈ Finset.univ.filter (fun j => d.resultIdx? j idx = some i), upd j := rfl

/-- The inverse square root of the in-degree at a node. -/
theorem dis_apply (e : EdgeArg Ideal) (i : (S100000 : Shape).Idx) : dis e i = Ideal.rsqrt (deg e i) :=
  hostRsqrt_read (deg e) i

/-- The array of zeros the scatters accumulate into. -/
theorem zeros_apply {T : Shape} (h : S_.BroadcastsInDim T ![]) (j : T.Idx) :
    broadcastInDim T ![] h (constant (F := Ideal) S_ .f32 0x00000000#32) j = 0 := by
  rw [broadcastInDim_scalar_apply, constant_apply, Ideal.ofBits_zero_f32]

/-- The array of ones the degree counts. -/
theorem ones_apply {T : Shape} (h : S_.BroadcastsInDim T ![]) (j : T.Idx) :
    broadcastInDim T ![] h (constant (F := Ideal) S_ .f32 0x3F800000#32) j = 1 := by
  rw [broadcastInDim_scalar_apply, constant_apply, Ideal.ofBits_one_f32]

/-- The in-degree of a node: the number of edges of the extended list whose target index is the node. -/
theorem deg_read (e : EdgeArg Ideal) (i : (S100000 : Shape).Idx) :
    deg e i = 0 + ∑ u ∈ Finset.univ.filter (fun u => scatter_S100000_S600000x1_S600000_n_0_0_1.resultIdx? u (colIdx e) = some i), (1 : EReal) := by
  unfold deg
  rw [hostScatterAdd_read, zeros_apply]
  exact congrArg (fun t => (0 : EReal) + t) (Finset.sum_congr rfl fun u _ => ones_apply _ u)

/-- The aggregated messages at a node and a feature: the sum of the messages of the edges whose target index is the
    node, at that feature. -/
theorem agg_apply (x : NodeMat Ideal) (W : WMat Ideal) (e : EdgeArg Ideal) (i : (S100000x256 : Shape).Idx) :
    agg x W e i = 0 + ∑ u ∈ Finset.univ.filter (fun u => scatter_S100000x256_S600000x1_S600000x256_1_0_0_1.resultIdx? u (colIdx e) = some i), msgs x W e u := by
  unfold agg
  rw [hostScatterAdd_read, zeros_apply]

/-- One convolution at a node and a feature. -/
theorem conv_apply (x : NodeMat Ideal) (W : WMat Ideal) (b : Row Ideal) (e : EdgeArg Ideal) (n : Fin 100000) (j : Fin 256) :
    conv x W b e (ix2 n j) = agg x W e (ix2 n j) + b (ix1 j) := by
  unfold conv
  rw [addf_apply, rowBc_apply]

/-- The reference's result at a node and a feature. -/
theorem result_apply (x : NodeMat Ideal) (e1 e2 e3 e4 : EdgeArg Ideal) (c0 c1 : NodeVec Ideal) (W1 : WMat Ideal) (b1 : Row Ideal)
    (W2 : WMat Ideal) (b2 : Row Ideal) (W3 : WMat Ideal) (b3 : Row Ideal) (W4 : WMat Ideal) (b4 : Row Ideal) (p0 p1 p2 p3 p4 p5 : Row Ideal)
    (n : Fin 100000) (j : Fin 256) :
    result x e1 e2 e3 e4 c0 c1 W1 b1 W2 b2 W3 b3 W4 b4 p0 p1 p2 p3 p4 p5 (ix2 n j)
      = c0 (ix1 n) * x (ix2 n (0 : Fin 256)) * p0 (ix1 j) + c1 (ix1 n) * x (ix2 n (0 : Fin 256)) * p1 (ix1 j)
        + (agg x W1 e1 (ix2 n j) + b1 (ix1 j)) * p2 (ix1 j) + (agg x W2 e2 (ix2 n j) + b2 (ix1 j)) * p3 (ix1 j)
        + (agg x W3 e3 (ix2 n j) + b3 (ix1 j)) * p4 (ix1 j) + (agg x W4 e4 (ix2 n j) + b4 (ix1 j)) * p5 (ix1 j) := by
  unfold result
  rw [addf_apply, addf_apply, addf_apply, addf_apply, addf_apply, scaled_apply, scaled_apply,
    mulf_apply, mulf_apply, mulf_apply, mulf_apply, conv_apply, conv_apply, conv_apply, conv_apply,
    rowBc_apply, rowBc_apply, rowBc_apply, rowBc_apply]

end AtIdeal

end Cert.ReferenceIdeal.RefValue

end
-- ==== Proof.IdxLemmas.lean ====
import Idealize.ShloMosaic.PureOps.Ideal
import Idealize.ShloMosaic.Lib.ValueIdx

/-!
# Index lemmas for the row scatter / row gather dimension records

The scatter and gather of a graph aggregation move whole rows (or single entries) of an operand,
one per edge, the row number read off a column of integer indices.  The lemmas here say where an
update lands (scatter) and which operand element is read (gather), in terms of the edge's index
alone, for records whose fields are the ones of those operations.
-/

noncomputable section

open scoped BigOperators

namespace Cert.IdxLemmas

open Idealize.ShloMosaic Idealize.ShloMosaic.ValueIdx

/-- An update lands on operand index `i` exactly when, on every operand axis, the signed start plus
    the window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + d.window j a = ((i a).val : Int) := by
  unfold ScatterDims.resultIdx?
  constructor
  · intro h a
    split at h
    · rename_i hc
      have hfi := Option.some.inj h
      have ha := congrArg (fun f => ((f a).val : Int)) hfi
      simp only at ha
      have := hc a
      omega
    · exact absurd h (by simp)
  · intro h
    have hc : ∀ a, 0 ≤ d.start j idx a + d.window j a ∧ d.start j idx a + d.window j a < s.size a := by
      intro a; rw [h a]; exact ⟨Int.natCast_nonneg _, by exact_mod_cast (i a).isLt⟩
    rw [dif_pos hc]
    congr 1; funext a; apply Fin.ext
    show (d.start j idx a + d.window j a).toNat = (i a).val
    rw [h a]; exact Int.toNat_natCast _

section ScatterRows
variable {N C M w : Nat}

/-- The row scatter's dimension numbers for an operand `[N, C]`, scatter indices `[M, 1]` and updates `[M, C]`. -/
abbrev scatterRowsDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem scatterRowsDims_start0 (wf : ScatterDims.WF ⟨2, ![N, C]⟩ ⟨2, ![M, 1]⟩ ⟨2, ![M, C]⟩ [1] [0] [0] 1)
    (u : (⟨2, ![M, C]⟩ : Shape).Idx) (idx : IVec ⟨2, ![M, 1]⟩ w) :
    (scatterRowsDims N C M wf).start u idx 0 = (idx (ix2 (u 0) 0)).toInt := by
  unfold ScatterDims.start
  rw [dif_pos (show (0 : Fin 2) ∈ (scatterRowsDims N C M wf).scatterDimsToOperandDims from List.mem_singleton.mpr rfl)]
  have hsi : (scatterRowsDims N C M wf).siIdx u ⟨List.idxOf (0 : Fin 2) (scatterRowsDims N C M wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

theorem scatterRowsDims_start1 (wf : ScatterDims.WF ⟨2, ![N, C]⟩ ⟨2, ![M, 1]⟩ ⟨2, ![M, C]⟩ [1] [0] [0] 1)
    (u : (⟨2, ![M, C]⟩ : Shape).Idx) (idx : IVec ⟨2, ![M, 1]⟩ w) :
    (scatterRowsDims N C M wf).start u idx 1 = 0 := by
  unfold ScatterDims.start
  rw [dif_neg (show (1 : Fin 2) ∉ [(0 : Fin 2)] by decide)]

theorem scatterRowsDims_window0 (wf : ScatterDims.WF ⟨2, ![N, C]⟩ ⟨2, ![M, 1]⟩ ⟨2, ![M, C]⟩ [1] [0] [0] 1)
    (u : (⟨2, ![M, C]⟩ : Shape).Idx) :
    (scatterRowsDims N C M wf).window u 0 = 0 := by
  unfold ScatterDims.window
  have h : (0 : Fin 2) ∉ (scatterRowsDims N C M wf).sKept :=
    show (0 : Fin 2) ∉ (List.finRange 2).filter (· ∉ [(0 : Fin 2)]) by decide
  rw [dif_neg h]

theorem scatterRowsDims_window1 (wf : ScatterDims.WF ⟨2, ![N, C]⟩ ⟨2, ![M, 1]⟩ ⟨2, ![M, C]⟩ [1] [0] [0] 1)
    (u : (⟨2, ![M, C]⟩ : Shape).Idx) :
    (scatterRowsDims N C M wf).window u 1 = (u 1).val := by
  unfold ScatterDims.window
  have h : (1 : Fin 2) ∈ (scatterRowsDims N C M wf).sKept :=
    show (1 : Fin 2) ∈ (List.finRange 2).filter (· ∉ [(0 : Fin 2)]) by decide
  rw [dif_pos h]
  rfl

/-- WHERE A ROW UPDATE LANDS: update `(e, k)` lands on operand index `i` exactly when edge `e`'s index, read signed,
    is `i`'s row and `k` is `i`'s column. An index outside `[0, N)` lands nowhere. -/
theorem scatterRowsDims_resultIdx (wf : ScatterDims.WF ⟨2, ![N, C]⟩ ⟨2, ![M, 1]⟩ ⟨2, ![M, C]⟩ [1] [0] [0] 1)
    (u : (⟨2, ![M, C]⟩ : Shape).Idx) (idx : IVec ⟨2, ![M, 1]⟩ w) (i : (⟨2, ![N, C]⟩ : Shape).Idx) :
    (scatterRowsDims N C M wf).resultIdx? u idx = some i ↔
      (idx (ix2 (u 0) 0)).toInt = ((i 0).val : Int) ∧ u 1 = i 1 := by
  rw [resultIdx?_eq_some_iff]
  constructor
  · intro h
    have h0 := h 0
    have h1 := h 1
    rw [scatterRowsDims_start0, scatterRowsDims_window0] at h0
    rw [scatterRowsDims_start1, scatterRowsDims_window1] at h1
    refine ⟨by simpa using h0, Fin.ext ?_⟩
    have : ((u 1).val : Int) = ((i 1).val : Int) := by simpa using h1
    exact_mod_cast this
  · rintro ⟨h0, h1⟩ a
    match a with
    | ⟨0, _⟩ =>
      show (scatterRowsDims N C M wf).start u idx 0 + ((scatterRowsDims N C M wf).window u 0 : Int) = ((i 0).val : Int)
      rw [scatterRowsDims_start0, scatterRowsDims_window0, h0]; simp
    | ⟨1, _⟩ =>
      show (scatterRowsDims N C M wf).start u idx 1 + ((scatterRowsDims N C M wf).window u 1 : Int) = ((i 1).val : Int)
      rw [scatterRowsDims_start1, scatterRowsDims_window1, h1]; simp

/-- The same for any record with the row scatter's fields. -/
theorem scatterRows_resultIdx (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1)
    (u : (⟨2, ![M, C]⟩ : Shape).Idx) (idx : IVec ⟨2, ![M, 1]⟩ w) (i : (⟨2, ![N, C]⟩ : Shape).Idx) :
    d.resultIdx? u idx = some i ↔ (idx (ix2 (u 0) 0)).toInt = ((i 0).val : Int) ∧ u 1 = i 1 := by
  obtain ⟨uw, iw, sd, iv, wf⟩ := d
  simp only at h1 h2 h3 h4
  subst h1 h2 h3 h4
  exact scatterRowsDims_resultIdx wf u idx i

/-- SUMMING THE UPDATES THAT LAND ON `i`: they are the updates `(e, i 1)` over the edges `e` whose index is `i`'s row. -/
theorem scatterRows_sum {β : Type*} [AddCommMonoid β] (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1)
    (idx : IVec ⟨2, ![M, 1]⟩ w) (i : (⟨2, ![N, C]⟩ : Shape).Idx) (f : (⟨2, ![M, C]⟩ : Shape).Idx → β)
    [DecidablePred fun u : (⟨2, ![M, C]⟩ : Shape).Idx => d.resultIdx? u idx = some i] :
    ∑ u ∈ Finset.univ.filter (fun u : (⟨2, ![M, C]⟩ : Shape).Idx => d.resultIdx? u idx = some i), f u
      = ∑ e ∈ Finset.univ.filter (fun e : Fin M => (idx (ix2 e 0)).toInt = ((i 0).val : Int)), f (ix2 e (i 1)) := by
  rw [Finset.sum_filter, Finset.sum_filter, sum_idx2]
  refine Finset.sum_congr rfl fun e _ => ?_
  have hiff : ∀ b : Fin C, (d.resultIdx? (ix2 e b) idx = some i) ↔
      ((idx (ix2 e 0)).toInt = ((i 0).val : Int) ∧ b = i 1) := fun b =>
    scatterRows_resultIdx d h1 h2 h3 h4 (ix2 e b) idx i
  by_cases hT : (idx (ix2 e 0)).toInt = ((i 0).val : Int)
  · rw [if_pos hT]
    refine (Finset.sum_eq_single (i 1 : Fin C) ?_ ?_).trans ?_
    · intro b _ hb; exact if_neg fun h => hb ((hiff b).1 h).2
    · intro h; exact absurd (Finset.mem_univ _) h
    · exact if_pos ((hiff (i 1)).2 ⟨hT, rfl⟩)
  · rw [if_neg hT]
    exact Finset.sum_eq_zero fun b _ => if_neg fun h => hT ((hiff b).1 h).1

end ScatterRows

section Scatter1
variable {N M w : Nat}

/-- The entry scatter's dimension numbers for an operand `[N]`, scatter indices `[M, 1]` and updates `[M]`. -/
abbrev scatter1Dims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem scatter1Dims_start0 (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (scatter1Dims N M wf).start j idx 0 = (idx (ix2 (j 0) 0)).toInt := by
  unfold ScatterDims.start
  rw [dif_pos (show (0 : Fin 1) ∈ (scatter1Dims N M wf).scatterDimsToOperandDims from List.mem_singleton.mpr rfl)]
  have hsi : (scatter1Dims N M wf).siIdx j ⟨List.idxOf (0 : Fin 1) (scatter1Dims N M wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem scatter1Dims_window0 (wf : ScatterDims.WF ⟨1, ![N]⟩ ⟨2, ![M, 1]⟩ ⟨1, ![M]⟩ [] [0] [0] 1)
    (j : (⟨1, ![M]⟩ : Shape).Idx) :
    (scatter1Dims N M wf).window j 0 = 0 := by
  unfold ScatterDims.window
  have h : (0 : Fin 1) ∉ (scatter1Dims N M wf).sKept :=
    show (0 : Fin 1) ∉ (List.finRange 1).filter (· ∉ [(0 : Fin 1)]) by decide
  rw [dif_neg h]

/-- WHERE AN ENTRY UPDATE LANDS: update `e` lands on operand index `i` exactly when edge `e`'s index, read signed,
    is `i`'s coordinate. -/
theorem scatter1Dims_resultIdx (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (scatter1Dims N M wf).resultIdx? j idx = some i ↔ (idx (ix2 (j 0) 0)).toInt = ((i 0).val : Int) := by
  rw [resultIdx?_eq_some_iff]
  constructor
  · intro h
    have h0 := h 0
    rw [scatter1Dims_start0, scatter1Dims_window0] at h0
    simpa using h0
  · intro h0 a
    match a with
    | ⟨0, _⟩ =>
      show (scatter1Dims N M wf).start j idx 0 + ((scatter1Dims N M wf).window j 0 : Int) = ((i 0).val : Int)
      rw [scatter1Dims_start0, scatter1Dims_window0, h0]; simp

/-- The same for any record with the entry scatter's fields. -/
theorem scatter1_resultIdx (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)
    (j : (⟨1, ![M]⟩ : Shape).Idx) (idx : IVec ⟨2, ![M, 1]⟩ w) (i : (⟨1, ![N]⟩ : Shape).Idx) :
    d.resultIdx? j idx = some i ↔ (idx (ix2 (j 0) 0)).toInt = ((i 0).val : Int) := by
  obtain ⟨uw, iw, sd, iv, wf⟩ := d
  simp only at h1 h2 h3 h4
  subst h1 h2 h3 h4
  exact scatter1Dims_resultIdx wf j idx i

/-- A rank-1 index set is its coordinate range, so a sum over it is the sum over the coordinate. -/
theorem sum_idx1 {β : Type*} [AddCommMonoid β] {n : Nat} (f : (⟨1, ![n]⟩ : Shape).Idx → β) :
    ∑ j, f j = ∑ e : Fin n, f (ix1 e) := by
  let E : (⟨1, ![n]⟩ : Shape).Idx ≃ Fin n :=
    { toFun := fun j => j 0, invFun := fun e => ix1 e, left_inv := fun j => (eq_ix1 j).symm, right_inv := fun _ => rfl }
  rw [← Equiv.sum_comp E.symm f]
  rfl

/-- SUMMING THE UPDATES THAT LAND ON `i`: they are the updates of the edges whose index is `i`'s coordinate. -/
theorem scatter1_sum {β : Type*} [AddCommMonoid β] (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)
    (idx : IVec ⟨2, ![M, 1]⟩ w) (i : (⟨1, ![N]⟩ : Shape).Idx) (f : (⟨1, ![M]⟩ : Shape).Idx → β)
    [DecidablePred fun j : (⟨1, ![M]⟩ : Shape).Idx => d.resultIdx? j idx = some i] :
    ∑ j ∈ Finset.univ.filter (fun j : (⟨1, ![M]⟩ : Shape).Idx => d.resultIdx? j idx = some i), f j
      = ∑ e ∈ Finset.univ.filter (fun e : Fin M => (idx (ix2 e 0)).toInt = ((i 0).val : Int)), f (ix1 e) := by
  rw [Finset.sum_filter, Finset.sum_filter, sum_idx1]
  refine Finset.sum_congr rfl fun e _ => ?_
  have hiff : (d.resultIdx? (ix1 e) idx = some i) ↔ ((idx (ix2 e 0)).toInt = ((i 0).val : Int)) :=
    scatter1_resultIdx d h1 h2 h3 h4 (ix1 e) idx i
  exact if_congr hiff rfl rfl

end Scatter1

section GatherRows
variable {N C M w : Nat} {α : Type}

/-- The row gather's dimension numbers for an operand `[N, C]`, start indices `[M, 1]` and a result `[M, C]`:
    whole rows (slice sizes `[1, C]`), the row number the start index. -/
abbrev gatherRowsDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]`, read signed and clamped into `[0, N − 1]`,
    column `k`. -/
theorem gatherRowsDims_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : (⟨2, ![M, C]⟩ : Shape).Idx) :
    Host.gather (gatherRowsDims N C M wf) x idx j
      = x (ix2 ⟨min (idx (ix2 (j 0) 0)).toInt.toNat (N - 1), by omega⟩ (j 1)) := by
  unfold Host.gather
  congr 1
  funext a
  refine Fin.ext ?_
  match a with
  | ⟨0, _⟩ =>
    show (gatherRowsDims N C M wf).start j idx 0 + (gatherRowsDims N C M wf).batchCoord j 0
      + (gatherRowsDims N C M wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N C M wf).startIndexMap from List.mem_singleton.mpr rfl)]
    have hsi : (gatherRowsDims N C M wf).siIdx j ⟨List.idxOf (0 : Fin 2) (gatherRowsDims N C M wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (gatherRowsDims N C M wf).start j idx 1 + (gatherRowsDims N C M wf).batchCoord j 1
      + (gatherRowsDims N C M wf).offCoord j 1 = (j 1).val
    rw [GatherDims.batchCoord_eq_zero _ _ _ List.not_mem_nil]
    have hs : (gatherRowsDims N C M wf).start j idx 1 = 0 := by
      unfold GatherDims.start
      rw [dif_neg (show (1 : Fin 2) ∉ [(0 : Fin 2)] by decide)]
    have ho : (gatherRowsDims N C M wf).offCoord j 1 = (j 1).val := by
      unfold GatherDims.offCoord
      have h : (1 : Fin 2) ∈ (gatherRowsDims N C M wf).sKept :=
        show (1 : Fin 2) ∈ (List.finRange 2).filter (· ∉ ([(0 : Fin 2)] ++ [])) by decide
      rw [dif_pos h]
      rfl
    rw [hs, ho]
    simp only [Nat.zero_add, Nat.add_zero]

/-- The same for any record with the row gather's fields. -/
theorem gatherRows_apply (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![M, 1]⟩ w) (j : (⟨2, ![M, C]⟩ : Shape).Idx) :
    Host.gather d x idx j = x (ix2 ⟨min (idx (ix2 (j 0) 0)).toInt.toNat (N - 1), by omega⟩ (j 1)) := by
  obtain ⟨od, cd, ob, sb, sm, iv, ss, wf⟩ := d
  simp only at h1 h2 h3 h4 h5 h6 h7
  subst h1 h2 h3 h4 h5 h6 h7
  exact gatherRowsDims_apply hN wf x idx j

end GatherRows

section Gather1
variable {N M w : Nat} {α : Type}

/-- The entry gather's dimension numbers for an operand `[N]`, start indices `[M, 1]` and a result `[M]`. -/
abbrev gather1Dims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the operand at `idx[e, 0]`, read signed and clamped into `[0, N − 1]`. -/
theorem gather1Dims_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : (⟨1, ![M]⟩ : Shape).Idx) :
    Host.gather (gather1Dims N M wf) x idx j
      = x (ix1 ⟨min (idx (ix2 (j 0) 0)).toInt.toNat (N - 1), by omega⟩) := by
  unfold Host.gather
  congr 1
  funext a
  obtain rfl : a = 0 := Subsingleton.elim _ _
  refine Fin.ext ?_
  show (gather1Dims N M wf).start j idx 0 + (gather1Dims N M wf).batchCoord j 0 + (gather1Dims N M wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N M wf).startIndexMap from List.mem_singleton.mpr rfl)]
  have hsi : (gather1Dims N M wf).siIdx j ⟨List.idxOf (0 : Fin 1) (gather1Dims N M wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The same for any record with the entry gather's fields. -/
theorem gather1_apply (hN : 0 < N) (d : GatherDims ⟨1, ![N]⟩ ⟨2, ![M, 1]⟩ ⟨1, ![M]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![M, 1]⟩ w) (j : (⟨1, ![M]⟩ : Shape).Idx) :
    Host.gather d x idx j = x (ix1 ⟨min (idx (ix2 (j 0) 0)).toInt.toNat (N - 1), by omega⟩) := by
  obtain ⟨od, cd, ob, sb, sm, iv, ss, wf⟩ := d
  simp only at h1 h2 h3 h4 h5 h6 h7
  subst h1 h2 h3 h4 h5 h6 h7
  exact gather1Dims_apply hN wf x idx j

end Gather1

end Cert.IdxLemmas

end
-- ==== Proof.KIRead.lean ====
/- The arrays the kernel's grid region is launched on, read at an index, at the ideal values: the narrowed weight
   matrices are the weight matrices; the stacked bias and gate rows are the rows; the two gated copies of the first
   feature column are that column times each gate vector; and the aggregate before the transform is, at a node and a
   feature, the sum over the edges whose target is the node of the source's feature times the edge weight. -/
import proofs.«134268_j86002425135385_2_alg».proof.Proof.KITerm
import proofs.«134268_j86002425135385_2_alg».proof.Proof.IdxLemmas
import Idealize.ShloMosaic.Lib.ValueIdx
import Idealize.ShloMosaic.Lib.Pipeline.Value
import Idealize.ShloMosaic.PureOps.Ideal.Laws

set_option maxRecDepth 16384

noncomputable section

namespace Cert.KernelIdeal.KValue

open Cert.KernelIdeal Cert.KernelIdeal.Gen Idealize.ShloMosaic Idealize.ShloMosaic.ValueIdx

/-! ## The weight matrices -/

/-- Narrowing a weight matrix changes nothing at the ideal values. -/
theorem wbf_apply (W : WMat Ideal) (i : S256x256.Idx) : (wbf (F := Ideal) W i : EReal) = (W i : EReal) := rfl

/-! ## The stacked rows -/

/-- A feature row as a 1 × 256 array reads the row. -/
theorem rowUp_apply (b : Row Ideal) (j : Fin 256) : rowUp (F := Ideal) b (ix2 (0 : Fin 1) j) = (b (ix1 j) : EReal) := by
  unfold rowUp
  refine broadcastInDim_apply _ _ b (ix2 (0 : Fin 1) j) (ix1 j) fun a => ?_
  match a with
  | ⟨0, _⟩ => show j.val = if (256 : ℕ) = 1 then 0 else j.val; rw [if_neg (by decide)]

theorem bcat_apply0 (b1 b2 b3 b4 : Row Ideal) (j : Fin 256) :
    bcat (F := Ideal) b1 b2 b3 b4 (ix2 (0 : Fin 4) j) = (b1 (ix1 j) : EReal) := by
  unfold bcat
  refine (concatenate_apply_piece _ _ _ (ix2 (0 : Fin 4) j) 0 (by simp) S1x256 (rowUp b1) rfl rfl 0 rfl
    (ix2 (0 : Fin 1) j) (fun b hb => ?_) ?_).trans (rowUp_apply b1 j)
  · match b with
    | ⟨0, _⟩ => exact absurd (Fin.ext rfl) hb
    | ⟨1, _⟩ => rfl
  · rfl

theorem bcat_apply1 (b1 b2 b3 b4 : Row Ideal) (j : Fin 256) :
    bcat (F := Ideal) b1 b2 b3 b4 (ix2 (1 : Fin 4) j) = (b2 (ix1 j) : EReal) := by
  unfold bcat
  refine (concatenate_apply_piece _ _ _ (ix2 (1 : Fin 4) j) 1 (by simp) S1x256 (rowUp b2) rfl rfl 1 rfl
    (ix2 (0 : Fin 1) j) (fun b hb => ?_) ?_).trans (rowUp_apply b2 j)
  · match b with
    | ⟨0, _⟩ => exact absurd (Fin.ext rfl) hb
    | ⟨1, _⟩ => rfl
  · rfl

theorem bcat_apply2 (b1 b2 b3 b4 : Row Ideal) (j : Fin 256) :
    bcat (F := Ideal) b1 b2 b3 b4 (ix2 (2 : Fin 4) j) = (b3 (ix1 j) : EReal) := by
  unfold bcat
  refine (concatenate_apply_piece _ _ _ (ix2 (2 : Fin 4) j) 2 (by simp) S1x256 (rowUp b3) rfl rfl 2 rfl
    (ix2 (0 : Fin 1) j) (fun b hb => ?_) ?_).trans (rowUp_apply b3 j)
  · match b with
    | ⟨0, _⟩ => exact absurd (Fin.ext rfl) hb
    | ⟨1, _⟩ => rfl
  · rfl

theorem bcat_apply3 (b1 b2 b3 b4 : Row Ideal) (j : Fin 256) :
    bcat (F := Ideal) b1 b2 b3 b4 (ix2 (3 : Fin 4) j) = (b4 (ix1 j) : EReal) := by
  unfold bcat
  refine (concatenate_apply_piece _ _ _ (ix2 (3 : Fin 4) j) 3 (by simp) S1x256 (rowUp b4) rfl rfl 3 rfl
    (ix2 (0 : Fin 1) j) (fun b hb => ?_) ?_).trans (rowUp_apply b4 j)
  · match b with
    | ⟨0, _⟩ => exact absurd (Fin.ext rfl) hb
    | ⟨1, _⟩ => rfl
  · rfl

theorem pcat_apply0 (p0 p1 p2 p3 p4 p5 : Row Ideal) (j : Fin 256) :
    pcat (F := Ideal) p0 p1 p2 p3 p4 p5 (ix2 (0 : Fin 6) j) = (p0 (ix1 j) : EReal) := by
  unfold pcat
  refine (concatenate_apply_piece _ _ _ (ix2 (0 : Fin 6) j) 0 (by simp) S1x256 (rowUp p0) rfl rfl 0 rfl
    (ix2 (0 : Fin 1) j) (fun b hb => ?_) ?_).trans (rowUp_apply p0 j)
  · match b with
    | ⟨0, _⟩ => exact absurd (Fin.ext rfl) hb
    | ⟨1, _⟩ => rfl
  · rfl

theorem pcat_apply1 (p0 p1 p2 p3 p4 p5 : Row Ideal) (j : Fin 256) :
    pcat (F := Ideal) p0 p1 p2 p3 p4 p5 (ix2 (1 : Fin 6) j) = (p1 (ix1 j) : EReal) := by
  unfold pcat
  refine (concatenate_apply_piece _ _ _ (ix2 (1 : Fin 6) j) 1 (by simp) S1x256 (rowUp p1) rfl rfl 1 rfl
    (ix2 (0 : Fin 1) j) (fun b hb => ?_) ?_).trans (rowUp_apply p1 j)
  · match b with
    | ⟨0, _⟩ => exact absurd (Fin.ext rfl) hb
    | ⟨1, _⟩ => rfl
  · rfl

theorem pcat_apply2 (p0 p1 p2 p3 p4 p5 : Row Ideal) (j : Fin 256) :
    pcat (F := Ideal) p0 p1 p2 p3 p4 p5 (ix2 (2 : Fin 6) j) = (p2 (ix1 j) : EReal) := by
  unfold pcat
  refine (concatenate_apply_piece _ _ _ (ix2 (2 : Fin 6) j) 2 (by simp) S1x256 (rowUp p2) rfl rfl 2 rfl
    (ix2 (0 : Fin 1) j) (fun b hb => ?_) ?_).trans (rowUp_apply p2 j)
  · match b with
    | ⟨0, _⟩ => exact absurd (Fin.ext rfl) hb
    | ⟨1, _⟩ => rfl
  · rfl

theorem pcat_apply3 (p0 p1 p2 p3 p4 p5 : Row Ideal) (j : Fin 256) :
    pcat (F := Ideal) p0 p1 p2 p3 p4 p5 (ix2 (3 : Fin 6) j) = (p3 (ix1 j) : EReal) := by
  unfold pcat
  refine (concatenate_apply_piece _ _ _ (ix2 (3 : Fin 6) j) 3 (by simp) S1x256 (rowUp p3) rfl rfl 3 rfl
    (ix2 (0 : Fin 1) j) (fun b hb => ?_) ?_).trans (rowUp_apply p3 j)
  · match b with
    | ⟨0, _⟩ => exact absurd (Fin.ext rfl) hb
    | ⟨1, _⟩ => rfl
  · rfl

theorem pcat_apply4 (p0 p1 p2 p3 p4 p5 : Row Ideal) (j : Fin 256) :
    pcat (F := Ideal) p0 p1 p2 p3 p4 p5 (ix2 (4 : Fin 6) j) = (p4 (ix1 j) : EReal) := by
  unfold pcat
  refine (concatenate_apply_piece _ _ _ (ix2 (4 : Fin 6) j) 4 (by simp) S1x256 (rowUp p4) rfl rfl 4 rfl
    (ix2 (0 : Fin 1) j) (fun b hb => ?_) ?_).trans (rowUp_apply p4 j)
  · match b with
    | ⟨0, _⟩ => exact absurd (Fin.ext rfl) hb
    | ⟨1, _⟩ => rfl
  · rfl

theorem pcat_apply5 (p0 p1 p2 p3 p4 p5 : Row Ideal) (j : Fin 256) :
    pcat (F := Ideal) p0 p1 p2 p3 p4 p5 (ix2 (5 : Fin 6) j) = (p5 (ix1 j) : EReal) := by
  unfold pcat
  refine (concatenate_apply_piece _ _ _ (ix2 (5 : Fin 6) j) 5 (by simp) S1x256 (rowUp p5) rfl rfl 5 rfl
    (ix2 (0 : Fin 1) j) (fun b hb => ?_) ?_).trans (rowUp_apply p5 j)
  · match b with
    | ⟨0, _⟩ => exact absurd (Fin.ext rfl) hb
    | ⟨1, _⟩ => rfl
  · rfl

/-! ## The two gated copies of the first feature column -/

/-- The first feature column read at a node. -/
theorem col0_apply (x : NodeMat Ideal) (n : Fin 100000) :
    (col0 (F := Ideal) x (ix1 n) : EReal) = (x (ix2 n (0 : Fin 256)) : EReal) := by
  unfold col0
  refine (shapeCast_apply _ _ (ix1 n) (ix2 n (0 : Fin 1)) ?_).trans ?_
  · rw [Shape.rowMajor_val_two, Shape.rowMajor_val_one]; show n.val * 1 + 0 = n.val; omega
  · refine extractStridedSlice_apply _ x _ (ix2 n (0 : Fin 1)) (ix2 n (0 : Fin 256)) fun a => ?_
    match a with
    | ⟨0, _⟩ => show n.val = 0 + n.val; omega
    | ⟨1, _⟩ => rfl

/-- A value per node as a 100000 × 1 array reads the value. -/
theorem colUp_apply (v : NodeVec Ideal) (n : Fin 100000) :
    (broadcastInDim S100000x1 ![0] bcast_S100000_S100000x1_0 v (ix2 n (0 : Fin 1)) : EReal) = (v (ix1 n) : EReal) := by
  refine broadcastInDim_apply _ _ v (ix2 n (0 : Fin 1)) (ix1 n) fun a => ?_
  match a with
  | ⟨0, _⟩ => show n.val = if (100000 : ℕ) = 1 then 0 else n.val; rw [if_neg (by decide)]

/-- The first of the two columns: the first gate vector times the first feature column. -/
theorem xc_apply0 (c0 c1 : NodeVec Ideal) (x : NodeMat Ideal) (n : Fin 100000) :
    (xc (F := Ideal) c0 c1 x (ix2 n (0 : Fin 2)) : EReal) = (c0 (ix1 n) : EReal) * (x (ix2 n (0 : Fin 256)) : EReal) := by
  unfold xc
  refine (concatenate_pair_apply_left (s₁ := S100000x1) (s₂ := S100000x1) _ _ _ _ (ix2 n (0 : Fin 2)) rfl (ix2 n (0 : Fin 1)) (fun b => ?_)).trans ?_
  · match b with
    | ⟨0, _⟩ => rfl
    | ⟨1, _⟩ => rfl
  · rw [colUp_apply, mulf_apply, col0_apply]

/-- The second of the two columns: the second gate vector times the first feature column. -/
theorem xc_apply1 (c0 c1 : NodeVec Ideal) (x : NodeMat Ideal) (n : Fin 100000) :
    (xc (F := Ideal) c0 c1 x (ix2 n (1 : Fin 2)) : EReal) = (c1 (ix1 n) : EReal) * (x (ix2 n (0 : Fin 256)) : EReal) := by
  unfold xc
  refine (concatenate_pair_apply_right (s₁ := S100000x1) (s₂ := S100000x1) _ _ _ _ (ix2 n (1 : Fin 2)) rfl rfl (ix2 n (0 : Fin 1)) (fun b hb => ?_) ?_).trans ?_
  · match b with
    | ⟨0, _⟩ => rfl
    | ⟨1, _⟩ => exact absurd (Fin.ext rfl) hb
  · rfl
  · rw [colUp_apply, mulf_apply, col0_apply]

/-! ## The aggregate before the transform -/

/-- The edge weights repeated along the features read the edge's weight. -/
theorem normMat_apply (e : EdgeArg Ideal) (u : Fin 600000) (k : Fin 256) :
    (normMat (F := Ideal) e (ix2 u k) : EReal) = (norm (F := Ideal) e (ix1 u) : EReal) := by
  unfold normMat
  refine (broadcastInDim_apply _ _ _ (ix2 u k) (ix2 u (0 : Fin 1)) fun a => ?_).trans
    (broadcastInDim_apply _ _ _ (ix2 u (0 : Fin 1)) (ix1 u) fun a => ?_)
  · match a with
    | ⟨0, _⟩ => show u.val = if (600000 : ℕ) = 1 then 0 else u.val; rw [if_neg (by decide)]
    | ⟨1, _⟩ => rfl
  · match a with
    | ⟨0, _⟩ => show u.val = if (600000 : ℕ) = 1 then 0 else u.val; rw [if_neg (by decide)]

/-- The update of one edge at one feature: the feature of the edge's source (the source number read signed and
    clamped into the node range) times the edge's weight. -/
theorem aggUpd_apply (x : NodeMat Ideal) (e : EdgeArg Ideal) (u : Fin 600000) (k : Fin 256) :
    (mulf (F := Ideal) (extf (F := Ideal) .f32 (Host.gather gather_S100000x256_S600000x1_S600000x256_1_0_n_n_0_1_1256 (xbf (F := Ideal) x) (wrapIdx (F := Ideal) (rowVec e))) bitsLt_bf16_f32)
        (normMat (F := Ideal) e) (ix2 u k) : EReal)
      = (x (ix2 (⟨min ((wrapIdx (F := Ideal) (rowVec e)) (ix2 u (0 : Fin 1))).toInt.toNat (100000 - 1), by omega⟩ : Fin 100000) k) : EReal)
          * (norm (F := Ideal) e (ix1 u) : EReal) := by
  rw [mulf_apply, extf_apply, normMat_apply,
    Cert.IdxLemmas.gatherRows_apply (by decide) gather_S100000x256_S600000x1_S600000x256_1_0_n_n_0_1_1256 rfl rfl rfl rfl rfl rfl rfl]
  rfl

/-- The aggregate at a node and a feature: from zero, the sum over the edges whose target is the node of the source's
    feature times the edge's weight. -/
theorem aggIn_apply (x : NodeMat Ideal) (e : EdgeArg Ideal) (n : Fin 100000) (k : Fin 256) :
    (aggIn (F := Ideal) x e (ix2 n k) : EReal) =
      0 + ∑ u ∈ Finset.univ.filter (fun u : Fin 600000 =>
            (colIdx (F := Ideal) e (ix2 u (0 : Fin 1))).toInt = ((n.val : ℕ) : Int)),
          (x (ix2 (⟨min ((wrapIdx (F := Ideal) (rowVec e)) (ix2 u (0 : Fin 1))).toInt.toNat (100000 - 1), by omega⟩ : Fin 100000) k) : EReal)
            * (norm (F := Ideal) e (ix1 u) : EReal) := by
  have key := Cert.IdxLemmas.scatterRows_sum (β := EReal) scatter_S100000x256_S600000x1_S600000x256_1_0_0_1 rfl rfl rfl rfl (colIdx (F := Ideal) e) (ix2 n k)
    (mulf (F := Ideal) (extf (F := Ideal) .f32 (Host.gather gather_S100000x256_S600000x1_S600000x256_1_0_n_n_0_1_1256 (xbf (F := Ideal) x) (wrapIdx (F := Ideal) (rowVec e))) bitsLt_bf16_f32)
        (normMat (F := Ideal) e))
  refine (show (aggIn (F := Ideal) x e (ix2 n k) : EReal) = Ideal.ofBits .f32 0x00000000#32 + _ from rfl).trans ?_
  rw [Ideal.ofBits_zero_f32, key]
  exact congrArg (fun t => (0 : EReal) + t) (Finset.sum_congr rfl fun u _ => aggUpd_apply x e u k)

end Cert.KernelIdeal.KValue

end
-- ==== Proof.Exchange.lean ====
import Mathlib
import Idealize.ShloMosaic.PureOps.Ideal

/-!
# Exchanging aggregation and transformation over the extended reals

A graph convolution may first add up the weighted features of the edges that land on a node and then
multiply by the weight matrix, or first multiply every node's features by the weight matrix and then add
up the weighted results over those edges. Over finite values both are the same real double sum of
a e k * c e * W k over the edges e in S and the contraction index k, and the coercion of the reals into
the extended reals carries finite sums and products across. This file states that law in the shapes the
two programs print it, together with the closure facts (finite sums and products of finite values are
finite), the value of the reciprocal square root at a positive real, and the count of a finite set as a
sum of ones.
-/

namespace Cert.Exchange

open Idealize.ShloMosaic

/-! ### Coercion and finite sums -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite value is the coercion of its real part. -/
theorem coe_toReal_of_finite {x : EReal} (h : x ≠ ⊤ ∧ x ≠ ⊥) : ((x.toReal : ℝ) : EReal) = x :=
  EReal.coe_toReal h.1 h.2

/-- A finite value is the coercion of some real. -/
theorem exists_real_of_finite {x : EReal} (h : x ≠ ⊤ ∧ x ≠ ⊥) : ∃ r : ℝ, x = (r : EReal) :=
  ⟨x.toReal, (coe_toReal_of_finite h).symm⟩

/-- The coercion of a real is finite. -/
theorem finite_coe (r : ℝ) : ((r : ℝ) : EReal) ≠ ⊤ ∧ ((r : ℝ) : EReal) ≠ ⊥ :=
  ⟨EReal.coe_ne_top r, EReal.coe_ne_bot r⟩

/-! ### Closure of the finite values -/

theorem finite_zero : (0 : EReal) ≠ ⊤ ∧ (0 : EReal) ≠ ⊥ := by
  simpa using finite_coe 0

theorem finite_one : (1 : EReal) ≠ ⊤ ∧ (1 : EReal) ≠ ⊥ := by
  simpa using finite_coe 1

/-- The sum of two finite values is finite. -/
theorem finite_add {x y : EReal} (hx : x ≠ ⊤ ∧ x ≠ ⊥) (hy : y ≠ ⊤ ∧ y ≠ ⊥) :
    x + y ≠ ⊤ ∧ x + y ≠ ⊥ := by
  rw [← coe_toReal_of_finite hx, ← coe_toReal_of_finite hy, ← EReal.coe_add]
  exact finite_coe _

/-- The product of two finite values is finite. -/
theorem finite_mul {x y : EReal} (hx : x ≠ ⊤ ∧ x ≠ ⊥) (hy : y ≠ ⊤ ∧ y ≠ ⊥) :
    x * y ≠ ⊤ ∧ x * y ≠ ⊥ := by
  rw [← coe_toReal_of_finite hx, ← coe_toReal_of_finite hy, ← EReal.coe_mul]
  exact finite_coe _

/-- A finite sum of finite values is the coercion of the sum of their real parts. -/
theorem sum_eq_coe_of_finite {ι : Type*} (s : Finset ι) (f : ι → EReal)
    (hf : ∀ i ∈ s, f i ≠ ⊤ ∧ f i ≠ ⊥) :
    ∑ i ∈ s, f i = ((∑ i ∈ s, (f i).toReal : ℝ) : EReal) := by
  rw [coe_sum]
  exact Finset.sum_congr rfl fun i hi => (coe_toReal_of_finite (hf i hi)).symm

/-- A finite sum of finite values is finite. -/
theorem finite_sum {ι : Type*} (s : Finset ι) (f : ι → EReal)
    (hf : ∀ i ∈ s, f i ≠ ⊤ ∧ f i ≠ ⊥) :
    ∑ i ∈ s, f i ≠ ⊤ ∧ ∑ i ∈ s, f i ≠ ⊥ := by
  rw [sum_eq_coe_of_finite s f hf]
  exact finite_coe _

/-- A sum over a whole finite type of finite values is finite. -/
theorem finite_sum_univ {ι : Type*} [Fintype ι] (f : ι → EReal) (hf : ∀ i, f i ≠ ⊤ ∧ f i ≠ ⊥) :
    ∑ i, f i ≠ ⊤ ∧ ∑ i, f i ≠ ⊥ :=
  finite_sum Finset.univ f fun i _ => hf i

/-- A zero accumulator in front of a value changes nothing. -/
theorem zero_acc (x : EReal) : (0 : EReal) + x = x := zero_add x

/-! ### The exchange law -/

/-- Aggregate-then-transform equals transform-then-aggregate, on real data: both sides are the coercion
    of the same real double sum. -/
theorem exchange_real {E K : Type*} [Fintype K] (S : Finset E) (a : E → K → ℝ) (c : E → ℝ)
    (W : K → ℝ) :
    ∑ k, ((0 : EReal) + ∑ e ∈ S, ((a e k : ℝ) : EReal) * ((c e : ℝ) : EReal)) * ((W k : ℝ) : EReal)
      = (0 : EReal) + ∑ e ∈ S, (∑ k, ((a e k : ℝ) : EReal) * ((W k : ℝ) : EReal)) * ((c e : ℝ) : EReal) := by
  simp only [zero_add, ← EReal.coe_mul, ← coe_sum]
  congr 1
  simp only [Finset.sum_mul]
  rw [Finset.sum_comm]
  exact Finset.sum_congr rfl fun e _ => Finset.sum_congr rfl fun k _ => by ring

/-- The same with a zero accumulator in front of the contraction, as a matrix product prints it. -/
theorem exchange_real_acc {E K : Type*} [Fintype K] (S : Finset E) (a : E → K → ℝ) (c : E → ℝ)
    (W : K → ℝ) :
    (0 : EReal) + ∑ k, ((0 : EReal) + ∑ e ∈ S, ((a e k : ℝ) : EReal) * ((c e : ℝ) : EReal)) * ((W k : ℝ) : EReal)
      = (0 : EReal) + ∑ e ∈ S, (∑ k, ((a e k : ℝ) : EReal) * ((W k : ℝ) : EReal)) * ((c e : ℝ) : EReal) := by
  rw [zero_add, exchange_real]

/-- The exchange law for extended-real data that is finite on the edges summed over. -/
theorem exchange_on {E K : Type*} [Fintype K] (S : Finset E) (a : E → K → EReal) (c : E → EReal)
    (W : K → EReal) (ha : ∀ e ∈ S, ∀ k, a e k ≠ ⊤ ∧ a e k ≠ ⊥) (hc : ∀ e ∈ S, c e ≠ ⊤ ∧ c e ≠ ⊥)
    (hW : ∀ k, W k ≠ ⊤ ∧ W k ≠ ⊥) :
    ∑ k, ((0 : EReal) + ∑ e ∈ S, a e k * c e) * W k
      = (0 : EReal) + ∑ e ∈ S, (∑ k, a e k * W k) * c e := by
  have hL : ∀ k, ((0 : EReal) + ∑ e ∈ S, a e k * c e) * W k
      = ((0 : EReal) + ∑ e ∈ S, (((a e k).toReal : ℝ) : EReal) * (((c e).toReal : ℝ) : EReal))
          * (((W k).toReal : ℝ) : EReal) := by
    intro k
    rw [coe_toReal_of_finite (hW k)]
    congr 2
    exact Finset.sum_congr rfl fun e he => by
      rw [coe_toReal_of_finite (ha e he k), coe_toReal_of_finite (hc e he)]
  have hR : ∀ e ∈ S, (∑ k, a e k * W k) * c e
      = (∑ k, (((a e k).toReal : ℝ) : EReal) * (((W k).toReal : ℝ) : EReal))
          * (((c e).toReal : ℝ) : EReal) := by
    intro e he
    rw [coe_toReal_of_finite (hc e he)]
    congr 1
    exact Finset.sum_congr rfl fun k _ => by
      rw [coe_toReal_of_finite (ha e he k), coe_toReal_of_finite (hW k)]
  rw [Finset.sum_congr rfl fun k _ => hL k, Finset.sum_congr rfl hR]
  exact exchange_real S (fun e k => (a e k).toReal) (fun e => (c e).toReal) fun k => (W k).toReal

/-- The exchange law for extended-real data that is finite everywhere. -/
theorem exchange {E K : Type*} [Fintype K] (S : Finset E) (a : E → K → EReal) (c : E → EReal)
    (W : K → EReal) (ha : ∀ e k, a e k ≠ ⊤ ∧ a e k ≠ ⊥) (hc : ∀ e, c e ≠ ⊤ ∧ c e ≠ ⊥)
    (hW : ∀ k, W k ≠ ⊤ ∧ W k ≠ ⊥) :
    ∑ k, ((0 : EReal) + ∑ e ∈ S, a e k * c e) * W k
      = (0 : EReal) + ∑ e ∈ S, (∑ k, a e k * W k) * c e :=
  exchange_on S a c W (fun e _ k => ha e k) (fun e _ => hc e) hW

/-- The exchange law with a zero accumulator in front of the contraction on the left. -/
theorem exchange_acc {E K : Type*} [Fintype K] (S : Finset E) (a : E → K → EReal) (c : E → EReal)
    (W : K → EReal) (ha : ∀ e ∈ S, ∀ k, a e k ≠ ⊤ ∧ a e k ≠ ⊥) (hc : ∀ e ∈ S, c e ≠ ⊤ ∧ c e ≠ ⊥)
    (hW : ∀ k, W k ≠ ⊤ ∧ W k ≠ ⊥) :
    (0 : EReal) + ∑ k, ((0 : EReal) + ∑ e ∈ S, a e k * c e) * W k
      = (0 : EReal) + ∑ e ∈ S, (∑ k, a e k * W k) * c e := by
  rw [zero_add, exchange_on S a c W ha hc hW]

/-- The exchange law with a zero accumulator in front of both contractions: the left one a matrix product
    of the aggregated features, the right one a matrix product of each node's features. -/
theorem exchange_acc_acc {E K : Type*} [Fintype K] (S : Finset E) (a : E → K → EReal) (c : E → EReal)
    (W : K → EReal) (ha : ∀ e ∈ S, ∀ k, a e k ≠ ⊤ ∧ a e k ≠ ⊥) (hc : ∀ e ∈ S, c e ≠ ⊤ ∧ c e ≠ ⊥)
    (hW : ∀ k, W k ≠ ⊤ ∧ W k ≠ ⊥) :
    (0 : EReal) + ∑ k, ((0 : EReal) + ∑ e ∈ S, a e k * c e) * W k
      = (0 : EReal) + ∑ e ∈ S, ((0 : EReal) + ∑ k, a e k * W k) * c e := by
  simp only [zero_add]
  simpa only [zero_add] using exchange_on S a c W ha hc hW

/-! ### The reciprocal square root at a positive real -/

/-- At a positive real the reciprocal square root is the coercion of the inverse of the square root. -/
theorem rsqrt_coe_pos {y : ℝ} (hy : 0 < y) :
    Ideal.rsqrt ((y : ℝ) : EReal) = (((Real.sqrt y)⁻¹ : ℝ) : EReal) := by
  rw [Ideal.rsqrt_coe, if_neg (not_lt.2 hy.le), if_neg hy.ne']

/-- At a positive real the reciprocal square root is the coercion of a positive real. -/
theorem rsqrt_pos_exists {y : ℝ} (hy : 0 < y) :
    ∃ r : ℝ, 0 < r ∧ Ideal.rsqrt ((y : ℝ) : EReal) = (r : EReal) :=
  ⟨(Real.sqrt y)⁻¹, inv_pos.2 (Real.sqrt_pos.2 hy), rsqrt_coe_pos hy⟩

/-- At a positive real the reciprocal square root is finite. -/
theorem rsqrt_finite_of_pos {y : ℝ} (hy : 0 < y) :
    Ideal.rsqrt ((y : ℝ) : EReal) ≠ ⊤ ∧ Ideal.rsqrt ((y : ℝ) : EReal) ≠ ⊥ := by
  rw [rsqrt_coe_pos hy]
  exact finite_coe _

/-- At a positive natural number the reciprocal square root is the coercion of a real. -/
theorem rsqrt_natCast_exists {n : ℕ} (hn : 1 ≤ n) :
    ∃ r : ℝ, Ideal.rsqrt (((n : ℝ) : ℝ) : EReal) = (r : EReal) :=
  ⟨_, rsqrt_coe_pos (by exact_mod_cast hn)⟩

/-- At a positive natural number the reciprocal square root is finite. -/
theorem rsqrt_natCast_finite {n : ℕ} (hn : 1 ≤ n) :
    Ideal.rsqrt (((n : ℝ) : ℝ) : EReal) ≠ ⊤ ∧ Ideal.rsqrt (((n : ℝ) : ℝ) : EReal) ≠ ⊥ :=
  rsqrt_finite_of_pos (by exact_mod_cast hn)

/-! ### Counting -/

/-- Adding one for every element of a finite set, from a zero accumulator, gives its cardinality. -/
theorem sum_one_eq_card {E : Type*} (S : Finset E) :
    (0 : EReal) + ∑ _e ∈ S, (1 : EReal) = ((S.card : ℝ) : EReal) := by
  have h : ∑ _e ∈ S, (1 : EReal) = ∑ _e ∈ S, ((1 : ℝ) : EReal) :=
    Finset.sum_congr rfl fun _ _ => EReal.coe_one.symm
  rw [zero_add, h, ← coe_sum, Finset.sum_const, nsmul_eq_mul, mul_one]

/-- The reciprocal square root of the count of a nonempty set is finite. -/
theorem rsqrt_count_finite {E : Type*} (S : Finset E) (hS : S.Nonempty) :
    Ideal.rsqrt ((0 : EReal) + ∑ _e ∈ S, (1 : EReal)) ≠ ⊤
      ∧ Ideal.rsqrt ((0 : EReal) + ∑ _e ∈ S, (1 : EReal)) ≠ ⊥ := by
  rw [sum_one_eq_card]
  exact rsqrt_natCast_finite (Finset.card_pos.2 hS)

end Cert.Exchange
-- ==== Proof.IdxLemmas2.lean ====
import Idealize.ShloMosaic.PureOps.Ideal
import Idealize.ShloMosaic.Lib.ValueIdx
import Idealize.ShloMosaic.Lib.Pipeline.Value

/-!
# The self-loop entries of the extended edge list

The edge list of a graph convolution is the given 500000 edges followed by one self-loop per node: the
node numbers 0 … 99999. Read as the index vectors of a scatter, the entry at position 500000 + v is the
node number v, so every node receives at least the update of its own self-loop.
-/

noncomputable section

namespace Cert.IdxLemmas

open Idealize.ShloMosaic Idealize.ShloMosaic.ValueIdx

/-- A node number below 100000, written as a 32-bit word, reads back signed as itself. -/
theorem toInt_ofNat_node (v : Fin 100000) : (BitVec.ofNat 32 v.val).toInt = (v.val : Int) := by
  have hv := v.isLt
  have h1 : (BitVec.ofNat 32 v.val).toNat = v.val := by
    rw [BitVec.toNat_ofNat]; exact Nat.mod_eq_of_lt (by omega)
  have ht := BitVec.toInt_eq_toNat_cond (BitVec.ofNat 32 v.val)
  rw [h1] at ht
  split at ht <;> omega

/-- The edge list extended by the self-loops, as a column of index vectors of length one. -/
abbrev extIdx (hc : Shape.Concatenates [⟨1, ![500000]⟩, ⟨1, ![100000]⟩] ⟨1, ![600000]⟩ 0)
    (hb : (⟨1, ![600000]⟩ : Shape).BroadcastsInDim ⟨2, ![600000, 1]⟩ (![0] : Fin 1 → Fin 2))
    (col : IVec ⟨1, ![500000]⟩ 32) : IVec ⟨2, ![600000, 1]⟩ 32 :=
  broadcastInDim ⟨2, ![600000, 1]⟩ ![0] hb
    (concatenate ⟨1, ![600000]⟩ 0 [⟨⟨1, ![500000]⟩, col⟩, ⟨⟨1, ![100000]⟩, iotaInDim ⟨1, ![100000]⟩ 32 0⟩] hc)

/-- THE SELF-LOOP ENTRY: position 500000 + v of the extended list holds the node number v. -/
theorem extIdx_selfLoop (hc : Shape.Concatenates [⟨1, ![500000]⟩, ⟨1, ![100000]⟩] ⟨1, ![600000]⟩ 0)
    (hb : (⟨1, ![600000]⟩ : Shape).BroadcastsInDim ⟨2, ![600000, 1]⟩ (![0] : Fin 1 → Fin 2))
    (col : IVec ⟨1, ![500000]⟩ 32) (v : Fin 100000) :
    (extIdx hc hb col (ix2 ⟨500000 + v.val, by omega⟩ 0)).toInt = (v.val : Int) := by
  have hv := v.isLt
  have e1 : extIdx hc hb col (ix2 ⟨500000 + v.val, by omega⟩ 0)
      = concatenate ⟨1, ![600000]⟩ 0 [⟨⟨1, ![500000]⟩, col⟩, ⟨⟨1, ![100000]⟩, iotaInDim ⟨1, ![100000]⟩ 32 0⟩] hc
          (ix1 ⟨500000 + v.val, by omega⟩) := by
    refine broadcastInDim_apply _ hb _ _ _ fun a => ?_
    obtain rfl : a = 0 := Subsingleton.elim _ _
    rw [if_neg (by decide)]
    rfl
  have e2 : concatenate ⟨1, ![600000]⟩ 0 [⟨⟨1, ![500000]⟩, col⟩, ⟨⟨1, ![100000]⟩, iotaInDim ⟨1, ![100000]⟩ 32 0⟩] hc
      (ix1 ⟨500000 + v.val, by omega⟩) = iotaInDim ⟨1, ![100000]⟩ 32 0 (ix1 v) := by
    refine concatenate_pair_apply_right 0 col _ hc _ rfl rfl (ix1 v) (fun b hb => ?_) ?_
    · exact absurd (Subsingleton.elim _ _) hb
    · show v.val + 500000 = 500000 + v.val
      omega
  rw [e1, e2]
  exact toInt_ofNat_node v

end Cert.IdxLemmas

end
-- ==== Proof.IdxLemmas3.lean ====
import proofs.«134268_j86002425135385_2_alg».proof.Proof.IdxLemmas
import proofs.«134268_j86002425135385_2_alg».proof.Proof.IdxLemmas2
import proofs.«134268_j86002425135385_2_alg».proof.Proof.Exchange
import Idealize.ShloMosaic.Lib.IdealHost

/-!
# The accumulating scatter read at an index

At the exact instance an accumulating scatter is the operand plus the sum of the updates that land on each
element. For the entry scatter and the row scatter of a graph aggregation, that sum runs over the edges whose
index is the element's row.
-/

noncomputable section

open scoped BigOperators

namespace Cert.IdxLemmas

open Idealize.ShloMosaic Idealize.ShloMosaic.ValueIdx

/-- THE ENTRY SCATTER READ AT `i`: the operand's entry plus the updates of the edges whose index is `i`. -/
theorem hostScatterAdd1_apply {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![M, 1]⟩ w) (upd : (⟨1, ![M]⟩ : Shape).Idx → EReal)
    (i : (⟨1, ![N]⟩ : Shape).Idx) :
    Ideal.hostScatterAdd d x idx upd i
      = x i + ∑ e ∈ Finset.univ.filter (fun e : Fin M => (idx (ix2 e 0)).toInt = ((i 0).val : Int)), upd (ix1 e) := by
  unfold Ideal.hostScatterAdd
  rw [scatter1_sum d h1 h2 h3 h4]

/-- THE ROW SCATTER READ AT `(n, k)`: the operand's entry plus column `k` of the updates of the edges whose index is `n`. -/
theorem hostScatterAddRows_apply {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![M, 1]⟩ w) (upd : (⟨2, ![M, C]⟩ : Shape).Idx → EReal)
    (i : (⟨2, ![N, C]⟩ : Shape).Idx) :
    Ideal.hostScatterAdd d x idx upd i
      = x i + ∑ e ∈ Finset.univ.filter (fun e : Fin M => (idx (ix2 e 0)).toInt = ((i 0).val : Int)),
          upd (ix2 e (i 1)) := by
  unfold Ideal.hostScatterAdd
  rw [scatterRows_sum d h1 h2 h3 h4]

/-! ## The in-degree with self-loops, its inverse square root, and the edge weights

Stated over the literal shapes and for any records and side conditions with the right fields, so that the
statements apply to both programs' spellings. -/

/-- The host's inverse square root reads elementwise. -/
theorem hostRsqrt_apply {s : Shape} (x : s.Idx → EReal) (k : s.Idx) :
    Host.rsqrt (F := Ideal) (φ := .f32) x k = Ideal.rsqrt (x k) := rfl

/-- At the exact instance the host's accumulating scatter is the operand plus the sum of the landing updates. -/
theorem hostScatterAdd_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

section Degree

variable (ds : ScatterDims ⟨1, ![100000]⟩ ⟨2, ![600000, 1]⟩ ⟨1, ![600000]⟩)
  (hc : Shape.Concatenates [⟨1, ![500000]⟩, ⟨1, ![100000]⟩] ⟨1, ![600000]⟩ 0)
  (hb : (⟨1, ![600000]⟩ : Shape).BroadcastsInDim ⟨2, ![600000, 1]⟩ (![0] : Fin 1 → Fin 2))
  (hz : (⟨0, ![]⟩ : Shape).BroadcastsInDim ⟨1, ![100000]⟩ (![] : Fin 0 → Fin 1))
  (ho : (⟨0, ![]⟩ : Shape).BroadcastsInDim ⟨1, ![600000]⟩ (![] : Fin 0 → Fin 1))
  (col : IVec ⟨1, ![500000]⟩ 32)

/-- The in-degrees: ones accumulated, from zero, at the targets of the edge list extended by the self-loops. -/
abbrev degSL : (⟨1, ![100000]⟩ : Shape).Idx → EReal :=
  Host.scatterAdd (F := Ideal) (φ := .f32) ds
    (broadcastInDim ⟨1, ![100000]⟩ ![] hz (constant (F := Ideal) ⟨0, ![]⟩ .f32 0x00000000#32))
    (extIdx hc hb col)
    (broadcastInDim ⟨1, ![600000]⟩ ![] ho (constant (F := Ideal) ⟨0, ![]⟩ .f32 0x3F800000#32))

/-- THE IN-DEGREE OF NODE `k`: from zero, one for every extended edge whose target is `k`. -/
theorem degSL_apply (hs1 : ds.updateWindowDims = []) (hs2 : ds.insertedWindowDims = [0])
    (hs3 : ds.scatterDimsToOperandDims = [0]) (hs4 : ds.indexVectorDim = 1) (k : (⟨1, ![100000]⟩ : Shape).Idx) :
    degSL ds hc hb hz ho col k = (0 : EReal) + ∑ _u ∈ Finset.univ.filter
      (fun u : Fin 600000 => (extIdx hc hb col (ix2 u 0)).toInt = ((k 0).val : Int)), (1 : EReal) := by
  unfold degSL
  rw [hostScatterAdd_ideal, hostScatterAdd1_apply ds hs1 hs2 hs3 hs4,
    broadcastInDim_scalar_apply, constant_apply, Ideal.ofBits_zero_f32]
  refine congrArg _ (Finset.sum_congr rfl fun u _ => ?_)
  rw [broadcastInDim_scalar_apply, constant_apply, Ideal.ofBits_one_f32]

/-- The set of extended edges with target `k` is not empty: it holds `k`'s self-loop. -/
theorem targets_nonempty (k : (⟨1, ![100000]⟩ : Shape).Idx) :
    (Finset.univ.filter
      (fun u : Fin 600000 => (extIdx hc hb col (ix2 u 0)).toInt = ((k 0).val : Int))).Nonempty :=
  ⟨⟨500000 + (k 0).val, by have h : (k 0).val < 100000 := (k 0).isLt; omega⟩,
    Finset.mem_filter.2 ⟨Finset.mem_univ _, extIdx_selfLoop hc hb col (k 0)⟩⟩

/-- The inverse square root of every in-degree is finite. -/
theorem rsqrt_degSL_finite (hs1 : ds.updateWindowDims = []) (hs2 : ds.insertedWindowDims = [0])
    (hs3 : ds.scatterDimsToOperandDims = [0]) (hs4 : ds.indexVectorDim = 1) (k : (⟨1, ![100000]⟩ : Shape).Idx) :
    Host.rsqrt (F := Ideal) (φ := .f32) (degSL ds hc hb hz ho col) k ≠ ⊤
      ∧ Host.rsqrt (F := Ideal) (φ := .f32) (degSL ds hc hb hz ho col) k ≠ ⊥ := by
  rw [hostRsqrt_apply, degSL_apply ds hc hb hz ho col hs1 hs2 hs3 hs4]
  exact Cert.Exchange.rsqrt_count_finite _ (targets_nonempty hc hb col k)

end Degree

/-- A product of two gathers from an everywhere finite operand is finite, whatever the index vectors:
    a gather reads some element of its operand. -/
theorem mulf_gather_finite {s si t : Shape} {w : Nat} (dg : GatherDims s si t) (x : s.Idx → EReal)
    (hx : ∀ k, x k ≠ ⊤ ∧ x k ≠ ⊥) (i1 i2 : IVec si w) (j : t.Idx) :
    mulf (F := Ideal) (φ := .f32) (Host.gather dg x i1) (Host.gather dg x i2) j ≠ ⊤
      ∧ mulf (F := Ideal) (φ := .f32) (Host.gather dg x i1) (Host.gather dg x i2) j ≠ ⊥ :=
  Cert.Exchange.finite_mul (hx (dg.operandIdx j i1)) (hx (dg.operandIdx j i2))

/-- THE EDGE WEIGHTS ARE FINITE: the product of the inverse square roots of two in-degrees, at whichever nodes the
    two index vectors name. -/
theorem norm_finite_SL
    (ds : ScatterDims ⟨1, ![100000]⟩ ⟨2, ![600000, 1]⟩ ⟨1, ![600000]⟩)
    (hs1 : ds.updateWindowDims = []) (hs2 : ds.insertedWindowDims = [0]) (hs3 : ds.scatterDimsToOperandDims = [0])
    (hs4 : ds.indexVectorDim = 1)
    (hc : Shape.Concatenates [⟨1, ![500000]⟩, ⟨1, ![100000]⟩] ⟨1, ![600000]⟩ 0)
    (hb : (⟨1, ![600000]⟩ : Shape).BroadcastsInDim ⟨2, ![600000, 1]⟩ (![0] : Fin 1 → Fin 2))
    (hz : (⟨0, ![]⟩ : Shape).BroadcastsInDim ⟨1, ![100000]⟩ (![] : Fin 0 → Fin 1))
    (ho : (⟨0, ![]⟩ : Shape).BroadcastsInDim ⟨1, ![600000]⟩ (![] : Fin 0 → Fin 1))
    (col : IVec ⟨1, ![500000]⟩ 32)
    {t si : Shape} {w : Nat} (dg : GatherDims ⟨1, ![100000]⟩ si t) (i1 i2 : IVec si w) (j : t.Idx) :
    mulf (F := Ideal) (φ := .f32)
        (Host.gather dg (Host.rsqrt (F := Ideal) (φ := .f32) (degSL ds hc hb hz ho col)) i1)
        (Host.gather dg (Host.rsqrt (F := Ideal) (φ := .f32) (degSL ds hc hb hz ho col)) i2) j ≠ ⊤
      ∧ mulf (F := Ideal) (φ := .f32)
        (Host.gather dg (Host.rsqrt (F := Ideal) (φ := .f32) (degSL ds hc hb hz ho col)) i1)
        (Host.gather dg (Host.rsqrt (F := Ideal) (φ := .f32) (degSL ds hc hb hz ho col)) i2) j ≠ ⊥ :=
  mulf_gather_finite dg _ (rsqrt_degSL_finite ds hc hb hz ho col hs1 hs2 hs3 hs4) i1 i2 j

end Cert.IdxLemmas

end
-- ==== Proof.NormFinite.lean ====
import proofs.«134268_j86002425135385_2_alg».proof.Proof.RefTerm
import proofs.«134268_j86002425135385_2_alg».proof.Proof.IdxLemmas3

/-!
# The edge weights of the reference are finite

Every node has its own self-loop among the extended edges, so its in-degree is the count of a nonempty
set: a positive natural number. The inverse square root of such a number is a real, and an edge weight
is the product of two of them, whichever nodes the edge names (a gather reads some element of its operand).
The argument is the general one for an edge list extended by self-loops; here it is read at the reference's
own definitions.
-/

noncomputable section

namespace Cert.ReferenceIdeal.RefValue

open Cert.ReferenceIdeal Cert.ReferenceIdeal.Gen Idealize.ShloMosaic Idealize.ShloMosaic.ValueIdx
open Cert.IdxLemmas

/-- The inverse square root of every in-degree is finite. -/
theorem dis_finite (e : EdgeArg Ideal) (k : S100000.Idx) :
    dis (F := Ideal) e k ≠ ⊤ ∧ dis (F := Ideal) e k ≠ ⊥ := by
  have h := rsqrt_degSL_finite scatter_S100000_S600000x1_S600000_n_0_0_1 concatenates_S500000_S100000_S600000_d0
    bcast_S600000_S600000x1_0 bcast_S_S100000 bcast_S_S600000
    (shapeCast _ (extractStridedSlice S1x500000 ![1, 0] e slices_S2x500000_S1x500000_1_0) shapeCasts_S1x500000_S500000)
    rfl rfl rfl rfl k
  delta dis deg colIdx colVec selfLoops
  exact h

/-- Every edge weight is finite. -/
theorem norm_finite_at (e : EdgeArg Ideal) (j : S600000.Idx) :
    norm (F := Ideal) e j ≠ ⊤ ∧ norm (F := Ideal) e j ≠ ⊥ :=
  mulf_gather_finite gather_S100000_S600000x1_S600000_n_0_n_n_0_1_1 (dis (F := Ideal) e) (dis_finite e)
    (wrapIdx (F := Ideal) (rowVec e)) (wrapIdx (F := Ideal) (colVec e)) j

/-- Every edge weight is finite, at the edge numbered u. -/
theorem norm_finite (e : EdgeArg Ideal) (u : Fin 600000) :
    norm (F := Ideal) e (ix1 u) ≠ ⊤ ∧ norm (F := Ideal) e (ix1 u) ≠ ⊥ :=
  norm_finite_at e (ix1 u)

end Cert.ReferenceIdeal.RefValue

end
-- ==== Proof.PreFinite.lean ====
/- From the precondition to finiteness: the printed predicate is a conjunction, over the seventeen float input arrays,
   of "every entry's absolute value is below plus infinity"; at the ideal values an entry whose absolute value is below
   plus infinity is neither infinity, so when the predicate is all ones every entry of every array is finite. -/
import proofs.«134268_j86002425135385_2_alg».proof.Pre_finite_inputs
import Idealize.ShloMosaic.Lib.ReduceAll
import Idealize.ShloMosaic.Lib.ValueIdx
import Idealize.ShloMosaic.PureOps.Ideal

set_option maxRecDepth 16384

noncomputable section

namespace Cert.PreFinite

open Idealize.ShloMosaic Cert.Pre_finite_inputs

/-- The scalar shape has one index. -/
instance subsingleton_scalar_idx : Subsingleton S_.Idx := ⟨fun a b => funext fun d => d.elim0⟩

/-- The f32 pattern of plus infinity is the top element. -/
theorem ofBits_inf_f32 : Ideal.ofBits .f32 0x7F800000#32 = ⊤ := by simp [Ideal.ofBits, Ideal.ieee]

/-- An extended real whose absolute value, max x (-x), is below the top element is neither infinity. -/
theorem finite_of_abs_lt_top {x : EReal} (h : max x (-x) < ⊤) : x ≠ ⊤ ∧ x ≠ ⊥ := by
  rw [max_lt_iff] at h
  refine ⟨fun e => ?_, fun e => ?_⟩
  · rw [e] at h; exact absurd h.1 (lt_irrefl _)
  · rw [e] at h; exact absurd h.2 (by simp)

/-- One entry: the comparison "absolute value below plus infinity" reading one says the entry is finite. -/
theorem elt_finite {s : Shape} (x : FVec Ideal s .f32)
    (hb : S_.BroadcastsInDim s (![] : Fin 0 → Fin s.rank)) (i : s.Idx)
    (h : cmpf .olt (Host.absf x) (broadcastInDim s ![] hb (constant (F := Ideal) S_ .f32 0x7F800000#32)) i = 1#1) :
    (x i : EReal) ≠ ⊤ ∧ (x i : EReal) ≠ ⊥ := by
  have h' : BitVec.ofBool (decide (max (x i : EReal) (-(x i : EReal)) < Ideal.ofBits .f32 0x7F800000#32)) = 1#1 := h
  rw [ofBits_inf_f32] at h'
  refine finite_of_abs_lt_top ?_
  by_contra hn
  rw [decide_eq_false hn] at h'
  exact absurd h' (by decide)

/-- One array: the conjunction over all its entries reading one says every entry is finite. -/
theorem all_finite {s : Shape} {axes : List (Fin s.rank)} (x : FVec Ideal s .f32)
    (hb : S_.BroadcastsInDim s (![] : Fin 0 → Fin s.rank)) (hr : s.ReducesTo axes S_) (hu : 0 < S_.numel)
    (init : IVec S_ 1)
    (h : Host.reduce IntOp.andi
        (cmpf .olt (Host.absf x) (broadcastInDim s ![] hb (constant (F := Ideal) S_ .f32 0x7F800000#32)))
        init hr hu ValueIdx.ix0 = 1#1) :
    ∀ i, (x i : EReal) ≠ ⊤ ∧ (x i : EReal) ≠ ⊥ :=
  fun i => elt_finite x hb i (Host.reduce_andi_all _ init hr hu ValueIdx.ix0 h i)

/-- When the precondition is all ones, every entry of every float input array is finite. The arrays, in the
    predicate's order: the node features, the two degree vectors, then four (weight matrix, bias) pairs, then the six
    gate rows. -/
theorem finite_of_pre [Cert.Pre_finite_inputs.Facts]
    (x : FVec Ideal S100000x256 .f32) (e1 e2 e3 e4 : IVec S2x500000 32) (c0 c1 : FVec Ideal S100000 .f32)
    (W1 : FVec Ideal S256x256 .f32) (b1 : FVec Ideal S256 .f32) (W2 : FVec Ideal S256x256 .f32) (b2 : FVec Ideal S256 .f32)
    (W3 : FVec Ideal S256x256 .f32) (b3 : FVec Ideal S256 .f32) (W4 : FVec Ideal S256x256 .f32) (b4 : FVec Ideal S256 .f32)
    (p0 p1 p2 p3 p4 p5 : FVec Ideal S256 .f32)
    (h : fn (F := Ideal) x e1 e2 e3 e4 c0 c1 W1 b1 W2 b2 W3 b3 W4 b4 p0 p1 p2 p3 p4 p5 = fun _ => 1#1) :
    (∀ i, (x i : EReal) ≠ ⊤ ∧ (x i : EReal) ≠ ⊥)
      ∧ (∀ i, (c0 i : EReal) ≠ ⊤ ∧ (c0 i : EReal) ≠ ⊥) ∧ (∀ i, (c1 i : EReal) ≠ ⊤ ∧ (c1 i : EReal) ≠ ⊥)
      ∧ (∀ i, (W1 i : EReal) ≠ ⊤ ∧ (W1 i : EReal) ≠ ⊥) ∧ (∀ i, (b1 i : EReal) ≠ ⊤ ∧ (b1 i : EReal) ≠ ⊥)
      ∧ (∀ i, (W2 i : EReal) ≠ ⊤ ∧ (W2 i : EReal) ≠ ⊥) ∧ (∀ i, (b2 i : EReal) ≠ ⊤ ∧ (b2 i : EReal) ≠ ⊥)
      ∧ (∀ i, (W3 i : EReal) ≠ ⊤ ∧ (W3 i : EReal) ≠ ⊥) ∧ (∀ i, (b3 i : EReal) ≠ ⊤ ∧ (b3 i : EReal) ≠ ⊥)
      ∧ (∀ i, (W4 i : EReal) ≠ ⊤ ∧ (W4 i : EReal) ≠ ⊥) ∧ (∀ i, (b4 i : EReal) ≠ ⊤ ∧ (b4 i : EReal) ≠ ⊥)
      ∧ (∀ i, (p0 i : EReal) ≠ ⊤ ∧ (p0 i : EReal) ≠ ⊥) ∧ (∀ i, (p1 i : EReal) ≠ ⊤ ∧ (p1 i : EReal) ≠ ⊥)
      ∧ (∀ i, (p2 i : EReal) ≠ ⊤ ∧ (p2 i : EReal) ≠ ⊥) ∧ (∀ i, (p3 i : EReal) ≠ ⊤ ∧ (p3 i : EReal) ≠ ⊥)
      ∧ (∀ i, (p4 i : EReal) ≠ ⊤ ∧ (p4 i : EReal) ≠ ⊥) ∧ (∀ i, (p5 i : EReal) ≠ ⊤ ∧ (p5 i : EReal) ≠ ⊥) := by
  have h83 := congrFun h ValueIdx.ix0
  obtain ⟨h78, r16⟩ := IntOp.andi_eq_one.1 h83
  obtain ⟨h73, r15⟩ := IntOp.andi_eq_one.1 h78
  obtain ⟨h68, r14⟩ := IntOp.andi_eq_one.1 h73
  obtain ⟨h63, r13⟩ := IntOp.andi_eq_one.1 h68
  obtain ⟨h58, r12⟩ := IntOp.andi_eq_one.1 h63
  obtain ⟨h53, r11⟩ := IntOp.andi_eq_one.1 h58
  obtain ⟨h48, r10⟩ := IntOp.andi_eq_one.1 h53
  obtain ⟨h43, r9⟩ := IntOp.andi_eq_one.1 h48
  obtain ⟨h38, r8⟩ := IntOp.andi_eq_one.1 h43
  obtain ⟨h33, r7⟩ := IntOp.andi_eq_one.1 h38
  obtain ⟨h28, r6⟩ := IntOp.andi_eq_one.1 h33
  obtain ⟨h23, r5⟩ := IntOp.andi_eq_one.1 h28
  obtain ⟨h18, r4⟩ := IntOp.andi_eq_one.1 h23
  obtain ⟨h13, r3⟩ := IntOp.andi_eq_one.1 h18
  obtain ⟨h8, r2⟩ := IntOp.andi_eq_one.1 h13
  obtain ⟨r0, r1⟩ := IntOp.andi_eq_one.1 h8
  exact ⟨all_finite x _ _ _ _ r0, all_finite c0 _ _ _ _ r1, all_finite c1 _ _ _ _ r2,
    all_finite W1 _ _ _ _ r3, all_finite b1 _ _ _ _ r4, all_finite W2 _ _ _ _ r5, all_finite b2 _ _ _ _ r6,
    all_finite W3 _ _ _ _ r7, all_finite b3 _ _ _ _ r8, all_finite W4 _ _ _ _ r9, all_finite b4 _ _ _ _ r10,
    all_finite p0 _ _ _ _ r11, all_finite p1 _ _ _ _ r12, all_finite p2 _ _ _ _ r13, all_finite p3 _ _ _ _ r14,
    all_finite p4 _ _ _ _ r15, all_finite p5 _ _ _ _ r16⟩

end Cert.PreFinite

end
-- ==== Proof.Bridge.lean ====
/- The bridge: on finite inputs the kernel's result and the reference's are the same array.

   At a node `n` and a feature `j` both are the two gated copies of the first feature column times their gate rows plus,
   per convolution, (its value + bias) times its gate row, in the same order. The convolution's value is, for the kernel,
   `∑ k (∑ over the edges u with target n of x (source u) k · norm u) · W k j` — aggregate, then transform — and, for the
   reference, `∑ over the same edges of (∑ k x (source u) k · W k j) · norm u` — transform, then aggregate: one double sum
   over finitely many finite terms, equal by distributivity. The edge weights are finite because every node has its
   self-loop, so every degree is at least one; `x` and `W` are finite by the precondition. -/
import proofs.«134268_j86002425135385_2_alg».proof.Proof.KIRun
import proofs.«134268_j86002425135385_2_alg».proof.Proof.KIRead
import proofs.«134268_j86002425135385_2_alg».proof.Proof.RefValue
import proofs.«134268_j86002425135385_2_alg».proof.Proof.IdxLemmas
import proofs.«134268_j86002425135385_2_alg».proof.Proof.Exchange
import proofs.«134268_j86002425135385_2_alg».proof.Proof.NormFinite
import proofs.«134268_j86002425135385_2_alg».proof.Proof.PreFinite

noncomputable section

namespace Cert.Bridge

open Idealize.ShloMosaic Idealize.ShloMosaic.ValueIdx

/-- The reference's aggregated messages at `(n, j)` as a sum over the edges whose target is `n`: each contributes the
    transformed feature of its (clamped) source times its weight. -/
theorem agg_sum (x : Cert.ReferenceIdeal.RefValue.NodeMat Ideal) (W : Cert.ReferenceIdeal.RefValue.WMat Ideal)
    (e : Cert.ReferenceIdeal.RefValue.EdgeArg Ideal) (n : Fin 100000) (j : Fin 256) :
    Cert.ReferenceIdeal.RefValue.agg x W e (ix2 n j)
      = 0 + ∑ u ∈ Finset.univ.filter (fun u : Fin 600000 => (Cert.ReferenceIdeal.RefValue.colIdx e (ix2 u 0)).toInt = ((n.val : ℕ) : Int)),
          (∑ k : Fin 256, x (ix2 ⟨min ((Cert.ReferenceIdeal.RefValue.wrapIdx (Cert.ReferenceIdeal.RefValue.rowVec e)) (ix2 u 0)).toInt.toNat (100000 - 1), by omega⟩ k) * W (ix2 k j))
            * Cert.ReferenceIdeal.RefValue.norm e (ix1 u) := by
  rw [Cert.ReferenceIdeal.RefValue.agg_apply,
    Cert.IdxLemmas.scatterRows_sum Cert.ReferenceIdeal.scatter_S100000x256_S600000x1_S600000x256_1_0_0_1 rfl rfl rfl rfl]
  refine congrArg (fun t => (0 : EReal) + t) (Finset.sum_congr rfl fun u _ => ?_)
  rw [Cert.ReferenceIdeal.RefValue.msgs_apply,
    Cert.IdxLemmas.gatherRows_apply (by decide) Cert.ReferenceIdeal.gather_S100000x256_S600000x1_S600000x256_1_0_n_n_0_1_1256 rfl rfl rfl rfl rfl rfl rfl,
    Cert.ReferenceIdeal.RefValue.xw_apply]

/-- One convolution's value: aggregate-then-transform is transform-then-aggregate, on finite features and weights. -/
theorem conv_core (x : Cert.ReferenceIdeal.RefValue.NodeMat Ideal) (W : Cert.ReferenceIdeal.RefValue.WMat Ideal)
    (e : Cert.ReferenceIdeal.RefValue.EdgeArg Ideal)
    (hx : ∀ i, (x i : EReal) ≠ ⊤ ∧ (x i : EReal) ≠ ⊥) (hW : ∀ i, (W i : EReal) ≠ ⊤ ∧ (W i : EReal) ≠ ⊥)
    (n : Fin 100000) (j : Fin 256) :
    (∑ k : Fin 256, Cert.KernelIdeal.KValue.aggIn (F := Ideal) x e (ix2 n k) * Cert.KernelIdeal.KValue.wbf (F := Ideal) W (ix2 k j))
      = Cert.ReferenceIdeal.RefValue.agg x W e (ix2 n j) := by
  rw [agg_sum]
  simp only [Cert.KernelIdeal.KValue.aggIn_apply, Cert.KernelIdeal.KValue.wbf_apply]
  exact Cert.Exchange.exchange_on
    (Finset.univ.filter (fun u : Fin 600000 => (Cert.ReferenceIdeal.RefValue.colIdx e (ix2 u 0)).toInt = ((n.val : ℕ) : Int)))
    (fun u k => x (ix2 ⟨min ((Cert.ReferenceIdeal.RefValue.wrapIdx (Cert.ReferenceIdeal.RefValue.rowVec e)) (ix2 u 0)).toInt.toNat (100000 - 1), by omega⟩ k))
    (fun u => Cert.ReferenceIdeal.RefValue.norm e (ix1 u)) (fun k => W (ix2 k j))
    (fun u _ k => hx _) (fun u _ => Cert.ReferenceIdeal.RefValue.norm_finite e u) (fun k => hW _)

/-- The kernel's result is the reference's, on inputs of which the precondition holds. -/
theorem bridge [Cert.Pre_finite_inputs.Facts]
    (x : Cert.ReferenceIdeal.RefValue.NodeMat Ideal) (e1 e2 e3 e4 : Cert.ReferenceIdeal.RefValue.EdgeArg Ideal)
    (c0 c1 : Cert.ReferenceIdeal.RefValue.NodeVec Ideal)
    (W1 : Cert.ReferenceIdeal.RefValue.WMat Ideal) (b1 : Cert.ReferenceIdeal.RefValue.Row Ideal)
    (W2 : Cert.ReferenceIdeal.RefValue.WMat Ideal) (b2 : Cert.ReferenceIdeal.RefValue.Row Ideal)
    (W3 : Cert.ReferenceIdeal.RefValue.WMat Ideal) (b3 : Cert.ReferenceIdeal.RefValue.Row Ideal)
    (W4 : Cert.ReferenceIdeal.RefValue.WMat Ideal) (b4 : Cert.ReferenceIdeal.RefValue.Row Ideal)
    (p0 p1 p2 p3 p4 p5 : Cert.ReferenceIdeal.RefValue.Row Ideal)
    (h : Cert.Pre_finite_inputs.fn (F := Ideal) x e1 e2 e3 e4 c0 c1 W1 b1 W2 b2 W3 b3 W4 b4 p0 p1 p2 p3 p4 p5 = fun _ => 1#1) :
    Cert.KernelIdeal.KValue.kernelResult x e1 e2 e3 e4 c0 c1 W1 b1 W2 b2 W3 b3 W4 b4 p0 p1 p2 p3 p4 p5 = Cert.ReferenceIdeal.RefValue.result x e1 e2 e3 e4 c0 c1 W1 b1 W2 b2 W3 b3 W4 b4 p0 p1 p2 p3 p4 p5 := by
  obtain ⟨hx, hc0, hc1, hW1, hb1, hW2, hb2, hW3, hb3, hW4, hb4, hp0, hp1, hp2, hp3, hp4, hp5⟩ :=
    Cert.PreFinite.finite_of_pre x e1 e2 e3 e4 c0 c1 W1 b1 W2 b2 W3 b3 W4 b4 p0 p1 p2 p3 p4 p5 h
  funext i
  obtain ⟨n, j, rfl⟩ : ∃ (n : Fin 100000) (j : Fin 256), i = ix2 n j := ⟨i 0, i 1, eq_ix2 i⟩
  rw [Cert.ReferenceIdeal.RefValue.result_apply]
  show Cert.KernelIdeal.KFinal.gk (Cert.KernelIdeal.KValue.xc c0 c1 x) (Cert.KernelIdeal.KValue.aggIn x e1) (Cert.KernelIdeal.KValue.aggIn x e2)
      (Cert.KernelIdeal.KValue.aggIn x e3) (Cert.KernelIdeal.KValue.aggIn x e4) (Cert.KernelIdeal.KValue.wbf W1) (Cert.KernelIdeal.KValue.wbf W2)
      (Cert.KernelIdeal.KValue.wbf W3) (Cert.KernelIdeal.KValue.wbf W4) (Cert.KernelIdeal.KValue.bcat b1 b2 b3 b4)
      (Cert.KernelIdeal.KValue.pcat p0 p1 p2 p3 p4 p5) n j = _
  unfold Cert.KernelIdeal.KFinal.gk
  rw [conv_core x W1 e1 hx hW1 n j, conv_core x W2 e2 hx hW2 n j, conv_core x W3 e3 hx hW3 n j, conv_core x W4 e4 hx hW4 n j,
    Cert.KernelIdeal.KValue.xc_apply0, Cert.KernelIdeal.KValue.xc_apply1,
    Cert.KernelIdeal.KValue.pcat_apply0, Cert.KernelIdeal.KValue.pcat_apply1, Cert.KernelIdeal.KValue.pcat_apply2,
    Cert.KernelIdeal.KValue.pcat_apply3, Cert.KernelIdeal.KValue.pcat_apply4, Cert.KernelIdeal.KValue.pcat_apply5,
    Cert.KernelIdeal.KValue.bcat_apply0, Cert.KernelIdeal.KValue.bcat_apply1, Cert.KernelIdeal.KValue.bcat_apply2,
    Cert.KernelIdeal.KValue.bcat_apply3]

end Cert.Bridge

end
-- ==== Proof.Claims.lean ====
/- The five claims. Both kernel programs terminate without a fault and leave their arguments as launched (their grid
   region's frame); so does the reference (its run, with the result dropped); the idealization rewrote nothing; and at
   the exact instance the two results agree: the kernel aggregates each edge set's source features first and applies the
   weight matrix afterwards, the reference applies it first and aggregates afterwards, and with every float input
   finite the two are one double sum (distributivity over finite reals), all other operations being shared. -/
import proofs.«134268_j86002425135385_2_alg».proof.Defs
import proofs.«134268_j86002425135385_2_alg».proof.Proof.Gen.Kernel
import proofs.«134268_j86002425135385_2_alg».proof.Proof.Gen.KernelIdeal
import proofs.«134268_j86002425135385_2_alg».proof.Proof.Gen.ReferenceIdeal
import proofs.«134268_j86002425135385_2_alg».proof.Proof.Gen.Pre_finite_inputs
import proofs.«134268_j86002425135385_2_alg».proof.Proof.KFrame
import proofs.«134268_j86002425135385_2_alg».proof.Proof.KIRun
import proofs.«134268_j86002425135385_2_alg».proof.Proof.RefValue
import proofs.«134268_j86002425135385_2_alg».proof.Proof.Bridge

noncomputable section

namespace Cert.Proof.Claims

open Idealize.ShloMosaic Idealize.ShloMosaic.TcCoe Idealize.SL.Sem

theorem frame_p : Cert.frame_Kernel := fun m ρ _ => Cert.Kernel.HFrame.frame m ρ
theorem frame_pi : Cert.frame_KernelIdeal := fun m ρ _ => Cert.KernelIdeal.HFrame.frame m ρ
theorem frame_ri : Cert.frame_ReferenceIdeal := fun m ρ _ => Cert.ReferenceIdeal.RefValue.frame m ρ

/-- The idealization applied no rewrite: there is nothing to preserve. -/
theorem preserves : Cert.preserves_Kernel_KernelIdeal := trivial

/-- From memories agreeing on the arguments both programs run, and the kernel's result array is the reference's. -/
theorem algebraic : Cert.algebraic_KernelIdeal_ReferenceIdeal := by
  intro m ρ m' ρ' hpre hagree
  refine ⟨fun c => Cert.KernelIdeal.KValue.kernelResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), Cert.KernelIdeal.KValue.run m ρ, ?_⟩
  refine (θ_run Cert.ReferenceIdeal.defs _ _).mono (fun r h c => ⟨(h c).1.trans ?_, (h c).2⟩)
    (Cert.ReferenceIdeal.RefValue.run (F := Ideal) m' ρ')
  obtain ⟨a0, a1, a2, a3, a4, a5, a6, a7, a8, a9, a10, a11, a12, a13, a14, a15, a16, a17, a18, a19, a20⟩ := hagree c
  rw [a0, a1, a2, a3, a4, a5, a6, a7, a8, a9, a10, a11, a12, a13, a14, a15, a16, a17, a18, a19, a20]
  exact (Cert.Bridge.bridge _ _ _ _ _ _ _ _ _ _ _ _ _ _ _ _ _ _ _ _ _ (hpre c)).symm

end Cert.Proof.Claims

end
-- ==== Proof.lean ====
/- The certificate: the programs' stated facts (their generated instances) and the five claims of Proof/Claims.lean —
   the frames of the kernel, of its idealization and of the reference, the (empty) preservation statement, and the
   equality of the idealized kernel's and the idealized reference's results on finite inputs. -/
import proofs.«134268_j86002425135385_2_alg».proof.Defs
import proofs.«134268_j86002425135385_2_alg».proof.Proof.Gen.Kernel
import proofs.«134268_j86002425135385_2_alg».proof.Proof.Gen.Kernel.Skeleton
import proofs.«134268_j86002425135385_2_alg».proof.Proof.Gen.Kernel.Launch
import proofs.«134268_j86002425135385_2_alg».proof.Proof.Gen.Kernel.Points
import proofs.«134268_j86002425135385_2_alg».proof.Proof.Gen.KernelIdeal
import proofs.«134268_j86002425135385_2_alg».proof.Proof.Gen.KernelIdeal.Skeleton
import proofs.«134268_j86002425135385_2_alg».proof.Proof.Gen.KernelIdeal.Launch
import proofs.«134268_j86002425135385_2_alg».proof.Proof.Gen.KernelIdeal.Points
import proofs.«134268_j86002425135385_2_alg».proof.Proof.Gen.ReferenceIdeal
import proofs.«134268_j86002425135385_2_alg».proof.Proof.Gen.Pre_finite_inputs
import proofs.«134268_j86002425135385_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
